-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v28)) (v3 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_v29) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x4x16x16 : Shape := ⟨5, ![16, 4, 4, 16, 16]⟩
abbrev S16x512x4x16x16 : Shape := ⟨5, ![16, 512, 4, 16, 16]⟩
abbrev S512 : Shape := ⟨1, ![512]⟩
abbrev S512x512 : Shape := ⟨2, ![512, 512]⟩
abbrev S512x1024 : Shape := ⟨2, ![512, 1024]⟩
abbrev S512x1536 : Shape := ⟨2, ![512, 1536]⟩
abbrev S512x2048 : Shape := ⟨2, ![512, 2048]⟩
abbrev S_ : Shape := ⟨0, ![]⟩

class Facts : Prop where
  bcast_S_S16x512x4x16x16 : S_.BroadcastsInDim S16x512x4x16x16 (![] : Fin 0 → Fin S16x512x4x16x16.rank)
  reducesTo_S16x512x4x16x16_S_d0_1_2_3_4 : S16x512x4x16x16.ReducesTo [0, 1, 2, 3, 4] S_
  h_S_ : 0 < S_.numel
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1024 : S_.BroadcastsInDim S512x1024 (![] : Fin 0 → Fin S512x1024.rank)
  reducesTo_S512x1024_S_d0_1 : S512x1024.ReducesTo [0, 1] S_
  bcast_S_S512x1536 : S_.BroadcastsInDim S512x1536 (![] : Fin 0 → Fin S512x1536.rank)
  reducesTo_S512x1536_S_d0_1 : S512x1536.ReducesTo [0, 1] S_
  bcast_S_S512x2048 : S_.BroadcastsInDim S512x2048 (![] : Fin 0 → Fin S512x2048.rank)
  reducesTo_S512x2048_S_d0_1 : S512x2048.ReducesTo [0, 1] S_
  bcast_S_S16x4x4x16x16 : S_.BroadcastsInDim S16x4x4x16x16 (![] : Fin 0 → Fin S16x4x4x16x16.rank)
  reducesTo_S16x4x4x16x16_S_d0_1_2_3_4 : S16x4x4x16x16.ReducesTo [0, 1, 2, 3, 4] S_

variable [Facts]

def fn_part4 {F : FTy → Type} [FloatOps F] (main_v63 : IVec S_ 1) (main_v65 : IVec S16x4x4x16x16 1) (main_v67 : IVec S16x4x4x16x16 1) : IVec S_ 1 :=
  let main_v68 : IVec S16x4x4x16x16 1 := andi main_v65 main_v67
  let main_c_26 : IVec S_ 1 := constantI S_ 1 1#1
  let main_v69 : IVec S_ 1 := (fun x v => Host.reduce IntOp.andi x v reducesTo_S16x4x4x16x16_S_d0_1_2_3_4 h_S_) main_v68 main_c_26
  let main_v70 : IVec S_ 1 := andi main_v63 main_v69
  main_v70

def fn_part3 {F : FTy → Type} [FloatOps F] (main_arg0 : IVec S16x4x4x16x16 32) (main_arg12 : FVec F S512x512 .f32) (main_arg13 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg12
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_c_24 : IVec S_ 32 := constantI S_ 32 0#32
  let main_v64 : IVec S16x4x4x16x16 32 := broadcastInDim S16x4x4x16x16 ![] bcast_S_S16x4x4x16x16 main_c_24
  let main_v65 : IVec S16x4x4x16x16 1 := cmpi .sge main_arg0 main_v64
  let main_c_25 : IVec S_ 32 := constantI S_ 32 512#32
  let main_v66 : IVec S16x4x4x16x16 32 := broadcastInDim S16x4x4x16x16 ![] bcast_S_S16x4x4x16x16 main_c_25
  let main_v67 : IVec S16x4x4x16x16 1 := cmpi .slt main_arg0 main_v66
  fn_part4 (F := F) main_v63 main_v65 main_v67

def fn_part2 {F : FTy → Type} [FloatOps F] (main_arg0 : IVec S16x4x4x16x16 32) (main_arg8 : FVec F S512x1536 .f32) (main_arg9 : FVec F S512 .f32) (main_arg10 : FVec F S512x2048 .f32) (main_arg11 : FVec F S512 .f32) (main_arg12 : FVec F S512x512 .f32) (main_arg13 : FVec F S512 .f32) (main_v33 : IVec S_ 1) : IVec S_ 1 :=
  let main_v34 : FVec F S512x1536 .f32 := Host.absf main_arg8
  let main_cst_12 : FVec F S_ .f32 := constant S_ .f32 0x7F800000#32
  let main_v35 : FVec F S512x1536 .f32 := broadcastInDim S512x1536 ![] bcast_S_S512x1536 main_cst_12
  let main_v36 : IVec S512x1536 1 := cmpf .olt main_v34 main_v35
  let main_c_13 : IVec S_ 1 := constantI S_ 1 1#1
  let main_v37 : IVec S_ 1 := (fun x v => Host.reduce IntOp.andi x v reducesTo_S512x1536_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x2048 .f32 := Host.absf main_arg10
  let main_cst_16 : FVec F S_ .f32 := constant S_ .f32 0x7F800000#32
  let main_v45 : FVec F S512x2048 .f32 := broadcastInDim S512x2048 ![] bcast_S_S512x2048 main_cst_16
  let main_v46 : IVec S512x2048 1 := cmpf .olt main_v44 main_v45
  let main_c_17 : IVec S_ 1 := constantI S_ 1 1#1
  let main_v47 : IVec S_ 1 := (fun x v => Host.reduce IntOp.andi x v reducesTo_S512x2048_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg0 main_arg12 main_arg13 main_v48 main_v49 main_v50

def fn_part1 {F : FTy → Type} [FloatOps F] (main_arg0 : IVec S16x4x4x16x16 32) (main_arg5 : FVec F S512 .f32) (main_arg6 : FVec F S512x1024 .f32) (main_arg7 : FVec F S512 .f32) (main_arg8 : FVec F S512x1536 .f32) (main_arg9 : FVec F S512 .f32) (main_arg10 : FVec F S512x2048 .f32) (main_arg11 : FVec F S512 .f32) (main_arg12 : FVec F S512x512 .f32) (main_arg13 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1024 .f32 := Host.absf main_arg6
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S16x4x4x16x16 32) (main_arg1 : FVec F S16x512x4x16x16 .f32) (main_arg2 : FVec F S512 .f32) (main_arg3 : FVec F S512 .f32) (main_arg4 : FVec F S512x512 .f32) (main_arg5 : FVec F S512 .f32) (main_arg6 : FVec F S512x1024 .f32) (main_arg7 : FVec F S512 .f32) (main_arg8 : FVec F S512x1536 .f32) (main_arg9 : FVec F S512 .f32) (main_arg10 : FVec F S512x2048 .f32) (main_arg11 : FVec F S512 .f32) (main_arg12 : FVec F S512x512 .f32) (main_arg13 : FVec F S512 .f32) : IVec S_ 1 :=
  let main_v0 : FVec F S16x512x4x16x16 .f32 := Host.absf main_arg1
  let main_cst : FVec F S_ .f32 := constant S_ .f32 0x7F800000#32
  let main_v1 : FVec F S16x512x4x16x16 .f32 := broadcastInDim S16x512x4x16x16 ![] bcast_S_S16x512x4x16x16 main_cst
  let main_v2 : IVec S16x512x4x16x16 1 := cmpf .olt main_v0 main_v1
  let main_c : IVec S_ 1 := constantI S_ 1 1#1
  let main_v3 : IVec S_ 1 := (fun x v => Host.reduce IntOp.andi x v reducesTo_S16x512x4x16x16_S_d0_1_2_3_4 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg0 main_arg5 main_arg6 main_arg7 main_arg8 main_arg9 main_arg10 main_arg11 main_arg12 main_arg13 main_v13 main_v16
-- ==== Kernel.lean ====
abbrev S16x4x4x16x16 : Shape := ⟨5, ![16, 4, 4, 16, 16]⟩
abbrev S16x512x4x16x16 : Shape := ⟨5, ![16, 512, 4, 16, 16]⟩
abbrev S512 : Shape := ⟨1, ![512]⟩
abbrev S512x512 : Shape := ⟨2, ![512, 512]⟩
abbrev S512x1024 : Shape := ⟨2, ![512, 1024]⟩
abbrev S512x1536 : Shape := ⟨2, ![512, 1536]⟩
abbrev S512x2048 : Shape := ⟨2, ![512, 2048]⟩
abbrev S16x512x1024 : Shape := ⟨3, ![16, 512, 1024]⟩
abbrev S16x4x1024 : Shape := ⟨3, ![16, 4, 1024]⟩
abbrev S16x3x1024 : Shape := ⟨3, ![16, 3, 1024]⟩
abbrev S_ : Shape := ⟨0, ![]⟩
abbrev S512x1 : Shape := ⟨2, ![512, 1]⟩
abbrev S1536x512 : Shape := ⟨2, ![1536, 512]⟩
abbrev S1024x512 : Shape := ⟨2, ![1024, 512]⟩
abbrev S1x512x512 : Shape := ⟨3, ![1, 512, 512]⟩
abbrev S1x3x512 : Shape := ⟨3, ![1, 3, 512]⟩
abbrev S1x512 : Shape := ⟨2, ![1, 512]⟩
abbrev S3x512 : Shape := ⟨2, ![3, 512]⟩

abbrev nBuf : Space → Nat
  | .hbm => 54
  | .vmem => 26
  | .smem => 0
  | _ => 0

abbrev bufTy : (tb : Table) → Fin (tcTables nBuf tb) → BufTy
  | .hbm, ⟨0, _⟩ => ⟨S16x4x4x16x16, .i32⟩
  | .hbm, ⟨1, _⟩ => ⟨S16x512x4x16x16, .f32⟩
  | .hbm, ⟨2, _⟩ => ⟨S512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1024, .f32⟩
  | .hbm, ⟨7, _⟩ => ⟨S512, .f32⟩
  | .hbm, ⟨8, _⟩ => ⟨S512x1536, .f32⟩
  | .hbm, ⟨9, _⟩ => ⟨S512, .f32⟩
  | .hbm, ⟨10, _⟩ => ⟨S512x2048, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S16x512x1024, .f32⟩
  | .hbm, ⟨15, _⟩ => ⟨S16x4x1024, .i32⟩
  | .hbm, ⟨16, _⟩ => ⟨S16x3x1024, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S16x3x1024, .i32⟩
  | .hbm, ⟨21, _⟩ => ⟨S16x3x1024, .i32⟩
  | .hbm, ⟨22, _⟩ => ⟨S_, .i32⟩
  | .hbm, ⟨23, _⟩ => ⟨S16x3x1024, .i32⟩
  | .hbm, ⟨24, _⟩ => ⟨S16x3x1024, .i32⟩
  | .hbm, ⟨25, _⟩ => ⟨S512x1, .f32⟩
  | .hbm, ⟨26, _⟩ => ⟨S512x1, .f32⟩
  | .hbm, ⟨27, _⟩ => ⟨S512x512, .bf16⟩
  | .hbm, ⟨28, _⟩ => ⟨S512x1, .f32⟩
  | .hbm, ⟨29, _⟩ => ⟨S512x1024, .bf16⟩
  | .hbm, ⟨30, _⟩ => ⟨S512x1, .f32⟩
  | .hbm, ⟨31, _⟩ => ⟨S512x1536, .bf16⟩
  | .hbm, ⟨32, _⟩ => ⟨S512x1, .f32⟩
  | .hbm, ⟨33, _⟩ => ⟨S512x2048, .bf16⟩
  | .hbm, ⟨34, _⟩ => ⟨S512x1, .f32⟩
  | .hbm, ⟨35, _⟩ => ⟨S512x512, .bf16⟩
  | .hbm, ⟨36, _⟩ => ⟨S512x1, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S1536x512, .f32⟩
  | .hbm, ⟨41, _⟩ => ⟨S1536x512, .bf16⟩
  | .hbm, ⟨42, _⟩ => ⟨S512x512, .f32⟩
  | .hbm, ⟨43, _⟩ => ⟨S512x512, .f32⟩
  | .hbm, ⟨44, _⟩ => ⟨S1024x512, .f32⟩
  | .hbm, ⟨45, _⟩ => ⟨S1024x512, .bf16⟩
  | .hbm, ⟨46, _⟩ => ⟨S16x512x1024, .f32⟩
  | .hbm, ⟨47, _⟩ => ⟨S16x512x1024, .f32⟩
  | .hbm, ⟨48, _⟩ => ⟨S16x512x1024, .f32⟩
  | .hbm, ⟨49, _⟩ => ⟨S16x512x1024, .f32⟩
  | .hbm, ⟨50, _⟩ => ⟨S16x512x4x16x16, .f32⟩
  | .hbm, ⟨51, _⟩ => ⟨S16x512x4x16x16, .f32⟩
  | .hbm, ⟨52, _⟩ => ⟨S16x512x4x16x16, .f32⟩
  | .hbm, ⟨53, _⟩ => ⟨S16x512x4x16x16, .f32⟩
  | .local _ .vmem, ⟨0, _⟩ => ⟨S1x512x512, .f32⟩
  | .local _ .vmem, ⟨1, _⟩ => ⟨S1x512x512, .f32⟩
  | .local _ .vmem, ⟨2, _⟩ => ⟨S1x3x512, .i32⟩
  | .local _ .vmem, ⟨3, _⟩ => ⟨S1x3x512, .i32⟩
  | .local _ .vmem, ⟨4, _⟩ => ⟨S512x1, .f32⟩
  | .local _ .vmem, ⟨5, _⟩ => ⟨S512x1, .f32⟩
  | .local _ .vmem, ⟨6, _⟩ => ⟨S512x512, .bf16⟩
  | .local _ .vmem, ⟨7, _⟩ => ⟨S512x1, .f32⟩
  | .local _ .vmem, ⟨8, _⟩ => ⟨S512x1024, .bf16⟩
  | .local _ .vmem, ⟨9, _⟩ => ⟨S512x1, .f32⟩
  | .local _ .vmem, ⟨10, _⟩ => ⟨S512x1536, .bf16⟩
  | .local _ .vmem, ⟨11, _⟩ => ⟨S512x1, .f32⟩
  | .local _ .vmem, ⟨12, _⟩ => ⟨S512x2048, .bf16⟩
  | .local _ .vmem, ⟨13, _⟩ => ⟨S512x1, .f32⟩
  | .local _ .vmem, ⟨14, _⟩ => ⟨S512x512, .bf16⟩
  | .local _ .vmem, ⟨15, _⟩ => ⟨S512x1, .f32⟩
  | .local _ .vmem, ⟨16, _⟩ => ⟨S1536x512, .bf16⟩
  | .local _ .vmem, ⟨17, _⟩ => ⟨S1024x512, .bf16⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | _, _ => ⟨S16x4x4x16x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25_0 : Ref sig .tc := ⟨.hbm, 46, rfl⟩
abbrev main_v25_1 : Ref sig .tc := ⟨.hbm, 47, rfl⟩
abbrev main_v25_2 : Ref sig .tc := ⟨.hbm, 48, rfl⟩
abbrev main_v25_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1536x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

class Facts₀ : Prop where
  shapeCasts_S16x512x4x16x16_S16x512x1024 : S16x512x4x16x16.ShapeCasts S16x512x1024
  shapeCasts_S16x4x4x16x16_S16x4x1024 : S16x4x4x16x16.ShapeCasts S16x4x1024
  slices_S16x4x1024_S16x3x1024_0_0_0 : S16x4x1024.Slices ![0, 0, 0] S16x3x1024
  bcast_S_S16x3x1024 : S_.BroadcastsInDim S16x3x1024 (![] : Fin 0 → Fin S16x3x1024.rank)
  shapeCasts_S512_S512x1 : S512.ShapeCasts S512x1
  bitsLt_bf16_f32 : FTy.bits .bf16 < FTy.bits .f32
  slices_S512x1024_S512x512_0_512 : S512x1024.Slices ![0, 512] S512x512
  slices_S512x1536_S512x512_0_512 : S512x1536.Slices ![0, 512] S512x512
  slices_S512x2048_S512x512_0_512 : S512x2048.Slices ![0, 512] S512x512
  concatenates_S512x512_S512x512_S512x512_S1536x512_d0 : Shape.Concatenates [S512x512, S512x512, S512x512] S1536x512 0
  slices_S512x1536_S512x512_0_1024 : S512x1536.Slices ![0, 1024] S512x512
  slices_S512x2048_S512x512_0_1024 : S512x2048.Slices ![0, 1024] S512x512
  concatenates_S512x512_S512x512_S1024x512_d0 : Shape.Concatenates [S512x512, S512x512] S1024x512 0
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x512_S512 : S512x512.Reduces [0] S512
  shapeCasts_S512_S1x512 : S512.ShapeCasts S1x512
  broadcasts_S1x512_S512x512 : S1x512.Broadcasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  iota_S512x512_d0_w32 : S512x512.Iotas .tc 32 [0]
  slices_S3x512_o0_0_S1x512 : S3x512.Slices ![0, 0] S1x512
  natLt_1_32 : 1 < 32
  slices_S3x512_o1_0_S1x512 : S3x512.Slices ![1, 0] S1x512
  slices_S3x512_o2_0_S1x512 : S3x512.Slices ![2, 0] S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512x512_S1x512x512 : S512x512.ShapeCasts S1x512x512
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  slices_S1536x512_o0_0_S512x512 : S1536x512.Slices ![0, 0] S512x512
  slices_S1536x512_o512_0_S512x512 : S1536x512.Slices ![512, 0] S512x512
  slices_S1536x512_o1024_0_S512x512 : S1536x512.Slices ![1024, 0] S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S1024x512_o0_0_S512x512 : S1024x512.Slices ![0, 0] S512x512
  slices_S1024x512_o512_0_S512x512 : S1024x512.Slices ![512, 0] S512x512
  inb_S512x1024_S512x512_0_0 : ∀ a, (![0, 0] : Fin 2 → Nat) a + S512x512.size a ≤ S512x1024.size a
  inb_S512x1536_S512x512_0_0 : ∀ a, (![0, 0] : Fin 2 → Nat) a + S512x512.size a ≤ S512x1536.size a
  inb_S512x2048_S512x512_0_1536 : ∀ a, (![0, 1536] : Fin 2 → Nat) a + S512x512.size a ≤ S512x2048.size a
  inb_S512x2048_S512x512_0_0 : ∀ a, (![0, 0] : Fin 2 → Nat) a + S512x512.size a ≤ S512x2048.size a
  shapeCasts_S16x512x1024_S16x512x4x16x16 : S16x512x1024.ShapeCasts S16x512x4x16x16
  dot_S512x512_S512x512_S512x512_1_0_0_1_n_n_wf : DotDims.WF S512x512 S512x512 S512x512 [1] [0] [0] [1] [] []
  dot_S1536x512_S512x512_S1536x512_1_0_0_1_n_n_wf : DotDims.WF S1536x512 S512x512 S1536x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S16x512x1024.size a
  hwx0_0 : ∀ i : grid0.Coords, EltTy.bits .f32 = 32 ∨ (Rect.block (s := S16x512x1024) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512.size a ≤ S16x3x1024.size a
  hwx0_1 : ∀ i : grid0.Coords, EltTy.bits .i32 = 32 ∨ (Rect.block (s := S16x3x1024) S1x3x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .f32 = 32 ∨ (Rect.block (s := S512x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .f32 = 32 ∨ (Rect.block (s := S512x1) S512x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S512x1024.size a
  hwx0_6 : ∀ i : grid0.Coords, EltTy.bits .bf16 = 32 ∨ (Rect.block (s := S512x1024) S512x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S512x1.size a
  hwx0_7 : ∀ i : grid0.Coords, EltTy.bits .f32 = 32 ∨ (Rect.block (s := S512x1) S512x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1536.size a ≤ S512x1536.size a
  hwx0_8 : ∀ i : grid0.Coords, EltTy.bits .bf16 = 32 ∨ (Rect.block (s := S512x1536) S512x1536.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S512x1.size a
  hwx0_9 : ∀ i : grid0.Coords, EltTy.bits .f32 = 32 ∨ (Rect.block (s := S512x1) S512x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x2048.size a ≤ S512x2048.size a
  hwx0_10 : ∀ i : grid0.Coords, EltTy.bits .bf16 = 32 ∨ (Rect.block (s := S512x2048) S512x2048.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x1.size a ≤ S512x1.size a
  hwx0_11 : ∀ i : grid0.Coords, EltTy.bits .f32 = 32 ∨ (Rect.block (s := S512x1) S512x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .bf16 = 32 ∨ (Rect.block (s := S512x512) S512x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x1.size a ≤ S512x1.size a
  hwx0_13 : ∀ i : grid0.Coords, EltTy.bits .f32 = 32 ∨ (Rect.block (s := S512x1) S512x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1536x512.size a ≤ S1536x512.size a
  hwx0_14 : ∀ i : grid0.Coords, EltTy.bits .bf16 = 32 ∨ (Rect.block (s := S1536x512) S1536x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024x512.size a ≤ S1024x512.size a
  hwx0_15 : ∀ i : grid0.Coords, EltTy.bits .bf16 = 32 ∨ (Rect.block (s := S1024x512) S1024x512.size (cc0_transform_15 i) (hinb0_15 i)).WholeWords (EltTy.packing .bf16)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x512x512.size a ≤ S16x512x1024.size a
  hwx0_16 : ∀ i : grid0.Coords, EltTy.bits .f32 = 32 ∨ (Rect.block (s := S16x512x1024) S1x512x512.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x512x512.size a ≤ S16x512x1024.size a
  hwx0_17 : ∀ i : grid0.Coords, EltTy.bits .f32 = 32 ∨ (Rect.block (s := S16x512x1024) S1x512x512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x512x512.size a ≤ S16x512x1024.size a
  hwx0_18 : ∀ i : grid0.Coords, EltTy.bits .f32 = 32 ∨ (Rect.block (s := S16x512x1024) S1x512x512.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1x512x512.size a ≤ S16x512x1024.size a
  hwx0_19 : ∀ i : grid0.Coords, EltTy.bits .f32 = 32 ∨ (Rect.block (s := S16x512x1024) S1x512x512.size (cc0_transform_19 i) (hinb0_19 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S1536x512_S512x512_S1536x512_1_0_0_1_n_n : DotDims S1536x512 S512x512 S1536x512 where
  lhsContracting := [1]
  rhsContracting := [0]
  lhsNonContracting := [0]
  rhsNonContracting := [1]
  lhsBatch := []
  rhsBatch := []
  wf := dot_S1536x512_S512x512_S1536x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S512x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S512x1536.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S512x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S512x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S512x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S512x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v20) S1536x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v24) S1024x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v25_0) S1x512x512.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v25_1) S1x512x512.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v25_2) S1x512x512.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v25_3) S1x512x512.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S16x4x4x16x16 : Shape := ⟨5, ![16, 4, 4, 16, 16]⟩
abbrev S16x512x4x16x16 : Shape := ⟨5, ![16, 512, 4, 16, 16]⟩
abbrev S512 : Shape := ⟨1, ![512]⟩
abbrev S512x512 : Shape := ⟨2, ![512, 512]⟩
abbrev S512x1024 : Shape := ⟨2, ![512, 1024]⟩
abbrev S512x1536 : Shape := ⟨2, ![512, 1536]⟩
abbrev S512x2048 : Shape := ⟨2, ![512, 2048]⟩
abbrev S16x512x1024 : Shape := ⟨3, ![16, 512, 1024]⟩
abbrev S16x1024x512 : Shape := ⟨3, ![16, 1024, 512]⟩
abbrev S_ : Shape := ⟨0, ![]⟩
abbrev S16x1024 : Shape := ⟨2, ![16, 1024]⟩
abbrev S16x1024x1 : Shape := ⟨3, ![16, 1024, 1]⟩
abbrev S1x1x512 : Shape := ⟨3, ![1, 1, 512]⟩
abbrev S16x4x1024 : Shape := ⟨3, ![16, 4, 1024]⟩
abbrev S16x1024x4 : Shape := ⟨3, ![16, 1024, 4]⟩
abbrev S16x1024x4x1 : Shape := ⟨4, ![16, 1024, 4, 1]⟩
abbrev S1x1x1x512 : Shape := ⟨4, ![1, 1, 1, 512]⟩
abbrev S16x1024x4x512 : Shape := ⟨4, ![16, 1024, 4, 512]⟩
abbrev S16x1024x2048 : Shape := ⟨3, ![16, 1024, 2048]⟩
abbrev S16x1024x1024 : Shape := ⟨3, ![16, 1024, 1024]⟩
abbrev S16x1024x1536 : Shape := ⟨3, ![16, 1024, 1536]⟩

abbrev nBuf : Space → Nat
  | .hbm => 112
  | .vmem => 0
  | .smem => 0
  | _ => 0

abbrev bufTy : (tb : Table) → Fin (tcTables nBuf tb) → BufTy
  | .hbm, ⟨0, _⟩ => ⟨S16x4x4x16x16, .i32⟩
  | .hbm, ⟨1, _⟩ => ⟨S16x512x4x16x16, .f32⟩
  | .hbm, ⟨2, _⟩ => ⟨S512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1024, .f32⟩
  | .hbm, ⟨7, _⟩ => ⟨S512, .f32⟩
  | .hbm, ⟨8, _⟩ => ⟨S512x1536, .f32⟩
  | .hbm, ⟨9, _⟩ => ⟨S512, .f32⟩
  | .hbm, ⟨10, _⟩ => ⟨S512x2048, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S16x512x1024, .f32⟩
  | .hbm, ⟨15, _⟩ => ⟨S16x1024x512, .f32⟩
  | .hbm, ⟨16, _⟩ => ⟨S_, .f32⟩
  | .hbm, ⟨17, _⟩ => ⟨S16x1024, .f32⟩
  | .hbm, ⟨18, _⟩ => ⟨S16x1024x1, .f32⟩
  | .hbm, ⟨19, _⟩ => ⟨S_, .f32⟩
  | .hbm, ⟨20, _⟩ => ⟨S16x1024x1, .f32⟩
  | .hbm, ⟨21, _⟩ => ⟨S16x1024x1, .f32⟩
  | .hbm, ⟨22, _⟩ => ⟨S16x1024x512, .f32⟩
  | .hbm, ⟨23, _⟩ => ⟨S16x1024x512, .f32⟩
  | .hbm, ⟨24, _⟩ => ⟨S16x1024x512, .f32⟩
  | .hbm, ⟨25, _⟩ => ⟨S_, .f32⟩
  | .hbm, ⟨26, _⟩ => ⟨S16x1024, .f32⟩
  | .hbm, ⟨27, _⟩ => ⟨S16x1024x1, .f32⟩
  | .hbm, ⟨28, _⟩ => ⟨S_, .f32⟩
  | .hbm, ⟨29, _⟩ => ⟨S16x1024x1, .f32⟩
  | .hbm, ⟨30, _⟩ => ⟨S16x1024x1, .f32⟩
  | .hbm, ⟨31, _⟩ => ⟨S16x1024x512, .f32⟩
  | .hbm, ⟨32, _⟩ => ⟨S16x1024x512, .f32⟩
  | .hbm, ⟨33, _⟩ => ⟨S_, .f32⟩
  | .hbm, ⟨34, _⟩ => ⟨S16x1024x1, .f32⟩
  | .hbm, ⟨35, _⟩ => ⟨S16x1024x1, .f32⟩
  | .hbm, ⟨36, _⟩ => ⟨S16x1024x1, .f32⟩
  | .hbm, ⟨37, _⟩ => ⟨S16x1024x512, .f32⟩
  | .hbm, ⟨38, _⟩ => ⟨S16x1024x512, .f32⟩
  | .hbm, ⟨39, _⟩ => ⟨S1x1x512, .f32⟩
  | .hbm, ⟨40, _⟩ => ⟨S16x1024x512, .f32⟩
  | .hbm, ⟨41, _⟩ => ⟨S16x1024x512, .f32⟩
  | .hbm, ⟨42, _⟩ => ⟨S1x1x512, .f32⟩
  | .hbm, ⟨43, _⟩ => ⟨S16x1024x512, .f32⟩
  | .hbm, ⟨44, _⟩ => ⟨S16x1024x512, .f32⟩
  | .hbm, ⟨45, _⟩ => ⟨S16x4x1024, .i32⟩
  | .hbm, ⟨46, _⟩ => ⟨S16x1024x4, .i32⟩
  | .hbm, ⟨47, _⟩ => ⟨S16x1024x4x1, .i32⟩
  | .hbm, ⟨48, _⟩ => ⟨S1x1x1x512, .i32⟩
  | .hbm, ⟨49, _⟩ => ⟨S16x1024x4x512, .i32⟩
  | .hbm, ⟨50, _⟩ => ⟨S16x1024x4x512, .i32⟩
  | .hbm, ⟨51, _⟩ => ⟨S16x1024x4x512, .i1⟩
  | .hbm, ⟨52, _⟩ => ⟨S16x1024x4x512, .f32⟩
  | .hbm, ⟨53, _⟩ => ⟨S16x1024x2048, .f32⟩
  | .hbm, ⟨54, _⟩ => ⟨S16x1024x512, .f32⟩
  | .hbm, ⟨55, _⟩ => ⟨S1x1x512, .f32⟩
  | .hbm, ⟨56, _⟩ => ⟨S16x1024x512, .f32⟩
  | .hbm, ⟨57, _⟩ => ⟨S16x1024x512, .f32⟩
  | .hbm, ⟨58, _⟩ => ⟨S_, .f32⟩
  | .hbm, ⟨59, _⟩ => ⟨S16x1024x512, .f32⟩
  | .hbm, ⟨60, _⟩ => ⟨S16x1024x512, .f32⟩
  | .hbm, ⟨61, _⟩ => ⟨S16x1024x512, .f32⟩
  | .hbm, ⟨62, _⟩ => ⟨S1x1x512, .f32⟩
  | .hbm, ⟨63, _⟩ => ⟨S16x1024x512, .f32⟩
  | .hbm, ⟨64, _⟩ => ⟨S16x1024x512, .f32⟩
  | .hbm, ⟨65, _⟩ => ⟨S16x512x1024, .f32⟩
  | .hbm, ⟨66, _⟩ => ⟨S16x512x4x16x16, .f32⟩
  | .hbm, ⟨67, _⟩ => ⟨S16x1024x512, .f32⟩
  | .hbm, ⟨68, _⟩ => ⟨S16x1024x1024, .f32⟩
  | .hbm, ⟨69, _⟩ => ⟨S16x1024x512, .f32⟩
  | .hbm, ⟨70, _⟩ => ⟨S1x1x512, .f32⟩
  | .hbm, ⟨71, _⟩ => ⟨S16x1024x512, .f32⟩
  | .hbm, ⟨72, _⟩ => ⟨S16x1024x512, .f32⟩
  | .hbm, ⟨73, _⟩ => ⟨S_, .f32⟩
  | .hbm, ⟨74, _⟩ => ⟨S16x1024x512, .f32⟩
  | .hbm, ⟨75, _⟩ => ⟨S16x1024x512, .f32⟩
  | .hbm, ⟨76, _⟩ => ⟨S16x1024x512, .f32⟩
  | .hbm, ⟨77, _⟩ => ⟨S1x1x512, .f32⟩
  | .hbm, ⟨78, _⟩ => ⟨S16x1024x512, .f32⟩
  | .hbm, ⟨79, _⟩ => ⟨S16x1024x512, .f32⟩
  | .hbm, ⟨80, _⟩ => ⟨S16x512x1024, .f32⟩
  | .hbm, ⟨81, _⟩ => ⟨S16x512x4x16x16, .f32⟩
  | .hbm, ⟨82, _⟩ => ⟨S16x1024x1024, .f32⟩
  | .hbm, ⟨83, _⟩ => ⟨S16x1024x1536, .f32⟩
  | .hbm, ⟨84, _⟩ => ⟨S16x1024x512, .f32⟩
  | .hbm, ⟨85, _⟩ => ⟨S1x1x512, .f32⟩
  | .hbm, ⟨86, _⟩ => ⟨S16x1024x512, .f32⟩
  | .hbm, ⟨87, _⟩ => ⟨S16x1024x512, .f32⟩
  | .hbm, ⟨88, _⟩ => ⟨S_, .f32⟩
  | .hbm, ⟨89, _⟩ => ⟨S16x1024x512, .f32⟩
  | .hbm, ⟨90, _⟩ => ⟨S16x1024x512, .f32⟩
  | .hbm, ⟨91, _⟩ => ⟨S16x1024x512, .f32⟩
  | .hbm, ⟨92, _⟩ => ⟨S1x1x512, .f32⟩
  | .hbm, ⟨93, _⟩ => ⟨S16x1024x512, .f32⟩
  | .hbm, ⟨94, _⟩ => ⟨S16x1024x512, .f32⟩
  | .hbm, ⟨95, _⟩ => ⟨S16x512x1024, .f32⟩
  | .hbm, ⟨96, _⟩ => ⟨S16x512x4x16x16, .f32⟩
  | .hbm, ⟨97, _⟩ => ⟨S16x1024x1536, .f32⟩
  | .hbm, ⟨98, _⟩ => ⟨S16x1024x2048, .f32⟩
  | .hbm, ⟨99, _⟩ => ⟨S16x1024x512, .f32⟩
  | .hbm, ⟨100, _⟩ => ⟨S1x1x512, .f32⟩
  | .hbm, ⟨101, _⟩ => ⟨S16x1024x512, .f32⟩
  | .hbm, ⟨102, _⟩ => ⟨S16x1024x512, .f32⟩
  | .hbm, ⟨103, _⟩ => ⟨S_, .f32⟩
  | .hbm, ⟨104, _⟩ => ⟨S16x1024x512, .f32⟩
  | .hbm, ⟨105, _⟩ => ⟨S16x1024x512, .f32⟩
  | .hbm, ⟨106, _⟩ => ⟨S16x1024x512, .f32⟩
  | .hbm, ⟨107, _⟩ => ⟨S1x1x512, .f32⟩
  | .hbm, ⟨108, _⟩ => ⟨S16x1024x512, .f32⟩
  | .hbm, ⟨109, _⟩ => ⟨S16x1024x512, .f32⟩
  | .hbm, ⟨110, _⟩ => ⟨S16x512x1024, .f32⟩
  | .hbm, ⟨111, _⟩ => ⟨S16x512x4x16x16, .f32⟩
  | _, _ => ⟨S16x4x4x16x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_cst : Ref sig .tc := ⟨.hbm, 58, rfl⟩
abbrev main_call1_v0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call2_cst : Ref sig .tc := ⟨.hbm, 73, rfl⟩
abbrev main_call2_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call3_cst : Ref sig .tc := ⟨.hbm, 88, rfl⟩
abbrev main_call3_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_call4_cst : Ref sig .tc := ⟨.hbm, 103, rfl⟩
abbrev main_call4_v0 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩

abbrev nD : Nat := 1
abbrev τ : Topo := Topo.v7x

variable {F : FTy → Type} [FloatOps F]

class Facts₀ : Prop where
  shapeCasts_S16x512x4x16x16_S16x512x1024 : S16x512x4x16x16.ShapeCasts S16x512x1024
  transposes_S16x512x1024_S16x1024x512_0_2_1 : S16x512x1024.Transposes [0, 2, 1] S16x1024x512
  reducesTo_S16x1024x512_S16x1024_d2 : S16x1024x512.ReducesTo [2] S16x1024
  h_S_ : 0 < S_.numel
  bcast_S16x1024_S16x1024x1_0_1 : S16x1024.BroadcastsInDim S16x1024x1 (![0, 1] : Fin 2 → Fin S16x1024x1.rank)
  bcast_S_S16x1024x1 : S_.BroadcastsInDim S16x1024x1 (![] : Fin 0 → Fin S16x1024x1.rank)
  bcast_S16x1024x1_S16x1024x512_0_1_2 : S16x1024x1.BroadcastsInDim S16x1024x512 (![0, 1, 2] : Fin 3 → Fin S16x1024x512.rank)
  bcast_S512_S1x1x512_2 : S512.BroadcastsInDim S1x1x512 (![2] : Fin 1 → Fin S1x1x512.rank)
  bcast_S1x1x512_S16x1024x512_0_1_2 : S1x1x512.BroadcastsInDim S16x1024x512 (![0, 1, 2] : Fin 3 → Fin S16x1024x512.rank)
  shapeCasts_S16x4x4x16x16_S16x4x1024 : S16x4x4x16x16.ShapeCasts S16x4x1024
  transposes_S16x4x1024_S16x1024x4_0_2_1 : S16x4x1024.Transposes [0, 2, 1] S16x1024x4
  bcast_S16x1024x4_S16x1024x4x1_0_1_2 : S16x1024x4.BroadcastsInDim S16x1024x4x1 (![0, 1, 2] : Fin 3 → Fin S16x1024x4x1.rank)
  bcast_S16x1024x4x1_S16x1024x4x512_0_1_2_3 : S16x1024x4x1.BroadcastsInDim S16x1024x4x512 (![0, 1, 2, 3] : Fin 4 → Fin S16x1024x4x512.rank)
  bcast_S1x1x1x512_S16x1024x4x512_0_1_2_3 : S1x1x1x512.BroadcastsInDim S16x1024x4x512 (![0, 1, 2, 3] : Fin 4 → Fin S16x1024x4x512.rank)
  shapeCasts_S16x1024x4x512_S16x1024x2048 : S16x1024x4x512.ShapeCasts S16x1024x2048
  bcast_S_S16x1024x512 : S_.BroadcastsInDim S16x1024x512 (![] : Fin 0 → Fin S16x1024x512.rank)
  transposes_S16x1024x512_S16x512x1024_0_2_1 : S16x1024x512.Transposes [0, 2, 1] S16x512x1024
  shapeCasts_S16x512x1024_S16x512x4x16x16 : S16x512x1024.ShapeCasts S16x512x4x16x16
  slices_S16x1024x2048_S16x1024x512_0_0_0 : S16x1024x2048.Slices ![0, 0, 0] S16x1024x512
  concatenates_S16x1024x512_S16x1024x512_S16x1024x1024_d2 : Shape.Concatenates [S16x1024x512, S16x1024x512] S16x1024x1024 2
  slices_S16x1024x2048_S16x1024x1024_0_0_0 : S16x1024x2048.Slices ![0, 0, 0] S16x1024x1024
  concatenates_S16x1024x512_S16x1024x1024_S16x1024x1536_d2 : Shape.Concatenates [S16x1024x512, S16x1024x1024] S16x1024x1536 2
  slices_S16x1024x2048_S16x1024x1536_0_0_0 : S16x1024x2048.Slices ![0, 0, 0] S16x1024x1536
  concatenates_S16x1024x512_S16x1024x1536_S16x1024x2048_d2 : Shape.Concatenates [S16x1024x512, S16x1024x1536] S16x1024x2048 2
  dot_S16x1024x512_S512x512_S16x1024x512_2_1_01_0_n_n_wf : DotDims.WF S16x1024x512 S512x512 S16x1024x512 [2] [1] [0, 1] [0] [] []
  dot_S16x1024x1024_S512x1024_S16x1024x512_2_1_01_0_n_n_wf : DotDims.WF S16x1024x1024 S512x1024 S16x1024x512 [2] [1] [0, 1] [0] [] []
  dot_S16x1024x1536_S512x1536_S16x1024x512_2_1_01_0_n_n_wf : DotDims.WF S16x1024x1536 S512x1536 S16x1024x512 [2] [1] [0, 1] [0] [] []
  dot_S16x1024x2048_S512x2048_S16x1024x512_2_1_01_0_n_n_wf : DotDims.WF S16x1024x2048 S512x2048 S16x1024x512 [2] [1] [0, 1] [0] [] []

variable [Facts₀]

def dot_S16x1024x512_S512x512_S16x1024x512_2_1_01_0_n_n : DotDims S16x1024x512 S512x512 S16x1024x512 where
  lhsContracting := [2]
  rhsContracting := [1]
  lhsNonContracting := [0, 1]
  rhsNonContracting := [0]
  lhsBatch := []
  rhsBatch := []
  wf := dot_S16x1024x512_S512x512_S16x1024x512_2_1_01_0_n_n_wf
def dot_S16x1024x1024_S512x1024_S16x1024x512_2_1_01_0_n_n : DotDims S16x1024x1024 S512x1024 S16x1024x512 where
  lhsContracting := [2]
  rhsContracting := [1]
  lhsNonContracting := [0, 1]
  rhsNonContracting := [0]
  lhsBatch := []
  rhsBatch := []
  wf := dot_S16x1024x1024_S512x1024_S16x1024x512_2_1_01_0_n_n_wf
def dot_S16x1024x1536_S512x1536_S16x1024x512_2_1_01_0_n_n : DotDims S16x1024x1536 S512x1536 S16x1024x512 where
  lhsContracting := [2]
  rhsContracting := [1]
  lhsNonContracting := [0, 1]
  rhsNonContracting := [0]
  lhsBatch := []
  rhsBatch := []
  wf := dot_S16x1024x1536_S512x1536_S16x1024x512_2_1_01_0_n_n_wf
def dot_S16x1024x2048_S512x2048_S16x1024x512_2_1_01_0_n_n : DotDims S16x1024x2048 S512x2048 S16x1024x512 where
  lhsContracting := [2]
  rhsContracting := [1]
  lhsNonContracting := [0, 1]
  rhsNonContracting := [0]
  lhsBatch := []
  rhsBatch := []
  wf := dot_S16x1024x2048_S512x2048_S16x1024x512_2_1_01_0_n_n_wf

class Facts : Prop extends Facts₀ where

variable [Facts]
-- ==== Proof.FrameData.lean ====
/-
  The kernel region as the launch theorems see it.

  The region is entered after three stretches of host operations (reshapes of the features and of the bias vectors,
  the slice and the clamp of the codes, the format changes of the weights, the two stacked weight arrays); `V` is
  what each buffer holds at that moment. Window `w`'s block at grid point `t` is read off `V` (`iblk`). The body
  loads literal rectangles of its sixteen input blocks — the whole block, except for the three wide weight arrays,
  of which it loads 512-column slabs — and stores each of its four output blocks whole, once: `o16 … o19` say what
  each output block then holds, as a function of the sixteen input blocks, over the named pure terms of the body.
  `dats` packages this for the launch: the arrays as the region finds them, every input block left in place, every
  output block at `o16 … o19` of the point's input blocks.
-/
import proofs.«129167_j56925496541808_2_alg».proof.Proof.Gen.KernelIdeal.Launch
import proofs.«129167_j56925496541808_2_alg».proof.Proof.Gen.KernelIdeal.Skeleton
import proofs.«129167_j56925496541808_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Cert.KernelIdeal Cert.KernelIdeal.Gen

variable {F : FTy → Type} [FloatOps F]

variable (m : (ℓ : Loc nD τ sig) → Buf (Elt F) ℓ)

/-! ## The buffers when the region is entered -/

/-- Core `c`'s buffer contents after the host operations before the region. -/
abbrev V0 (c : Dev nD) : Valuation τ sig (Elt F) :=
  StableHlo.after (List.flatten [hostOps0, hostOps0_1, hostOps0_2]) (fun b => m (c, b))

/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The rectangles the body loads and stores through -/

/-- A whole feature or output block [1, 512, 512]. -/
abbrev rBlk : Rect S1x512x512 := Rect.unit (s := S1x512x512) ![0, 0, 0] S1x512x512.size inb_S1x512x512_S1x512x512_0_0_0
/-- The whole block of codes [1, 3, 512]. -/
abbrev rCode : Rect S1x3x512 := Rect.unit (s := S1x3x512) ![0, 0, 0] S1x3x512.size inb_S1x3x512_S1x3x512_0_0_0
/-- A whole column [512, 1] (scale, shift, a bias). -/
abbrev rCol : Rect S512x1 := Rect.unit (s := S512x1) ![0, 0] S512x1.size inb_S512x1_S512x1_0_0
/-- A whole square weight array [512, 512]. -/
abbrev rSq : Rect S512x512 := Rect.unit (s := S512x512) ![0, 0] S512x512.size inb_S512x512_S512x512_0_0
/-- The whole stack of three code-0 weight slabs [1536, 512]. -/
abbrev rCat0 : Rect S1536x512 := Rect.unit (s := S1536x512) ![0, 0] S1536x512.size inb_S1536x512_S1536x512_0_0
/-- The whole stack of two code-1 weight slabs [1024, 512]. -/
abbrev rCat1 : Rect S1024x512 := Rect.unit (s := S1024x512) ![0, 0] S1024x512.size inb_S1024x512_S1024x512_0_0
/-- The feature columns 0 … 511 of the second layer's weights [512, 1024]. -/
abbrev rU1 : Rect S512x1024 := Rect.unit (s := S512x1024) ![0, 0] S512x512.size inb_S512x1024_S512x512_0_0
/-- The feature columns of the third layer's weights [512, 1536]. -/
abbrev rU2 : Rect S512x1536 := Rect.unit (s := S512x1536) ![0, 0] S512x512.size inb_S512x1536_S512x512_0_0
/-- The feature columns of the fourth layer's weights [512, 2048]. -/
abbrev rU3 : Rect S512x2048 := Rect.unit (s := S512x2048) ![0, 0] S512x512.size inb_S512x2048_S512x512_0_0
/-- The code-2 columns 1536 … 2047 of the fourth layer's weights. -/
abbrev rU3c : Rect S512x2048 := Rect.unit (s := S512x2048) ![0, 1536] S512x512.size inb_S512x2048_S512x512_0_1536

/-! ## The body's intermediate values, from the sixteen input blocks -/

/-- The normalised features, as the matrix unit's right operand. -/
def xb (x0 : Vec F S1x512x512 .f32) (x1 : Vec F S1x3x512 .i32) (x2 : Vec F S512x1 .f32) (x3 : Vec F S512x1 .f32) (x4 : Vec F S512x512 .bf16) (x5 : Vec F S512x1 .f32) (x6 : Vec F S512x1024 .bf16) (x7 : Vec F S512x1 .f32) (x8 : Vec F S512x1536 .bf16) (x9 : Vec F S512x1 .f32) (x10 : Vec F S512x2048 .bf16) (x11 : Vec F S512x1 .f32) (x12 : Vec F S512x512 .bf16) (x13 : Vec F S512x1 .f32) (x14 : Vec F S1536x512 .bf16) (x15 : Vec F S1024x512 .bf16) : FVec F S512x512 .bf16 :=
  k0_pay3 (View.ld x0 rBlk) (View.ld x2 rCol) (View.ld x3 rCol)
/-- The indicator array of code 0. -/
def oh0 (x0 : Vec F S1x512x512 .f32) (x1 : Vec F S1x3x512 .i32) (x2 : Vec F S512x1 .f32) (x3 : Vec F S512x1 .f32) (x4 : Vec F S512x512 .bf16) (x5 : Vec F S512x1 .f32) (x6 : Vec F S512x1024 .bf16) (x7 : Vec F S512x1 .f32) (x8 : Vec F S512x1536 .bf16) (x9 : Vec F S512x1 .f32) (x10 : Vec F S512x2048 .bf16) (x11 : Vec F S512x1 .f32) (x12 : Vec F S512x512 .bf16) (x13 : Vec F S512x1 .f32) (x14 : Vec F S1536x512 .bf16) (x15 : Vec F S1024x512 .bf16) : FVec F S512x512 .bf16 := k0_pay5 (View.ld x1 rCode)
/-- The indicator array of code 1. -/
def oh1 (x0 : Vec F S1x512x512 .f32) (x1 : Vec F S1x3x512 .i32) (x2 : Vec F S512x1 .f32) (x3 : Vec F S512x1 .f32) (x4 : Vec F S512x512 .bf16) (x5 : Vec F S512x1 .f32) (x6 : Vec F S512x1024 .bf16) (x7 : Vec F S512x1 .f32) (x8 : Vec F S512x1536 .bf16) (x9 : Vec F S512x1 .f32) (x10 : Vec F S512x2048 .bf16) (x11 : Vec F S512x1 .f32) (x12 : Vec F S512x512 .bf16) (x13 : Vec F S512x1 .f32) (x14 : Vec F S1536x512 .bf16) (x15 : Vec F S1024x512 .bf16) : FVec F S512x512 .bf16 := k0_pay6 (View.ld x1 rCode)
/-- The indicator array of code 2. -/
def oh2 (x0 : Vec F S1x512x512 .f32) (x1 : Vec F S1x3x512 .i32) (x2 : Vec F S512x1 .f32) (x3 : Vec F S512x1 .f32) (x4 : Vec F S512x512 .bf16) (x5 : Vec F S512x1 .f32) (x6 : Vec F S512x1024 .bf16) (x7 : Vec F S512x1 .f32) (x8 : Vec F S512x1536 .bf16) (x9 : Vec F S512x1 .f32) (x10 : Vec F S512x2048 .bf16) (x11 : Vec F S512x1 .f32) (x12 : Vec F S512x512 .bf16) (x13 : Vec F S512x1 .f32) (x14 : Vec F S1536x512 .bf16) (x15 : Vec F S1024x512 .bf16) : FVec F S512x512 .bf16 :=
  k0_pay8 (iota .tc S512x512 32 [0] iota_S512x512_d0_w32) (k0_pay7 (View.ld x1 rCode))

/-! ## What the body leaves in each output block -/

/-- Output 0: the first head. -/
def o16 (x0 : Vec F S1x512x512 .f32) (x1 : Vec F S1x3x512 .i32) (x2 : Vec F S512x1 .f32) (x3 : Vec F S512x1 .f32) (x4 : Vec F S512x512 .bf16) (x5 : Vec F S512x1 .f32) (x6 : Vec F S512x1024 .bf16) (x7 : Vec F S512x1 .f32) (x8 : Vec F S512x1536 .bf16) (x9 : Vec F S512x1 .f32) (x10 : Vec F S512x2048 .bf16) (x11 : Vec F S512x1 .f32) (x12 : Vec F S512x512 .bf16) (x13 : Vec F S512x1 .f32) (x14 : Vec F S1536x512 .bf16) (x15 : Vec F S1024x512 .bf16) : Vec F S1x512x512 .f32 :=
  View.canon [⟨rBlk, k0_pay9 (xb x0 x1 x2 x3 x4 x5 x6 x7 x8 x9 x10 x11 x12 x13 x14 x15) (View.ld x4 rSq) (View.ld x5 rCol) (View.ld x12 rSq) (View.ld x13 rCol)⟩]

/-- Output 1: the second head (features and code 0). -/
def o17 (x0 : Vec F S1x512x512 .f32) (x1 : Vec F S1x3x512 .i32) (x2 : Vec F S512x1 .f32) (x3 : Vec F S512x1 .f32) (x4 : Vec F S512x512 .bf16) (x5 : Vec F S512x1 .f32) (x6 : Vec F S512x1024 .bf16) (x7 : Vec F S512x1 .f32) (x8 : Vec F S512x1536 .bf16) (x9 : Vec F S512x1 .f32) (x10 : Vec F S512x2048 .bf16) (x11 : Vec F S512x1 .f32) (x12 : Vec F S512x512 .bf16) (x13 : Vec F S512x1 .f32) (x14 : Vec F S1536x512 .bf16) (x15 : Vec F S1024x512 .bf16) : Vec F S1x512x512 .f32 :=
  View.canon [⟨rBlk, k0_pay17 (xb x0 x1 x2 x3 x4 x5 x6 x7 x8 x9 x10 x11 x12 x13 x14 x15) (k0_pay11 (oh0 x0 x1 x2 x3 x4 x5 x6 x7 x8 x9 x10 x11 x12 x13 x14 x15) (View.ld x14 rCat0)) (View.ld x6 rU1)
    (View.ld x7 rCol) (View.ld x12 rSq) (View.ld x13 rCol)⟩]

/-- Output 2: the third head (features, codes 0 and 1). -/
def o18 (x0 : Vec F S1x512x512 .f32) (x1 : Vec F S1x3x512 .i32) (x2 : Vec F S512x1 .f32) (x3 : Vec F S512x1 .f32) (x4 : Vec F S512x512 .bf16) (x5 : Vec F S512x1 .f32) (x6 : Vec F S512x1024 .bf16) (x7 : Vec F S512x1 .f32) (x8 : Vec F S512x1536 .bf16) (x9 : Vec F S512x1 .f32) (x10 : Vec F S512x2048 .bf16) (x11 : Vec F S512x1 .f32) (x12 : Vec F S512x512 .bf16) (x13 : Vec F S512x1 .f32) (x14 : Vec F S1536x512 .bf16) (x15 : Vec F S1024x512 .bf16) : Vec F S1x512x512 .f32 :=
  View.canon [⟨rBlk, k0_pay1 (k0_pay18 (xb x0 x1 x2 x3 x4 x5 x6 x7 x8 x9 x10 x11 x12 x13 x14 x15) (k0_pay12 (oh0 x0 x1 x2 x3 x4 x5 x6 x7 x8 x9 x10 x11 x12 x13 x14 x15) (View.ld x14 rCat0))
    (k0_pay15 (oh1 x0 x1 x2 x3 x4 x5 x6 x7 x8 x9 x10 x11 x12 x13 x14 x15) (View.ld x15 rCat1)) (View.ld x8 rU2) (View.ld x9 rCol) (View.ld x12 rSq)) (View.ld x13 rCol)⟩]

/-- Output 3: the fourth head (features, codes 0, 1 and 2). -/
def o19 (x0 : Vec F S1x512x512 .f32) (x1 : Vec F S1x3x512 .i32) (x2 : Vec F S512x1 .f32) (x3 : Vec F S512x1 .f32) (x4 : Vec F S512x512 .bf16) (x5 : Vec F S512x1 .f32) (x6 : Vec F S512x1024 .bf16) (x7 : Vec F S512x1 .f32) (x8 : Vec F S512x1536 .bf16) (x9 : Vec F S512x1 .f32) (x10 : Vec F S512x2048 .bf16) (x11 : Vec F S512x1 .f32) (x12 : Vec F S512x512 .bf16) (x13 : Vec F S512x1 .f32) (x14 : Vec F S1536x512 .bf16) (x15 : Vec F S1024x512 .bf16) : Vec F S1x512x512 .f32 :=
  View.canon [⟨rBlk, k0_pay2 (xb x0 x1 x2 x3 x4 x5 x6 x7 x8 x9 x10 x11 x12 x13 x14 x15) (oh2 x0 x1 x2 x3 x4 x5 x6 x7 x8 x9 x10 x11 x12 x13 x14 x15) (k0_pay13 (oh0 x0 x1 x2 x3 x4 x5 x6 x7 x8 x9 x10 x11 x12 x13 x14 x15) (View.ld x14 rCat0))
    (k0_pay16 (oh1 x0 x1 x2 x3 x4 x5 x6 x7 x8 x9 x10 x11 x12 x13 x14 x15) (View.ld x15 rCat1)) (View.ld x10 rU3c) (View.ld x10 rU3) (View.ld x11 rCol)
    (View.ld x12 rSq) (View.ld x13 rCol)⟩]

/-! ## The proof data of the launch -/

/-- The arrays as the region finds them; after the body at point `t` each input block is as it was found and each
    output block is `o16 … o19` of the point's input blocks; nothing else is held between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => o16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => o17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨18, _⟩ => o18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨19, _⟩ => o19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 20, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = o16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after17 (c : Dev nD) (t : Fin cfg0.N) : (dats m 0 c).after 17 t = o17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after18 (c : Dev nD) (t : Fin cfg0.N) : (dats m 0 c).after 18 t = o18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after19 (c : Dev nD) (t : Fin cfg0.N) : (dats m 0 c).after 19 t = o19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

end Cert.KernelIdeal.Hand

end
-- ==== Proof.FrameBody.lean ====
/-
  The kernel body at one grid point.

  Held: the sixteen input blocks' staging buffers, whole, at read contents `x0 … x15`, and the four output blocks'
  staging buffers, whole, at anything. The body loads literal rectangles of the inputs (and, once, each output
  buffer, whose value it never uses), computes, and stores each output block whole, once. So it returns with every
  input buffer as it was and output buffer `w` at the one stored array laid over the whole block: `o16 … o19` of
  the input blocks. A store through the whole-block rectangle at offset zero covers the block (every index lies in
  it), which is the one geometric fact needed; it is proved from the rectangle's definition, not by enumeration.

  At any grid point the pipeline hands the body exactly this: each input window's current staging buffer holds the
  window's block at the point, fetched there or not (an unfetched window's block index has not moved), so the
  body's triple gives the launch theorem's obligation at every point.
-/
import proofs.«129167_j56925496541808_2_alg».proof.Proof.FrameData
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The one geometric fact -/

/-- The offsets of the whole-block rectangle are zero. -/
theorem zero3 : (![0, 0, 0] : Fin S1x512x512.rank → Nat) = fun _ => 0 := funext fun a => by fin_cases a <;> rfl

/-- One array stored through the whole-block rectangle covers the block: every index of the block lies in it. -/
theorem coverBlk (p : rBlk.shape.Idx → Elt F .f32) (y : S1x512x512.Idx) :
    ∃ pc ∈ ([⟨rBlk, p⟩] : List (View.Piece (Elt F) S1x512x512 .f32)), y ∈ pc.1.set :=
  ⟨⟨rBlk, p⟩, List.mem_singleton_self _, View.mem_set_unit_zero zero3 inb_S1x512x512_S1x512x512_0_0_0 y⟩

/-! ## The body's triple -/

set_option maxHeartbeats 4000000 in
/-- The body on whole staging buffers, the inputs' at read contents `x0 … x15` and the outputs' at anything, runs to
    its return holding the inputs' as they were and each output's at `o16 … o19` of the inputs'. -/
theorem sound_kernel (c : Dev nD) (E : Set ℕ) (i : grid0.Coords) (arg2 : Memref sig .tc .vmem S1x512x512 .f32) (harg2 : arg2.IsWhole) (arg3 : Memref sig .tc .vmem S1x3x512 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1536 .bf16) (harg10 : arg10.IsWhole) (arg11 : Memref sig .tc .vmem S512x1 .f32) (harg11 : arg11.IsWhole) (arg12 : Memref sig .tc .vmem S512x2048 .bf16) (harg12 : arg12.IsWhole) (arg13 : Memref sig .tc .vmem S512x1 .f32) (harg13 : arg13.IsWhole) (arg14 : Memref sig .tc .vmem S512x512 .bf16) (harg14 : arg14.IsWhole) (arg15 : Memref sig .tc .vmem S512x1 .f32) (harg15 : arg15.IsWhole) (arg16 : Memref sig .tc .vmem S1536x512 .bf16) (harg16 : arg16.IsWhole) (arg17 : Memref sig .tc .vmem S1024x512 .bf16) (harg17 : arg17.IsWhole) (arg18 : Memref sig .tc .vmem S1x512x512 .f32) (harg18 : arg18.IsWhole) (arg19 : Memref sig .tc .vmem S1x512x512 .f32) (harg19 : arg19.IsWhole) (arg20 : Memref sig .tc .vmem S1x512x512 .f32) (harg20 : arg20.IsWhole) (arg21 : Memref sig .tc .vmem S1x512x512 .f32) (harg21 : arg21.IsWhole)
    (x0 : Vec F S1x512x512 .f32) (x1 : Vec F S1x3x512 .i32) (x2 : Vec F S512x1 .f32) (x3 : Vec F S512x1 .f32) (x4 : Vec F S512x512 .bf16) (x5 : Vec F S512x1 .f32) (x6 : Vec F S512x1024 .bf16) (x7 : Vec F S512x1 .f32) (x8 : Vec F S512x1536 .bf16) (x9 : Vec F S512x1 .f32) (x10 : Vec F S512x2048 .bf16) (x11 : Vec F S512x1 .f32) (x12 : Vec F S512x512 .bf16) (x13 : Vec F S512x1 .f32) (x14 : Vec F S1536x512 .bf16) (x15 : Vec F S1024x512 .bf16) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare x11
            ∗ owns (c : Thread nD τ) arg14 fullShare x12
            ∗ owns (c : Thread nD τ) arg15 fullShare x13
            ∗ owns (c : Thread nD τ) arg16 fullShare x14
            ∗ owns (c : Thread nD τ) arg17 fullShare x15
            ∗ owns (c : Thread nD τ) arg18 fullShare (o16 x0 x1 x2 x3 x4 x5 x6 x7 x8 x9 x10 x11 x12 x13 x14 x15)
            ∗ owns (c : Thread nD τ) arg19 fullShare (o17 x0 x1 x2 x3 x4 x5 x6 x7 x8 x9 x10 x11 x12 x13 x14 x15)
            ∗ owns (c : Thread nD τ) arg20 fullShare (o18 x0 x1 x2 x3 x4 x5 x6 x7 x8 x9 x10 x11 x12 x13 x14 x15)
            ∗ owns (c : Thread nD τ) arg21 fullShare (o19 x0 x1 x2 x3 x4 x5 x6 x7 x8 x9 x10 x11 x12 x13 x14 x15)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
  subst hf0; subst hf1; subst hf2; subst hf3; subst hf4; subst hf5; subst hf6; subst hf7; subst hf8; subst hf9; subst hf10; subst hf11; subst hf12; subst hf13; subst hf14; subst hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    exact View.read_writes_eq_canon _ _ _ (coverBlk _)
  isplitl [H17]
  · iexists _; isplitr
    swap; · iexact H17
    ipureintro
    exact View.read_writes_eq_canon _ _ _ (coverBlk _)
  isplitl [H18]
  · iexists _; isplitr
    swap; · iexact H18
    ipureintro
    exact View.read_writes_eq_canon _ _ _ (coverBlk _)
  iexists _; isplitr
  swap; · iexact H19
  ipureintro
  exact View.read_writes_eq_canon _ _ _ (coverBlk _)

/-! ## What the body finds in the input windows' buffers -/

/- Each input window is whole, never idle and never clipped, and the body leaves its block in place; so at every
   point its current staging buffer holds the window's block there, whether the pipeline fetched it at that point
   (windows 0 and 1, at every point) or not (windows 2 … 15, fetched at the first point only: their block index
   never moves). -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl)
    (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl)
    (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl)
    (fun t => by rw [after9]; unfold Dat.blockOf iblk; rw [A_eq]; try rfl) t d).trans
    (by unfold Dat.fetched Dat.blockOf iblk; rw [A_eq]; try rfl)
theorem before10 (c : Dev nD) (t : Fin cfg0.N) (d) : (dats m 0 c).before 10 t d = iblk m c 10 t :=
  ((dats m 0 c).before_in_eq_fetched 10 rfl (fun _ => rfl) (fun _ _ _ => rfl)
    (fun t => by rw [after10]; unfold Dat.blockOf iblk; rw [A_eq]; try rfl) t d).trans
    (by unfold Dat.fetched Dat.blockOf iblk; rw [A_eq]; try rfl)
theorem before11 (c : Dev nD) (t : Fin cfg0.N) (d) : (dats m 0 c).before 11 t d = iblk m c 11 t :=
  ((dats m 0 c).before_in_eq_fetched 11 rfl (fun _ => rfl) (fun _ _ _ => rfl)
    (fun t => by rw [after11]; unfold Dat.blockOf iblk; rw [A_eq]; try rfl) t d).trans
    (by unfold Dat.fetched Dat.blockOf iblk; rw [A_eq]; try rfl)
theorem before12 (c : Dev nD) (t : Fin cfg0.N) (d) : (dats m 0 c).before 12 t d = iblk m c 12 t :=
  ((dats m 0 c).before_in_eq_fetched 12 rfl (fun _ => rfl) (fun _ _ _ => rfl)
    (fun t => by rw [after12]; unfold Dat.blockOf iblk; rw [A_eq]; try rfl) t d).trans
    (by unfold Dat.fetched Dat.blockOf iblk; rw [A_eq]; try rfl)
theorem before13 (c : Dev nD) (t : Fin cfg0.N) (d) : (dats m 0 c).before 13 t d = iblk m c 13 t :=
  ((dats m 0 c).before_in_eq_fetched 13 rfl (fun _ => rfl) (fun _ _ _ => rfl)
    (fun t => by rw [after13]; unfold Dat.blockOf iblk; rw [A_eq]; try rfl) t d).trans
    (by unfold Dat.fetched Dat.blockOf iblk; rw [A_eq]; try rfl)
theorem before14 (c : Dev nD) (t : Fin cfg0.N) (d) : (dats m 0 c).before 14 t d = iblk m c 14 t :=
  ((dats m 0 c).before_in_eq_fetched 14 rfl (fun _ => rfl) (fun _ _ _ => rfl)
    (fun t => by rw [after14]; unfold Dat.blockOf iblk; rw [A_eq]; try rfl) t d).trans
    (by unfold Dat.fetched Dat.blockOf iblk; rw [A_eq]; try rfl)
theorem before15 (c : Dev nD) (t : Fin cfg0.N) (d) : (dats m 0 c).before 15 t d = iblk m c 15 t :=
  ((dats m 0 c).before_in_eq_fetched 15 rfl (fun _ => rfl) (fun _ _ _ => rfl)
    (fun t => by rw [after15]; unfold Dat.blockOf iblk; rw [A_eq]; try rfl) t d).trans
    (by unfold Dat.fetched Dat.blockOf iblk; rw [A_eq]; try rfl)

/-! ## The body obligation, at a generic point -/

/-- What the body is called with at point `t`: the invariant, the core's debts, and the twenty windows' current
    staging buffers, each at what the launch says it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- What it returns: the same, each buffer at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

set_option maxHeartbeats 2000000 in
/-- The body at any point: the input buffers hold their blocks, so the body's triple applies at the point's blocks;
    the invariant and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The launch theorem's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.FrameRun.lean ====
/-
  The frame of the program: it runs to the end, faults nowhere, and its fourteen argument arrays end unchanged.

  @main is three stretches of host operations, one region, and a last stretch of four reshapes. The launch theorem
  for "host lines, region, host lines" takes: @main as that chain; the body obligation at every grid point; and,
  of the lines after the region, that they touch only unscoped buffers, allocate nothing and write no array the
  region stages. Its conclusion says what every unscoped buffer holds at the end. No window stages an argument
  array directly (every window's array is the result of a host operation), and no host operation, before or after
  the region, writes an argument array (each writes only its own result): so each argument ends as launched.
-/
import proofs.«129167_j56925496541808_2_alg».proof.Proof.FrameBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three stretches of host lines before the region, the region, and the stretch after it: it reduces
    to the region continued by the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch the region's arrays and the buffers that bypass it only (each operation's
    buffers are unscoped TensorCore references, and with nothing prefetched every such reference is one or the other). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the region (each writes only its own result buffer, which is no window's array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays, before and after the region -/

/-- No host operation before the region writes `main_arg0`: the region is entered with it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region is entered with it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region is entered with it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg2`, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region is entered with it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`: the region is entered with it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg4`, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`: the region is entered with it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg5`, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6`: the region is entered with it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg6`, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes `main_arg7`: the region is entered with it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg7`, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes `main_arg8`: the region is entered with it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg8`, and no window stages it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the region writes `main_arg9`: the region is entered with it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg9`, and no window stages it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation before the region writes `main_arg10`: the region is entered with it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg10`, and no window stages it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host operation before the region writes `main_arg11`: the region is entered with it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg11`, and no window stages it: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host operation before the region writes `main_arg12`: the region is entered with it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg12`, and no window stages it: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- No host operation before the region writes `main_arg13`: the region is entered with it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg13`, and no window stages it: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-! ## The run and the frame -/

set_option backward.isDefEq.respectTransparency.types false in
/-- At the compiled mesh, from any memory with zero counters: every weakly fair execution of @main on the
    TensorCores terminates, nothing faulting, and every final state has every array of the region at what the launch
    computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: every weakly fair execution of @main terminates, nothing faults, and each of the fourteen argument
    arrays ends as launched — each is unscoped and is no window's array, so the run's post gives it at what the lines
    after the region leave, which is what it was launched with. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c)⟩) (run_main m ρ)

end Cert.KernelIdeal.Hand

end
-- ==== Proof.FrameDataBits.lean ====
/-
  The kernel region as the launch theorems see it.

  The region is entered after three stretches of host operations (reshapes of the features and of the bias vectors,
  the slice and the clamp of the codes, the format changes of the weights, the two stacked weight arrays); `V` is
  what each buffer holds at that moment. Window `w`'s block at grid point `t` is read off `V` (`iblk`). The body
  loads literal rectangles of its sixteen input blocks — the whole block, except for the three wide weight arrays,
  of which it loads 512-column slabs — and stores each of its four output blocks whole, once: `o16 … o19` say what
  each output block then holds, as a function of the sixteen input blocks, over the named pure terms of the body.
  `dats` packages this for the launch: the arrays as the region finds them, every input block left in place, every
  output block at `o16 … o19` of the point's input blocks.
-/
import proofs.«129167_j56925496541808_2_alg».proof.Proof.Gen.Kernel.Launch
import proofs.«129167_j56925496541808_2_alg».proof.Proof.Gen.Kernel.Skeleton
import proofs.«129167_j56925496541808_2_alg».proof.Proof.Gen.Kernel.Points
import Idealize.ShloMosaic.Lib.Pipeline.FrameBody
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Cert.Kernel Cert.Kernel.Gen

variable {F : FTy → Type} [FloatOps F]

variable (m : (ℓ : Loc nD τ sig) → Buf (Elt F) ℓ)

/-! ## The buffers when the region is entered -/

/-- Core `c`'s buffer contents after the host operations before the region. -/
abbrev V0 (c : Dev nD) : Valuation τ sig (Elt F) :=
  StableHlo.after (List.flatten [hostOps0, hostOps0_1, hostOps0_2]) (fun b => m (c, b))

/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The rectangles the body loads and stores through -/

/-- A whole feature or output block [1, 512, 512]. -/
abbrev rBlk : Rect S1x512x512 := Rect.unit (s := S1x512x512) ![0, 0, 0] S1x512x512.size inb_S1x512x512_S1x512x512_0_0_0
/-- The whole block of codes [1, 3, 512]. -/
abbrev rCode : Rect S1x3x512 := Rect.unit (s := S1x3x512) ![0, 0, 0] S1x3x512.size inb_S1x3x512_S1x3x512_0_0_0
/-- A whole column [512, 1] (scale, shift, a bias). -/
abbrev rCol : Rect S512x1 := Rect.unit (s := S512x1) ![0, 0] S512x1.size inb_S512x1_S512x1_0_0
/-- A whole square weight array [512, 512]. -/
abbrev rSq : Rect S512x512 := Rect.unit (s := S512x512) ![0, 0] S512x512.size inb_S512x512_S512x512_0_0
/-- The whole stack of three code-0 weight slabs [1536, 512]. -/
abbrev rCat0 : Rect S1536x512 := Rect.unit (s := S1536x512) ![0, 0] S1536x512.size inb_S1536x512_S1536x512_0_0
/-- The whole stack of two code-1 weight slabs [1024, 512]. -/
abbrev rCat1 : Rect S1024x512 := Rect.unit (s := S1024x512) ![0, 0] S1024x512.size inb_S1024x512_S1024x512_0_0
/-- The feature columns 0 … 511 of the second layer's weights [512, 1024]. -/
abbrev rU1 : Rect S512x1024 := Rect.unit (s := S512x1024) ![0, 0] S512x512.size inb_S512x1024_S512x512_0_0
/-- The feature columns of the third layer's weights [512, 1536]. -/
abbrev rU2 : Rect S512x1536 := Rect.unit (s := S512x1536) ![0, 0] S512x512.size inb_S512x1536_S512x512_0_0
/-- The feature columns of the fourth layer's weights [512, 2048]. -/
abbrev rU3 : Rect S512x2048 := Rect.unit (s := S512x2048) ![0, 0] S512x512.size inb_S512x2048_S512x512_0_0
/-- The code-2 columns 1536 … 2047 of the fourth layer's weights. -/
abbrev rU3c : Rect S512x2048 := Rect.unit (s := S512x2048) ![0, 1536] S512x512.size inb_S512x2048_S512x512_0_1536

/-! ## The body's intermediate values, from the sixteen input blocks -/

/-- The normalised features, as the matrix unit's right operand. -/
def xb (x0 : Vec F S1x512x512 .f32) (x1 : Vec F S1x3x512 .i32) (x2 : Vec F S512x1 .f32) (x3 : Vec F S512x1 .f32) (x4 : Vec F S512x512 .bf16) (x5 : Vec F S512x1 .f32) (x6 : Vec F S512x1024 .bf16) (x7 : Vec F S512x1 .f32) (x8 : Vec F S512x1536 .bf16) (x9 : Vec F S512x1 .f32) (x10 : Vec F S512x2048 .bf16) (x11 : Vec F S512x1 .f32) (x12 : Vec F S512x512 .bf16) (x13 : Vec F S512x1 .f32) (x14 : Vec F S1536x512 .bf16) (x15 : Vec F S1024x512 .bf16) : FVec F S512x512 .bf16 :=
  k0_pay3 (View.ld x0 rBlk) (View.ld x2 rCol) (View.ld x3 rCol)
/-- The indicator array of code 0. -/
def oh0 (x0 : Vec F S1x512x512 .f32) (x1 : Vec F S1x3x512 .i32) (x2 : Vec F S512x1 .f32) (x3 : Vec F S512x1 .f32) (x4 : Vec F S512x512 .bf16) (x5 : Vec F S512x1 .f32) (x6 : Vec F S512x1024 .bf16) (x7 : Vec F S512x1 .f32) (x8 : Vec F S512x1536 .bf16) (x9 : Vec F S512x1 .f32) (x10 : Vec F S512x2048 .bf16) (x11 : Vec F S512x1 .f32) (x12 : Vec F S512x512 .bf16) (x13 : Vec F S512x1 .f32) (x14 : Vec F S1536x512 .bf16) (x15 : Vec F S1024x512 .bf16) : FVec F S512x512 .bf16 := k0_pay5 (View.ld x1 rCode)
/-- The indicator array of code 1. -/
def oh1 (x0 : Vec F S1x512x512 .f32) (x1 : Vec F S1x3x512 .i32) (x2 : Vec F S512x1 .f32) (x3 : Vec F S512x1 .f32) (x4 : Vec F S512x512 .bf16) (x5 : Vec F S512x1 .f32) (x6 : Vec F S512x1024 .bf16) (x7 : Vec F S512x1 .f32) (x8 : Vec F S512x1536 .bf16) (x9 : Vec F S512x1 .f32) (x10 : Vec F S512x2048 .bf16) (x11 : Vec F S512x1 .f32) (x12 : Vec F S512x512 .bf16) (x13 : Vec F S512x1 .f32) (x14 : Vec F S1536x512 .bf16) (x15 : Vec F S1024x512 .bf16) : FVec F S512x512 .bf16 := k0_pay6 (View.ld x1 rCode)
/-- The indicator array of code 2. -/
def oh2 (x0 : Vec F S1x512x512 .f32) (x1 : Vec F S1x3x512 .i32) (x2 : Vec F S512x1 .f32) (x3 : Vec F S512x1 .f32) (x4 : Vec F S512x512 .bf16) (x5 : Vec F S512x1 .f32) (x6 : Vec F S512x1024 .bf16) (x7 : Vec F S512x1 .f32) (x8 : Vec F S512x1536 .bf16) (x9 : Vec F S512x1 .f32) (x10 : Vec F S512x2048 .bf16) (x11 : Vec F S512x1 .f32) (x12 : Vec F S512x512 .bf16) (x13 : Vec F S512x1 .f32) (x14 : Vec F S1536x512 .bf16) (x15 : Vec F S1024x512 .bf16) : FVec F S512x512 .bf16 :=
  k0_pay8 (iota .tc S512x512 32 [0] iota_S512x512_d0_w32) (k0_pay7 (View.ld x1 rCode))

/-! ## What the body leaves in each output block -/

/-- Output 0: the first head. -/
def o16 (x0 : Vec F S1x512x512 .f32) (x1 : Vec F S1x3x512 .i32) (x2 : Vec F S512x1 .f32) (x3 : Vec F S512x1 .f32) (x4 : Vec F S512x512 .bf16) (x5 : Vec F S512x1 .f32) (x6 : Vec F S512x1024 .bf16) (x7 : Vec F S512x1 .f32) (x8 : Vec F S512x1536 .bf16) (x9 : Vec F S512x1 .f32) (x10 : Vec F S512x2048 .bf16) (x11 : Vec F S512x1 .f32) (x12 : Vec F S512x512 .bf16) (x13 : Vec F S512x1 .f32) (x14 : Vec F S1536x512 .bf16) (x15 : Vec F S1024x512 .bf16) : Vec F S1x512x512 .f32 :=
  View.canon [⟨rBlk, k0_pay9 (xb x0 x1 x2 x3 x4 x5 x6 x7 x8 x9 x10 x11 x12 x13 x14 x15) (View.ld x4 rSq) (View.ld x5 rCol) (View.ld x12 rSq) (View.ld x13 rCol)⟩]

/-- Output 1: the second head (features and code 0). -/
def o17 (x0 : Vec F S1x512x512 .f32) (x1 : Vec F S1x3x512 .i32) (x2 : Vec F S512x1 .f32) (x3 : Vec F S512x1 .f32) (x4 : Vec F S512x512 .bf16) (x5 : Vec F S512x1 .f32) (x6 : Vec F S512x1024 .bf16) (x7 : Vec F S512x1 .f32) (x8 : Vec F S512x1536 .bf16) (x9 : Vec F S512x1 .f32) (x10 : Vec F S512x2048 .bf16) (x11 : Vec F S512x1 .f32) (x12 : Vec F S512x512 .bf16) (x13 : Vec F S512x1 .f32) (x14 : Vec F S1536x512 .bf16) (x15 : Vec F S1024x512 .bf16) : Vec F S1x512x512 .f32 :=
  View.canon [⟨rBlk, k0_pay17 (xb x0 x1 x2 x3 x4 x5 x6 x7 x8 x9 x10 x11 x12 x13 x14 x15) (k0_pay11 (oh0 x0 x1 x2 x3 x4 x5 x6 x7 x8 x9 x10 x11 x12 x13 x14 x15) (View.ld x14 rCat0)) (View.ld x6 rU1)
    (View.ld x7 rCol) (View.ld x12 rSq) (View.ld x13 rCol)⟩]

/-- Output 2: the third head (features, codes 0 and 1). -/
def o18 (x0 : Vec F S1x512x512 .f32) (x1 : Vec F S1x3x512 .i32) (x2 : Vec F S512x1 .f32) (x3 : Vec F S512x1 .f32) (x4 : Vec F S512x512 .bf16) (x5 : Vec F S512x1 .f32) (x6 : Vec F S512x1024 .bf16) (x7 : Vec F S512x1 .f32) (x8 : Vec F S512x1536 .bf16) (x9 : Vec F S512x1 .f32) (x10 : Vec F S512x2048 .bf16) (x11 : Vec F S512x1 .f32) (x12 : Vec F S512x512 .bf16) (x13 : Vec F S512x1 .f32) (x14 : Vec F S1536x512 .bf16) (x15 : Vec F S1024x512 .bf16) : Vec F S1x512x512 .f32 :=
  View.canon [⟨rBlk, k0_pay1 (k0_pay18 (xb x0 x1 x2 x3 x4 x5 x6 x7 x8 x9 x10 x11 x12 x13 x14 x15) (k0_pay12 (oh0 x0 x1 x2 x3 x4 x5 x6 x7 x8 x9 x10 x11 x12 x13 x14 x15) (View.ld x14 rCat0))
    (k0_pay15 (oh1 x0 x1 x2 x3 x4 x5 x6 x7 x8 x9 x10 x11 x12 x13 x14 x15) (View.ld x15 rCat1)) (View.ld x8 rU2) (View.ld x9 rCol) (View.ld x12 rSq)) (View.ld x13 rCol)⟩]

/-- Output 3: the fourth head (features, codes 0, 1 and 2). -/
def o19 (x0 : Vec F S1x512x512 .f32) (x1 : Vec F S1x3x512 .i32) (x2 : Vec F S512x1 .f32) (x3 : Vec F S512x1 .f32) (x4 : Vec F S512x512 .bf16) (x5 : Vec F S512x1 .f32) (x6 : Vec F S512x1024 .bf16) (x7 : Vec F S512x1 .f32) (x8 : Vec F S512x1536 .bf16) (x9 : Vec F S512x1 .f32) (x10 : Vec F S512x2048 .bf16) (x11 : Vec F S512x1 .f32) (x12 : Vec F S512x512 .bf16) (x13 : Vec F S512x1 .f32) (x14 : Vec F S1536x512 .bf16) (x15 : Vec F S1024x512 .bf16) : Vec F S1x512x512 .f32 :=
  View.canon [⟨rBlk, k0_pay2 (xb x0 x1 x2 x3 x4 x5 x6 x7 x8 x9 x10 x11 x12 x13 x14 x15) (oh2 x0 x1 x2 x3 x4 x5 x6 x7 x8 x9 x10 x11 x12 x13 x14 x15) (k0_pay13 (oh0 x0 x1 x2 x3 x4 x5 x6 x7 x8 x9 x10 x11 x12 x13 x14 x15) (View.ld x14 rCat0))
    (k0_pay16 (oh1 x0 x1 x2 x3 x4 x5 x6 x7 x8 x9 x10 x11 x12 x13 x14 x15) (View.ld x15 rCat1)) (View.ld x10 rU3c) (View.ld x10 rU3) (View.ld x11 rCol)
    (View.ld x12 rSq) (View.ld x13 rCol)⟩]

/-! ## The proof data of the launch -/

/-- The arrays as the region finds them; after the body at point `t` each input block is as it was found and each
    output block is `o16 … o19` of the point's input blocks; nothing else is held between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => o16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => o17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨18, _⟩ => o18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨19, _⟩ => o19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 20, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = o16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after17 (c : Dev nD) (t : Fin cfg0.N) : (dats m 0 c).after 17 t = o17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after18 (c : Dev nD) (t : Fin cfg0.N) : (dats m 0 c).after 18 t = o18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after19 (c : Dev nD) (t : Fin cfg0.N) : (dats m 0 c).after 19 t = o19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

end Cert.Kernel.Hand

end
-- ==== Proof.FrameBodyBits.lean ====
/-
  The kernel body at one grid point.

  Held: the sixteen input blocks' staging buffers, whole, at read contents `x0 … x15`, and the four output blocks'
  staging buffers, whole, at anything. The body loads literal rectangles of the inputs (and, once, each output
  buffer, whose value it never uses), computes, and stores each output block whole, once. So it returns with every
  input buffer as it was and output buffer `w` at the one stored array laid over the whole block: `o16 … o19` of
  the input blocks. A store through the whole-block rectangle at offset zero covers the block (every index lies in
  it), which is the one geometric fact needed; it is proved from the rectangle's definition, not by enumeration.

  At any grid point the pipeline hands the body exactly this: each input window's current staging buffer holds the
  window's block at the point, fetched there or not (an unfetched window's block index has not moved), so the
  body's triple gives the launch theorem's obligation at every point.
-/
import proofs.«129167_j56925496541808_2_alg».proof.Proof.FrameDataBits
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The one geometric fact -/

/-- The offsets of the whole-block rectangle are zero. -/
theorem zero3 : (![0, 0, 0] : Fin S1x512x512.rank → Nat) = fun _ => 0 := funext fun a => by fin_cases a <;> rfl

/-- One array stored through the whole-block rectangle covers the block: every index of the block lies in it. -/
theorem coverBlk (p : rBlk.shape.Idx → Elt F .f32) (y : S1x512x512.Idx) :
    ∃ pc ∈ ([⟨rBlk, p⟩] : List (View.Piece (Elt F) S1x512x512 .f32)), y ∈ pc.1.set :=
  ⟨⟨rBlk, p⟩, List.mem_singleton_self _, View.mem_set_unit_zero zero3 inb_S1x512x512_S1x512x512_0_0_0 y⟩

/-! ## The body's triple -/

set_option maxHeartbeats 4000000 in
/-- The body on whole staging buffers, the inputs' at read contents `x0 … x15` and the outputs' at anything, runs to
    its return holding the inputs' as they were and each output's at `o16 … o19` of the inputs'. -/
theorem sound_kernel (c : Dev nD) (E : Set ℕ) (i : grid0.Coords) (arg2 : Memref sig .tc .vmem S1x512x512 .f32) (harg2 : arg2.IsWhole) (arg3 : Memref sig .tc .vmem S1x3x512 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x1 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1536 .bf16) (harg10 : arg10.IsWhole) (arg11 : Memref sig .tc .vmem S512x1 .f32) (harg11 : arg11.IsWhole) (arg12 : Memref sig .tc .vmem S512x2048 .bf16) (harg12 : arg12.IsWhole) (arg13 : Memref sig .tc .vmem S512x1 .f32) (harg13 : arg13.IsWhole) (arg14 : Memref sig .tc .vmem S512x512 .bf16) (harg14 : arg14.IsWhole) (arg15 : Memref sig .tc .vmem S512x1 .f32) (harg15 : arg15.IsWhole) (arg16 : Memref sig .tc .vmem S1536x512 .bf16) (harg16 : arg16.IsWhole) (arg17 : Memref sig .tc .vmem S1024x512 .bf16) (harg17 : arg17.IsWhole) (arg18 : Memref sig .tc .vmem S1x512x512 .f32) (harg18 : arg18.IsWhole) (arg19 : Memref sig .tc .vmem S1x512x512 .f32) (harg19 : arg19.IsWhole) (arg20 : Memref sig .tc .vmem S1x512x512 .f32) (harg20 : arg20.IsWhole) (arg21 : Memref sig .tc .vmem S1x512x512 .f32) (harg21 : arg21.IsWhole)
    (x0 : Vec F S1x512x512 .f32) (x1 : Vec F S1x3x512 .i32) (x2 : Vec F S512x1 .f32) (x3 : Vec F S512x1 .f32) (x4 : Vec F S512x512 .bf16) (x5 : Vec F S512x1 .f32) (x6 : Vec F S512x1024 .bf16) (x7 : Vec F S512x1 .f32) (x8 : Vec F S512x1536 .bf16) (x9 : Vec F S512x1 .f32) (x10 : Vec F S512x2048 .bf16) (x11 : Vec F S512x1 .f32) (x12 : Vec F S512x512 .bf16) (x13 : Vec F S512x1 .f32) (x14 : Vec F S1536x512 .bf16) (x15 : Vec F S1024x512 .bf16) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare x11
            ∗ owns (c : Thread nD τ) arg14 fullShare x12
            ∗ owns (c : Thread nD τ) arg15 fullShare x13
            ∗ owns (c : Thread nD τ) arg16 fullShare x14
            ∗ owns (c : Thread nD τ) arg17 fullShare x15
            ∗ owns (c : Thread nD τ) arg18 fullShare (o16 x0 x1 x2 x3 x4 x5 x6 x7 x8 x9 x10 x11 x12 x13 x14 x15)
            ∗ owns (c : Thread nD τ) arg19 fullShare (o17 x0 x1 x2 x3 x4 x5 x6 x7 x8 x9 x10 x11 x12 x13 x14 x15)
            ∗ owns (c : Thread nD τ) arg20 fullShare (o18 x0 x1 x2 x3 x4 x5 x6 x7 x8 x9 x10 x11 x12 x13 x14 x15)
            ∗ owns (c : Thread nD τ) arg21 fullShare (o19 x0 x1 x2 x3 x4 x5 x6 x7 x8 x9 x10 x11 x12 x13 x14 x15)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
  subst hf0; subst hf1; subst hf2; subst hf3; subst hf4; subst hf5; subst hf6; subst hf7; subst hf8; subst hf9; subst hf10; subst hf11; subst hf12; subst hf13; subst hf14; subst hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    exact View.read_writes_eq_canon _ _ _ (coverBlk _)
  isplitl [H17]
  · iexists _; isplitr
    swap; · iexact H17
    ipureintro
    exact View.read_writes_eq_canon _ _ _ (coverBlk _)
  isplitl [H18]
  · iexists _; isplitr
    swap; · iexact H18
    ipureintro
    exact View.read_writes_eq_canon _ _ _ (coverBlk _)
  iexists _; isplitr
  swap; · iexact H19
  ipureintro
  exact View.read_writes_eq_canon _ _ _ (coverBlk _)

/-! ## What the body finds in the input windows' buffers -/

/- Each input window is whole, never idle and never clipped, and the body leaves its block in place; so at every
   point its current staging buffer holds the window's block there, whether the pipeline fetched it at that point
   (windows 0 and 1, at every point) or not (windows 2 … 15, fetched at the first point only: their block index
   never moves). -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl)
    (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl)
    (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl)
    (fun t => by rw [after9]; unfold Dat.blockOf iblk; rw [A_eq]; try rfl) t d).trans
    (by unfold Dat.fetched Dat.blockOf iblk; rw [A_eq]; try rfl)
theorem before10 (c : Dev nD) (t : Fin cfg0.N) (d) : (dats m 0 c).before 10 t d = iblk m c 10 t :=
  ((dats m 0 c).before_in_eq_fetched 10 rfl (fun _ => rfl) (fun _ _ _ => rfl)
    (fun t => by rw [after10]; unfold Dat.blockOf iblk; rw [A_eq]; try rfl) t d).trans
    (by unfold Dat.fetched Dat.blockOf iblk; rw [A_eq]; try rfl)
theorem before11 (c : Dev nD) (t : Fin cfg0.N) (d) : (dats m 0 c).before 11 t d = iblk m c 11 t :=
  ((dats m 0 c).before_in_eq_fetched 11 rfl (fun _ => rfl) (fun _ _ _ => rfl)
    (fun t => by rw [after11]; unfold Dat.blockOf iblk; rw [A_eq]; try rfl) t d).trans
    (by unfold Dat.fetched Dat.blockOf iblk; rw [A_eq]; try rfl)
theorem before12 (c : Dev nD) (t : Fin cfg0.N) (d) : (dats m 0 c).before 12 t d = iblk m c 12 t :=
  ((dats m 0 c).before_in_eq_fetched 12 rfl (fun _ => rfl) (fun _ _ _ => rfl)
    (fun t => by rw [after12]; unfold Dat.blockOf iblk; rw [A_eq]; try rfl) t d).trans
    (by unfold Dat.fetched Dat.blockOf iblk; rw [A_eq]; try rfl)
theorem before13 (c : Dev nD) (t : Fin cfg0.N) (d) : (dats m 0 c).before 13 t d = iblk m c 13 t :=
  ((dats m 0 c).before_in_eq_fetched 13 rfl (fun _ => rfl) (fun _ _ _ => rfl)
    (fun t => by rw [after13]; unfold Dat.blockOf iblk; rw [A_eq]; try rfl) t d).trans
    (by unfold Dat.fetched Dat.blockOf iblk; rw [A_eq]; try rfl)
theorem before14 (c : Dev nD) (t : Fin cfg0.N) (d) : (dats m 0 c).before 14 t d = iblk m c 14 t :=
  ((dats m 0 c).before_in_eq_fetched 14 rfl (fun _ => rfl) (fun _ _ _ => rfl)
    (fun t => by rw [after14]; unfold Dat.blockOf iblk; rw [A_eq]; try rfl) t d).trans
    (by unfold Dat.fetched Dat.blockOf iblk; rw [A_eq]; try rfl)
theorem before15 (c : Dev nD) (t : Fin cfg0.N) (d) : (dats m 0 c).before 15 t d = iblk m c 15 t :=
  ((dats m 0 c).before_in_eq_fetched 15 rfl (fun _ => rfl) (fun _ _ _ => rfl)
    (fun t => by rw [after15]; unfold Dat.blockOf iblk; rw [A_eq]; try rfl) t d).trans
    (by unfold Dat.fetched Dat.blockOf iblk; rw [A_eq]; try rfl)

/-! ## The body obligation, at a generic point -/

/-- What the body is called with at point `t`: the invariant, the core's debts, and the twenty windows' current
    staging buffers, each at what the launch says it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- What it returns: the same, each buffer at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

set_option maxHeartbeats 2000000 in
/-- The body at any point: the input buffers hold their blocks, so the body's triple applies at the point's blocks;
    the invariant and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The launch theorem's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.FrameRunBits.lean ====
/-
  The frame of the program: it runs to the end, faults nowhere, and its fourteen argument arrays end unchanged.

  @main is three stretches of host operations, one region, and a last stretch of four reshapes. The launch theorem
  for "host lines, region, host lines" takes: @main as that chain; the body obligation at every grid point; and,
  of the lines after the region, that they touch only unscoped buffers, allocate nothing and write no array the
  region stages. Its conclusion says what every unscoped buffer holds at the end. No window stages an argument
  array directly (every window's array is the result of a host operation), and no host operation, before or after
  the region, writes an argument array (each writes only its own result): so each argument ends as launched.
-/
import proofs.«129167_j56925496541808_2_alg».proof.Proof.FrameBodyBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three stretches of host lines before the region, the region, and the stretch after it: it reduces
    to the region continued by the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch the region's arrays and the buffers that bypass it only (each operation's
    buffers are unscoped TensorCore references, and with nothing prefetched every such reference is one or the other). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the region (each writes only its own result buffer, which is no window's array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays, before and after the region -/

/-- No host operation before the region writes `main_arg0`: the region is entered with it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region is entered with it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region is entered with it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg2`, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region is entered with it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`: the region is entered with it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg4`, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`: the region is entered with it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg5`, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6`: the region is entered with it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg6`, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes `main_arg7`: the region is entered with it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg7`, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes `main_arg8`: the region is entered with it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg8`, and no window stages it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the region writes `main_arg9`: the region is entered with it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg9`, and no window stages it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation before the region writes `main_arg10`: the region is entered with it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg10`, and no window stages it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host operation before the region writes `main_arg11`: the region is entered with it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg11`, and no window stages it: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host operation before the region writes `main_arg12`: the region is entered with it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg12`, and no window stages it: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- No host operation before the region writes `main_arg13`: the region is entered with it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg13`, and no window stages it: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-! ## The run and the frame -/

set_option backward.isDefEq.respectTransparency.types false in
/-- At the compiled mesh, from any memory with zero counters: every weakly fair execution of @main on the
    TensorCores terminates, nothing faulting, and every final state has every array of the region at what the launch
    computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: every weakly fair execution of @main terminates, nothing faults, and each of the fourteen argument
    arrays ends as launched — each is unscoped and is no window's array, so the run's post gives it at what the lines
    after the region leave, which is what it was launched with. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c)⟩) (run_main m ρ)

end Cert.Kernel.Hand

end
-- ==== Proof.KernelArray.lean ====
/-
  From blocks to arrays.

  The grid is [16, 2]: point `t` is batch entry `t / 2` and half `t % 2` of the 1024 positions. Six windows are
  tiled by it — the features [16, 512, 1024] and the four outputs in blocks [1, 512, 512], the codes [16, 3, 1024]
  in blocks [1, 3, 512] —, all with the block index (t / 2, 0, t % 2): element (u, v, q) of point `t`'s block is
  element (t / 2, v, (t % 2) * 512 + q) of the array. The other fourteen windows (scale, shift, weights, biases)
  have the constant block index zero and a block that is the whole array: their block at every point is the array.

  Every index (b, v, p) of an output array lies in the block of exactly the point 2 * b + p / 512, and every point
  writes its block back: so an output array ends as any function `G` whose restriction to each point's block is what
  that point wrote. The four reshapes after the region then carry the output arrays, element for element in row-major
  order, to the program's four results; nothing else touches them.
-/
import proofs.«129167_j56925496541808_2_alg».proof.Proof.FrameRun
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The grid -/

/-- The grid has 32 points. -/
theorem pt_lt (t : Fin cfg0.N) : t.val < 32 := by
  have h := t.isLt
  have e : cfg0.N = 32 := N_0
  omega

/-- The block index of every tiled window at point `t` is (t / 2, 0, t % 2): decided over the 32 points. -/
theorem idx_tiles : ∀ t : Fin cfg0.N,
    win0_0.index t (0 : Fin 3) = t.val / 2 ∧ win0_0.index t (1 : Fin 3) = 0 ∧ win0_0.index t (2 : Fin 3) = t.val % 2
    ∧ win0_1.index t (0 : Fin 3) = t.val / 2 ∧ win0_1.index t (1 : Fin 3) = 0 ∧ win0_1.index t (2 : Fin 3) = t.val % 2
    ∧ win0_16.index t (0 : Fin 3) = t.val / 2 ∧ win0_16.index t (1 : Fin 3) = 0 ∧ win0_16.index t (2 : Fin 3) = t.val % 2
    ∧ win0_17.index t (0 : Fin 3) = t.val / 2 ∧ win0_17.index t (1 : Fin 3) = 0 ∧ win0_17.index t (2 : Fin 3) = t.val % 2
    ∧ win0_18.index t (0 : Fin 3) = t.val / 2 ∧ win0_18.index t (1 : Fin 3) = 0 ∧ win0_18.index t (2 : Fin 3) = t.val % 2
    ∧ win0_19.index t (0 : Fin 3) = t.val / 2 ∧ win0_19.index t (1 : Fin 3) = 0 ∧ win0_19.index t (2 : Fin 3) = t.val % 2 :=
  (by decide +kernel : ∀ t : Fin grid0.N, _)

/-- The block index of every other window is zero at every point: decided over the 32 points. -/
theorem idx_consts : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0 :=
  (by decide +kernel : ∀ t : Fin grid0.N, _)

/-! ## Where a block's element sits in its array -/

/-- Element (u, v, q) of point `t`'s block of window 0 is element (t / 2, v, (t % 2) * 512 + q) of its array. -/
theorem emb_tile0 (t : Fin cfg0.N) (u : Fin 1) (v : Fin 512) (q : Fin 512) :
    (((cfg0.win 0).blk t).view.emb (ix3 u v q) : S16x512x1024.Idx)
      = ix3 (⟨t.val / 2, by have := pt_lt t; omega⟩ : Fin 16) v (⟨t.val % 2 * 512 + q.val, by have := q.isLt; omega⟩ : Fin 1024) := by
  obtain ⟨e0, e1, e2, -, -, -, -, -, -, -, -, -, -, -, -, -, -, -⟩ := idx_tiles t
  have hu : u.val = 0 := by have := u.isLt; omega
  funext a; apply Fin.ext
  match a with
  | ⟨0, _⟩ => show win0_0.index t (0 : Fin 3) * 1 + 1 * u.val = t.val / 2; omega
  | ⟨1, _⟩ => show win0_0.index t (1 : Fin 3) * 512 + 1 * v.val = v.val; omega
  | ⟨2, _⟩ => show win0_0.index t (2 : Fin 3) * 512 + 1 * q.val = t.val % 2 * 512 + q.val; omega

/-- Element (u, v, q) of point `t`'s block of window 1 is element (t / 2, v, (t % 2) * 512 + q) of its array. -/
theorem emb_tile1 (t : Fin cfg0.N) (u : Fin 1) (v : Fin 3) (q : Fin 512) :
    (((cfg0.win 1).blk t).view.emb (ix3 u v q) : S16x3x1024.Idx)
      = ix3 (⟨t.val / 2, by have := pt_lt t; omega⟩ : Fin 16) v (⟨t.val % 2 * 512 + q.val, by have := q.isLt; omega⟩ : Fin 1024) := by
  obtain ⟨-, -, -, e0, e1, e2, -, -, -, -, -, -, -, -, -, -, -, -⟩ := idx_tiles t
  have hu : u.val = 0 := by have := u.isLt; omega
  funext a; apply Fin.ext
  match a with
  | ⟨0, _⟩ => show win0_1.index t (0 : Fin 3) * 1 + 1 * u.val = t.val / 2; omega
  | ⟨1, _⟩ => show win0_1.index t (1 : Fin 3) * 3 + 1 * v.val = v.val; omega
  | ⟨2, _⟩ => show win0_1.index t (2 : Fin 3) * 512 + 1 * q.val = t.val % 2 * 512 + q.val; omega

/-- Element (u, v, q) of point `t`'s block of window 16 is element (t / 2, v, (t % 2) * 512 + q) of its array. -/
theorem emb_tile16 (t : Fin cfg0.N) (u : Fin 1) (v : Fin 512) (q : Fin 512) :
    (((cfg0.win 16).blk t).view.emb (ix3 u v q) : S16x512x1024.Idx)
      = ix3 (⟨t.val / 2, by have := pt_lt t; omega⟩ : Fin 16) v (⟨t.val % 2 * 512 + q.val, by have := q.isLt; omega⟩ : Fin 1024) := by
  obtain ⟨-, -, -, -, -, -, e0, e1, e2, -, -, -, -, -, -, -, -, -⟩ := idx_tiles t
  have hu : u.val = 0 := by have := u.isLt; omega
  funext a; apply Fin.ext
  match a with
  | ⟨0, _⟩ => show win0_16.index t (0 : Fin 3) * 1 + 1 * u.val = t.val / 2; omega
  | ⟨1, _⟩ => show win0_16.index t (1 : Fin 3) * 512 + 1 * v.val = v.val; omega
  | ⟨2, _⟩ => show win0_16.index t (2 : Fin 3) * 512 + 1 * q.val = t.val % 2 * 512 + q.val; omega

/-- Element (u, v, q) of point `t`'s block of window 17 is element (t / 2, v, (t % 2) * 512 + q) of its array. -/
theorem emb_tile17 (t : Fin cfg0.N) (u : Fin 1) (v : Fin 512) (q : Fin 512) :
    (((cfg0.win 17).blk t).view.emb (ix3 u v q) : S16x512x1024.Idx)
      = ix3 (⟨t.val / 2, by have := pt_lt t; omega⟩ : Fin 16) v (⟨t.val % 2 * 512 + q.val, by have := q.isLt; omega⟩ : Fin 1024) := by
  obtain ⟨-, -, -, -, -, -, -, -, -, e0, e1, e2, -, -, -, -, -, -⟩ := idx_tiles t
  have hu : u.val = 0 := by have := u.isLt; omega
  funext a; apply Fin.ext
  match a with
  | ⟨0, _⟩ => show win0_17.index t (0 : Fin 3) * 1 + 1 * u.val = t.val / 2; omega
  | ⟨1, _⟩ => show win0_17.index t (1 : Fin 3) * 512 + 1 * v.val = v.val; omega
  | ⟨2, _⟩ => show win0_17.index t (2 : Fin 3) * 512 + 1 * q.val = t.val % 2 * 512 + q.val; omega

/-- Element (u, v, q) of point `t`'s block of window 18 is element (t / 2, v, (t % 2) * 512 + q) of its array. -/
theorem emb_tile18 (t : Fin cfg0.N) (u : Fin 1) (v : Fin 512) (q : Fin 512) :
    (((cfg0.win 18).blk t).view.emb (ix3 u v q) : S16x512x1024.Idx)
      = ix3 (⟨t.val / 2, by have := pt_lt t; omega⟩ : Fin 16) v (⟨t.val % 2 * 512 + q.val, by have := q.isLt; omega⟩ : Fin 1024) := by
  obtain ⟨-, -, -, -, -, -, -, -, -, -, -, -, e0, e1, e2, -, -, -⟩ := idx_tiles t
  have hu : u.val = 0 := by have := u.isLt; omega
  funext a; apply Fin.ext
  match a with
  | ⟨0, _⟩ => show win0_18.index t (0 : Fin 3) * 1 + 1 * u.val = t.val / 2; omega
  | ⟨1, _⟩ => show win0_18.index t (1 : Fin 3) * 512 + 1 * v.val = v.val; omega
  | ⟨2, _⟩ => show win0_18.index t (2 : Fin 3) * 512 + 1 * q.val = t.val % 2 * 512 + q.val; omega

/-- Element (u, v, q) of point `t`'s block of window 19 is element (t / 2, v, (t % 2) * 512 + q) of its array. -/
theorem emb_tile19 (t : Fin cfg0.N) (u : Fin 1) (v : Fin 512) (q : Fin 512) :
    (((cfg0.win 19).blk t).view.emb (ix3 u v q) : S16x512x1024.Idx)
      = ix3 (⟨t.val / 2, by have := pt_lt t; omega⟩ : Fin 16) v (⟨t.val % 2 * 512 + q.val, by have := q.isLt; omega⟩ : Fin 1024) := by
  obtain ⟨-, -, -, -, -, -, -, -, -, -, -, -, -, -, -, e0, e1, e2⟩ := idx_tiles t
  have hu : u.val = 0 := by have := u.isLt; omega
  funext a; apply Fin.ext
  match a with
  | ⟨0, _⟩ => show win0_19.index t (0 : Fin 3) * 1 + 1 * u.val = t.val / 2; omega
  | ⟨1, _⟩ => show win0_19.index t (1 : Fin 3) * 512 + 1 * v.val = v.val; omega
  | ⟨2, _⟩ => show win0_19.index t (2 : Fin 3) * 512 + 1 * q.val = t.val % 2 * 512 + q.val; omega

/-- Window 2's block at every point is its whole array. -/
theorem iblk_const2 (c : Dev nD) (t : Fin cfg0.N) : (iblk m c 2 t : S512x1.Idx → Elt F .f32) = V m c main_v4 := by
  obtain ⟨e0, e1, -, -, -, -, -, -, -, -, -, -, -, -, -, -, -, -, -, -, -, -, -, -, -, -, -, -⟩ := idx_consts t
  unfold iblk
  funext y
  show V m c main_v4 (((cfg0.win 2).blk t).view.emb y) = V m c main_v4 y
  refine congrArg _ ?_
  funext a; apply Fin.ext
  match a with
  | ⟨0, _⟩ => show win0_2.index t (0 : Fin 2) * 512 + 1 * (y 0).val = (y 0).val; omega
  | ⟨1, _⟩ => show win0_2.index t (1 : Fin 2) * 1 + 1 * (y 1).val = (y 1).val; omega

/-- Window 3's block at every point is its whole array. -/
theorem iblk_const3 (c : Dev nD) (t : Fin cfg0.N) : (iblk m c 3 t : S512x1.Idx → Elt F .f32) = V m c main_v5 := by
  obtain ⟨-, -, e0, e1, -, -, -, -, -, -, -, -, -, -, -, -, -, -, -, -, -, -, -, -, -, -, -, -⟩ := idx_consts t
  unfold iblk
  funext y
  show V m c main_v5 (((cfg0.win 3).blk t).view.emb y) = V m c main_v5 y
  refine congrArg _ ?_
  funext a; apply Fin.ext
  match a with
  | ⟨0, _⟩ => show win0_3.index t (0 : Fin 2) * 512 + 1 * (y 0).val = (y 0).val; omega
  | ⟨1, _⟩ => show win0_3.index t (1 : Fin 2) * 1 + 1 * (y 1).val = (y 1).val; omega

/-- Window 4's block at every point is its whole array. -/
theorem iblk_const4 (c : Dev nD) (t : Fin cfg0.N) : (iblk m c 4 t : S512x512.Idx → Elt F .bf16) = V m c main_v6 := by
  obtain ⟨-, -, -, -, e0, e1, -, -, -, -, -, -, -, -, -, -, -, -, -, -, -, -, -, -, -, -, -, -⟩ := idx_consts t
  unfold iblk
  funext y
  show V m c main_v6 (((cfg0.win 4).blk t).view.emb y) = V m c main_v6 y
  refine congrArg _ ?_
  funext a; apply Fin.ext
  match a with
  | ⟨0, _⟩ => show win0_4.index t (0 : Fin 2) * 512 + 1 * (y 0).val = (y 0).val; omega
  | ⟨1, _⟩ => show win0_4.index t (1 : Fin 2) * 512 + 1 * (y 1).val = (y 1).val; omega

/-- Window 5's block at every point is its whole array. -/
theorem iblk_const5 (c : Dev nD) (t : Fin cfg0.N) : (iblk m c 5 t : S512x1.Idx → Elt F .f32) = V m c main_v7 := by
  obtain ⟨-, -, -, -, -, -, e0, e1, -, -, -, -, -, -, -, -, -, -, -, -, -, -, -, -, -, -, -, -⟩ := idx_consts t
  unfold iblk
  funext y
  show V m c main_v7 (((cfg0.win 5).blk t).view.emb y) = V m c main_v7 y
  refine congrArg _ ?_
  funext a; apply Fin.ext
  match a with
  | ⟨0, _⟩ => show win0_5.index t (0 : Fin 2) * 512 + 1 * (y 0).val = (y 0).val; omega
  | ⟨1, _⟩ => show win0_5.index t (1 : Fin 2) * 1 + 1 * (y 1).val = (y 1).val; omega

/-- Window 6's block at every point is its whole array. -/
theorem iblk_const6 (c : Dev nD) (t : Fin cfg0.N) : (iblk m c 6 t : S512x1024.Idx → Elt F .bf16) = V m c main_v8 := by
  obtain ⟨-, -, -, -, -, -, -, -, e0, e1, -, -, -, -, -, -, -, -, -, -, -, -, -, -, -, -, -, -⟩ := idx_consts t
  unfold iblk
  funext y
  show V m c main_v8 (((cfg0.win 6).blk t).view.emb y) = V m c main_v8 y
  refine congrArg _ ?_
  funext a; apply Fin.ext
  match a with
  | ⟨0, _⟩ => show win0_6.index t (0 : Fin 2) * 512 + 1 * (y 0).val = (y 0).val; omega
  | ⟨1, _⟩ => show win0_6.index t (1 : Fin 2) * 1024 + 1 * (y 1).val = (y 1).val; omega

/-- Window 7's block at every point is its whole array. -/
theorem iblk_const7 (c : Dev nD) (t : Fin cfg0.N) : (iblk m c 7 t : S512x1.Idx → Elt F .f32) = V m c main_v9 := by
  obtain ⟨-, -, -, -, -, -, -, -, -, -, e0, e1, -, -, -, -, -, -, -, -, -, -, -, -, -, -, -, -⟩ := idx_consts t
  unfold iblk
  funext y
  show V m c main_v9 (((cfg0.win 7).blk t).view.emb y) = V m c main_v9 y
  refine congrArg _ ?_
  funext a; apply Fin.ext
  match a with
  | ⟨0, _⟩ => show win0_7.index t (0 : Fin 2) * 512 + 1 * (y 0).val = (y 0).val; omega
  | ⟨1, _⟩ => show win0_7.index t (1 : Fin 2) * 1 + 1 * (y 1).val = (y 1).val; omega

/-- Window 8's block at every point is its whole array. -/
theorem iblk_const8 (c : Dev nD) (t : Fin cfg0.N) : (iblk m c 8 t : S512x1536.Idx → Elt F .bf16) = V m c main_v10 := by
  obtain ⟨-, -, -, -, -, -, -, -, -, -, -, -, e0, e1, -, -, -, -, -, -, -, -, -, -, -, -, -, -⟩ := idx_consts t
  unfold iblk
  funext y
  show V m c main_v10 (((cfg0.win 8).blk t).view.emb y) = V m c main_v10 y
  refine congrArg _ ?_
  funext a; apply Fin.ext
  match a with
  | ⟨0, _⟩ => show win0_8.index t (0 : Fin 2) * 512 + 1 * (y 0).val = (y 0).val; omega
  | ⟨1, _⟩ => show win0_8.index t (1 : Fin 2) * 1536 + 1 * (y 1).val = (y 1).val; omega

/-- Window 9's block at every point is its whole array. -/
theorem iblk_const9 (c : Dev nD) (t : Fin cfg0.N) : (iblk m c 9 t : S512x1.Idx → Elt F .f32) = V m c main_v11 := by
  obtain ⟨-, -, -, -, -, -, -, -, -, -, -, -, -, -, e0, e1, -, -, -, -, -, -, -, -, -, -, -, -⟩ := idx_consts t
  unfold iblk
  funext y
  show V m c main_v11 (((cfg0.win 9).blk t).view.emb y) = V m c main_v11 y
  refine congrArg _ ?_
  funext a; apply Fin.ext
  match a with
  | ⟨0, _⟩ => show win0_9.index t (0 : Fin 2) * 512 + 1 * (y 0).val = (y 0).val; omega
  | ⟨1, _⟩ => show win0_9.index t (1 : Fin 2) * 1 + 1 * (y 1).val = (y 1).val; omega

/-- Window 10's block at every point is its whole array. -/
theorem iblk_const10 (c : Dev nD) (t : Fin cfg0.N) : (iblk m c 10 t : S512x2048.Idx → Elt F .bf16) = V m c main_v12 := by
  obtain ⟨-, -, -, -, -, -, -, -, -, -, -, -, -, -, -, -, e0, e1, -, -, -, -, -, -, -, -, -, -⟩ := idx_consts t
  unfold iblk
  funext y
  show V m c main_v12 (((cfg0.win 10).blk t).view.emb y) = V m c main_v12 y
  refine congrArg _ ?_
  funext a; apply Fin.ext
  match a with
  | ⟨0, _⟩ => show win0_10.index t (0 : Fin 2) * 512 + 1 * (y 0).val = (y 0).val; omega
  | ⟨1, _⟩ => show win0_10.index t (1 : Fin 2) * 2048 + 1 * (y 1).val = (y 1).val; omega

/-- Window 11's block at every point is its whole array. -/
theorem iblk_const11 (c : Dev nD) (t : Fin cfg0.N) : (iblk m c 11 t : S512x1.Idx → Elt F .f32) = V m c main_v13 := by
  obtain ⟨-, -, -, -, -, -, -, -, -, -, -, -, -, -, -, -, -, -, e0, e1, -, -, -, -, -, -, -, -⟩ := idx_consts t
  unfold iblk
  funext y
  show V m c main_v13 (((cfg0.win 11).blk t).view.emb y) = V m c main_v13 y
  refine congrArg _ ?_
  funext a; apply Fin.ext
  match a with
  | ⟨0, _⟩ => show win0_11.index t (0 : Fin 2) * 512 + 1 * (y 0).val = (y 0).val; omega
  | ⟨1, _⟩ => show win0_11.index t (1 : Fin 2) * 1 + 1 * (y 1).val = (y 1).val; omega

/-- Window 12's block at every point is its whole array. -/
theorem iblk_const12 (c : Dev nD) (t : Fin cfg0.N) : (iblk m c 12 t : S512x512.Idx → Elt F .bf16) = V m c main_v14 := by
  obtain ⟨-, -, -, -, -, -, -, -, -, -, -, -, -, -, -, -, -, -, -, -, e0, e1, -, -, -, -, -, -⟩ := idx_consts t
  unfold iblk
  funext y
  show V m c main_v14 (((cfg0.win 12).blk t).view.emb y) = V m c main_v14 y
  refine congrArg _ ?_
  funext a; apply Fin.ext
  match a with
  | ⟨0, _⟩ => show win0_12.index t (0 : Fin 2) * 512 + 1 * (y 0).val = (y 0).val; omega
  | ⟨1, _⟩ => show win0_12.index t (1 : Fin 2) * 512 + 1 * (y 1).val = (y 1).val; omega

/-- Window 13's block at every point is its whole array. -/
theorem iblk_const13 (c : Dev nD) (t : Fin cfg0.N) : (iblk m c 13 t : S512x1.Idx → Elt F .f32) = V m c main_v15 := by
  obtain ⟨-, -, -, -, -, -, -, -, -, -, -, -, -, -, -, -, -, -, -, -, -, -, e0, e1, -, -, -, -⟩ := idx_consts t
  unfold iblk
  funext y
  show V m c main_v15 (((cfg0.win 13).blk t).view.emb y) = V m c main_v15 y
  refine congrArg _ ?_
  funext a; apply Fin.ext
  match a with
  | ⟨0, _⟩ => show win0_13.index t (0 : Fin 2) * 512 + 1 * (y 0).val = (y 0).val; omega
  | ⟨1, _⟩ => show win0_13.index t (1 : Fin 2) * 1 + 1 * (y 1).val = (y 1).val; omega

/-- Window 14's block at every point is its whole array. -/
theorem iblk_const14 (c : Dev nD) (t : Fin cfg0.N) : (iblk m c 14 t : S1536x512.Idx → Elt F .bf16) = V m c main_v20 := by
  obtain ⟨-, -, -, -, -, -, -, -, -, -, -, -, -, -, -, -, -, -, -, -, -, -, -, -, e0, e1, -, -⟩ := idx_consts t
  unfold iblk
  funext y
  show V m c main_v20 (((cfg0.win 14).blk t).view.emb y) = V m c main_v20 y
  refine congrArg _ ?_
  funext a; apply Fin.ext
  match a with
  | ⟨0, _⟩ => show win0_14.index t (0 : Fin 2) * 1536 + 1 * (y 0).val = (y 0).val; omega
  | ⟨1, _⟩ => show win0_14.index t (1 : Fin 2) * 512 + 1 * (y 1).val = (y 1).val; omega

/-- Window 15's block at every point is its whole array. -/
theorem iblk_const15 (c : Dev nD) (t : Fin cfg0.N) : (iblk m c 15 t : S1024x512.Idx → Elt F .bf16) = V m c main_v24 := by
  obtain ⟨-, -, -, -, -, -, -, -, -, -, -, -, -, -, -, -, -, -, -, -, -, -, -, -, -, -, e0, e1⟩ := idx_consts t
  unfold iblk
  funext y
  show V m c main_v24 (((cfg0.win 15).blk t).view.emb y) = V m c main_v24 y
  refine congrArg _ ?_
  funext a; apply Fin.ext
  match a with
  | ⟨0, _⟩ => show win0_15.index t (0 : Fin 2) * 1024 + 1 * (y 0).val = (y 0).val; omega
  | ⟨1, _⟩ => show win0_15.index t (1 : Fin 2) * 512 + 1 * (y 1).val = (y 1).val; omega

/-! ## The output arrays after the run -/

/-- What point `t` writes back of output window 16: what the body left in the block's buffer (the window is uncut). -/
theorem flushed_out16 (c : Dev nD) (t : Fin cfg0.N) :
    (dats m 0 c).flushed 16 t = (cfg0.win 16).cut (grid0.coords t) ((dats m 0 c).after 16 t) := rfl

/-- An index of the array is in point `t`'s block iff each coordinate is in the block's range on its axis. -/
theorem mem_blk16 (t : Fin cfg0.N) (i : S16x512x1024.Idx) :
    i ∈ ((cfg0.win 16).blk t).view.set ↔ ∀ a : Fin 3, win0_16.index t a * S1x512x512.size a ≤ (i a).val ∧ (i a).val < win0_16.index t a * S1x512x512.size a + S1x512x512.size a := by
  show i ∈ ((View.whole main_v25_0).slice (win0_16.rect t)).set ↔ _
  rw [View.set_slice_whole, Rect.mem_set_unit]
  exact Iff.rfl

/-- Every index (b, v, p) of the array lies in the block of the point 2 * b + p / 512, which is written back. -/
theorem cover_out16 (i : S16x512x1024.Idx) :
    ∃ t : Fin cfg0.N, (cfg0.win 16).flush t = true ∧ i ∈ ((cfg0.win 16).blk t).view.set := by
  have h0 : (i 0).val < 16 := (i 0).isLt
  have h1 : (i 1).val < 512 := (i 1).isLt
  have h2 : (i 2).val < 1024 := (i 2).isLt
  have hN : cfg0.N = 32 := N_0
  refine ⟨⟨(i 0).val * 2 + (i 2).val / 512, by omega⟩, flush0_16 _, ?_⟩
  rw [mem_blk16]
  obtain ⟨-, -, -, -, -, -, e0, e1, e2, -, -, -, -, -, -, -, -, -⟩ := idx_tiles ⟨(i 0).val * 2 + (i 2).val / 512, by omega⟩
  intro a
  match a with
  | ⟨0, _⟩ => show win0_16.index _ (0 : Fin 3) * 1 ≤ (i 0).val ∧ (i 0).val < win0_16.index _ (0 : Fin 3) * 1 + 1; rw [e0]; show ((i 0).val * 2 + (i 2).val / 512) / 2 * 1 ≤ _ ∧ _ < ((i 0).val * 2 + (i 2).val / 512) / 2 * 1 + 1; omega
  | ⟨1, _⟩ => show win0_16.index _ (1 : Fin 3) * 512 ≤ (i 1).val ∧ (i 1).val < win0_16.index _ (1 : Fin 3) * 512 + 512; rw [e1]; omega
  | ⟨2, _⟩ => show win0_16.index _ (2 : Fin 3) * 512 ≤ (i 2).val ∧ (i 2).val < win0_16.index _ (2 : Fin 3) * 512 + 512; rw [e2]; show ((i 0).val * 2 + (i 2).val / 512) % 2 * 512 ≤ _ ∧ _ < ((i 0).val * 2 + (i 2).val / 512) % 2 * 512 + 512; omega

/-- The output array of window 16 after the run is any `G` whose restriction to each point's block is what the point
    wrote back: the blocks cover the array. -/
theorem final_out16 (c : Dev nD) (G : S16x512x1024.Idx → Elt F .f32)
    (hG : ∀ t, (dats m 0 c).flushed 16 t = ((cfg0.win 16).blk t).view.read (Elt F) G) : (dats m 0 c).arrAt 16 cfg0.N = G :=
  (dats m 0 c).arrAt_eq_of_cover 16 G (fun t _ => hG t) cover_out16

/-- What point `t` writes back of output window 17: what the body left in the block's buffer (the window is uncut). -/
theorem flushed_out17 (c : Dev nD) (t : Fin cfg0.N) :
    (dats m 0 c).flushed 17 t = (cfg0.win 17).cut (grid0.coords t) ((dats m 0 c).after 17 t) := rfl

/-- An index of the array is in point `t`'s block iff each coordinate is in the block's range on its axis. -/
theorem mem_blk17 (t : Fin cfg0.N) (i : S16x512x1024.Idx) :
    i ∈ ((cfg0.win 17).blk t).view.set ↔ ∀ a : Fin 3, win0_17.index t a * S1x512x512.size a ≤ (i a).val ∧ (i a).val < win0_17.index t a * S1x512x512.size a + S1x512x512.size a := by
  show i ∈ ((View.whole main_v25_1).slice (win0_17.rect t)).set ↔ _
  rw [View.set_slice_whole, Rect.mem_set_unit]
  exact Iff.rfl

/-- Every index (b, v, p) of the array lies in the block of the point 2 * b + p / 512, which is written back. -/
theorem cover_out17 (i : S16x512x1024.Idx) :
    ∃ t : Fin cfg0.N, (cfg0.win 17).flush t = true ∧ i ∈ ((cfg0.win 17).blk t).view.set := by
  have h0 : (i 0).val < 16 := (i 0).isLt
  have h1 : (i 1).val < 512 := (i 1).isLt
  have h2 : (i 2).val < 1024 := (i 2).isLt
  have hN : cfg0.N = 32 := N_0
  refine ⟨⟨(i 0).val * 2 + (i 2).val / 512, by omega⟩, flush0_17 _, ?_⟩
  rw [mem_blk17]
  obtain ⟨-, -, -, -, -, -, -, -, -, e0, e1, e2, -, -, -, -, -, -⟩ := idx_tiles ⟨(i 0).val * 2 + (i 2).val / 512, by omega⟩
  intro a
  match a with
  | ⟨0, _⟩ => show win0_17.index _ (0 : Fin 3) * 1 ≤ (i 0).val ∧ (i 0).val < win0_17.index _ (0 : Fin 3) * 1 + 1; rw [e0]; show ((i 0).val * 2 + (i 2).val / 512) / 2 * 1 ≤ _ ∧ _ < ((i 0).val * 2 + (i 2).val / 512) / 2 * 1 + 1; omega
  | ⟨1, _⟩ => show win0_17.index _ (1 : Fin 3) * 512 ≤ (i 1).val ∧ (i 1).val < win0_17.index _ (1 : Fin 3) * 512 + 512; rw [e1]; omega
  | ⟨2, _⟩ => show win0_17.index _ (2 : Fin 3) * 512 ≤ (i 2).val ∧ (i 2).val < win0_17.index _ (2 : Fin 3) * 512 + 512; rw [e2]; show ((i 0).val * 2 + (i 2).val / 512) % 2 * 512 ≤ _ ∧ _ < ((i 0).val * 2 + (i 2).val / 512) % 2 * 512 + 512; omega

/-- The output array of window 17 after the run is any `G` whose restriction to each point's block is what the point
    wrote back: the blocks cover the array. -/
theorem final_out17 (c : Dev nD) (G : S16x512x1024.Idx → Elt F .f32)
    (hG : ∀ t, (dats m 0 c).flushed 17 t = ((cfg0.win 17).blk t).view.read (Elt F) G) : (dats m 0 c).arrAt 17 cfg0.N = G :=
  (dats m 0 c).arrAt_eq_of_cover 17 G (fun t _ => hG t) cover_out17

/-- What point `t` writes back of output window 18: what the body left in the block's buffer (the window is uncut). -/
theorem flushed_out18 (c : Dev nD) (t : Fin cfg0.N) :
    (dats m 0 c).flushed 18 t = (cfg0.win 18).cut (grid0.coords t) ((dats m 0 c).after 18 t) := rfl

/-- An index of the array is in point `t`'s block iff each coordinate is in the block's range on its axis. -/
theorem mem_blk18 (t : Fin cfg0.N) (i : S16x512x1024.Idx) :
    i ∈ ((cfg0.win 18).blk t).view.set ↔ ∀ a : Fin 3, win0_18.index t a * S1x512x512.size a ≤ (i a).val ∧ (i a).val < win0_18.index t a * S1x512x512.size a + S1x512x512.size a := by
  show i ∈ ((View.whole main_v25_2).slice (win0_18.rect t)).set ↔ _
  rw [View.set_slice_whole, Rect.mem_set_unit]
  exact Iff.rfl

/-- Every index (b, v, p) of the array lies in the block of the point 2 * b + p / 512, which is written back. -/
theorem cover_out18 (i : S16x512x1024.Idx) :
    ∃ t : Fin cfg0.N, (cfg0.win 18).flush t = true ∧ i ∈ ((cfg0.win 18).blk t).view.set := by
  have h0 : (i 0).val < 16 := (i 0).isLt
  have h1 : (i 1).val < 512 := (i 1).isLt
  have h2 : (i 2).val < 1024 := (i 2).isLt
  have hN : cfg0.N = 32 := N_0
  refine ⟨⟨(i 0).val * 2 + (i 2).val / 512, by omega⟩, flush0_18 _, ?_⟩
  rw [mem_blk18]
  obtain ⟨-, -, -, -, -, -, -, -, -, -, -, -, e0, e1, e2, -, -, -⟩ := idx_tiles ⟨(i 0).val * 2 + (i 2).val / 512, by omega⟩
  intro a
  match a with
  | ⟨0, _⟩ => show win0_18.index _ (0 : Fin 3) * 1 ≤ (i 0).val ∧ (i 0).val < win0_18.index _ (0 : Fin 3) * 1 + 1; rw [e0]; show ((i 0).val * 2 + (i 2).val / 512) / 2 * 1 ≤ _ ∧ _ < ((i 0).val * 2 + (i 2).val / 512) / 2 * 1 + 1; omega
  | ⟨1, _⟩ => show win0_18.index _ (1 : Fin 3) * 512 ≤ (i 1).val ∧ (i 1).val < win0_18.index _ (1 : Fin 3) * 512 + 512; rw [e1]; omega
  | ⟨2, _⟩ => show win0_18.index _ (2 : Fin 3) * 512 ≤ (i 2).val ∧ (i 2).val < win0_18.index _ (2 : Fin 3) * 512 + 512; rw [e2]; show ((i 0).val * 2 + (i 2).val / 512) % 2 * 512 ≤ _ ∧ _ < ((i 0).val * 2 + (i 2).val / 512) % 2 * 512 + 512; omega

/-- The output array of window 18 after the run is any `G` whose restriction to each point's block is what the point
    wrote back: the blocks cover the array. -/
theorem final_out18 (c : Dev nD) (G : S16x512x1024.Idx → Elt F .f32)
    (hG : ∀ t, (dats m 0 c).flushed 18 t = ((cfg0.win 18).blk t).view.read (Elt F) G) : (dats m 0 c).arrAt 18 cfg0.N = G :=
  (dats m 0 c).arrAt_eq_of_cover 18 G (fun t _ => hG t) cover_out18

/-- What point `t` writes back of output window 19: what the body left in the block's buffer (the window is uncut). -/
theorem flushed_out19 (c : Dev nD) (t : Fin cfg0.N) :
    (dats m 0 c).flushed 19 t = (cfg0.win 19).cut (grid0.coords t) ((dats m 0 c).after 19 t) := rfl

/-- An index of the array is in point `t`'s block iff each coordinate is in the block's range on its axis. -/
theorem mem_blk19 (t : Fin cfg0.N) (i : S16x512x1024.Idx) :
    i ∈ ((cfg0.win 19).blk t).view.set ↔ ∀ a : Fin 3, win0_19.index t a * S1x512x512.size a ≤ (i a).val ∧ (i a).val < win0_19.index t a * S1x512x512.size a + S1x512x512.size a := by
  show i ∈ ((View.whole main_v25_3).slice (win0_19.rect t)).set ↔ _
  rw [View.set_slice_whole, Rect.mem_set_unit]
  exact Iff.rfl

/-- Every index (b, v, p) of the array lies in the block of the point 2 * b + p / 512, which is written back. -/
theorem cover_out19 (i : S16x512x1024.Idx) :
    ∃ t : Fin cfg0.N, (cfg0.win 19).flush t = true ∧ i ∈ ((cfg0.win 19).blk t).view.set := by
  have h0 : (i 0).val < 16 := (i 0).isLt
  have h1 : (i 1).val < 512 := (i 1).isLt
  have h2 : (i 2).val < 1024 := (i 2).isLt
  have hN : cfg0.N = 32 := N_0
  refine ⟨⟨(i 0).val * 2 + (i 2).val / 512, by omega⟩, flush0_19 _, ?_⟩
  rw [mem_blk19]
  obtain ⟨-, -, -, -, -, -, -, -, -, -, -, -, -, -, -, e0, e1, e2⟩ := idx_tiles ⟨(i 0).val * 2 + (i 2).val / 512, by omega⟩
  intro a
  match a with
  | ⟨0, _⟩ => show win0_19.index _ (0 : Fin 3) * 1 ≤ (i 0).val ∧ (i 0).val < win0_19.index _ (0 : Fin 3) * 1 + 1; rw [e0]; show ((i 0).val * 2 + (i 2).val / 512) / 2 * 1 ≤ _ ∧ _ < ((i 0).val * 2 + (i 2).val / 512) / 2 * 1 + 1; omega
  | ⟨1, _⟩ => show win0_19.index _ (1 : Fin 3) * 512 ≤ (i 1).val ∧ (i 1).val < win0_19.index _ (1 : Fin 3) * 512 + 512; rw [e1]; omega
  | ⟨2, _⟩ => show win0_19.index _ (2 : Fin 3) * 512 ≤ (i 2).val ∧ (i 2).val < win0_19.index _ (2 : Fin 3) * 512 + 512; rw [e2]; show ((i 0).val * 2 + (i 2).val / 512) % 2 * 512 ≤ _ ∧ _ < ((i 0).val * 2 + (i 2).val / 512) % 2 * 512 + 512; omega

/-- The output array of window 19 after the run is any `G` whose restriction to each point's block is what the point
    wrote back: the blocks cover the array. -/
theorem final_out19 (c : Dev nD) (G : S16x512x1024.Idx → Elt F .f32)
    (hG : ∀ t, (dats m 0 c).flushed 19 t = ((cfg0.win 19).blk t).view.read (Elt F) G) : (dats m 0 c).arrAt 19 cfg0.N = G :=
  (dats m 0 c).arrAt_eq_of_cover 19 G (fun t _ => hG t) cover_out19

/-! ## The four results -/

/-- The result `main_v26` is the output array of window 16 reshaped to [16, 512, 4, 16, 16]. -/
theorem tail_v26 (c : Dev nD) : Pipeline.afterTail₀ cfgs (dats m) 0 (V0 m) [hostOps1] c main_v26
    = shapeCast S16x512x4x16x16 ((dats m 0 c).arrAt 16 cfg0.N) shapeCasts_S16x512x1024_S16x512x4x16x16 := by
  unfold Pipeline.afterTail₀
  show StableHlo.after hostOps1 _ (Proc.devRef .tc main_v26) = _
  after_results
  rw [Pipeline.withArrays_arr spec0 launch0.win.arr_inj c _ _ 16]
  rfl

/-- The result `main_v27` is the output array of window 17 reshaped to [16, 512, 4, 16, 16]. -/
theorem tail_v27 (c : Dev nD) : Pipeline.afterTail₀ cfgs (dats m) 0 (V0 m) [hostOps1] c main_v27
    = shapeCast S16x512x4x16x16 ((dats m 0 c).arrAt 17 cfg0.N) shapeCasts_S16x512x1024_S16x512x4x16x16 := by
  unfold Pipeline.afterTail₀
  show StableHlo.after hostOps1 _ (Proc.devRef .tc main_v27) = _
  after_results
  rw [Pipeline.withArrays_arr spec0 launch0.win.arr_inj c _ _ 17]
  rfl

/-- The result `main_v28` is the output array of window 18 reshaped to [16, 512, 4, 16, 16]. -/
theorem tail_v28 (c : Dev nD) : Pipeline.afterTail₀ cfgs (dats m) 0 (V0 m) [hostOps1] c main_v28
    = shapeCast S16x512x4x16x16 ((dats m 0 c).arrAt 18 cfg0.N) shapeCasts_S16x512x1024_S16x512x4x16x16 := by
  unfold Pipeline.afterTail₀
  show StableHlo.after hostOps1 _ (Proc.devRef .tc main_v28) = _
  after_results
  rw [Pipeline.withArrays_arr spec0 launch0.win.arr_inj c _ _ 18]
  rfl

/-- The result `main_v29` is the output array of window 19 reshaped to [16, 512, 4, 16, 16]. -/
theorem tail_v29 (c : Dev nD) : Pipeline.afterTail₀ cfgs (dats m) 0 (V0 m) [hostOps1] c main_v29
    = shapeCast S16x512x4x16x16 ((dats m 0 c).arrAt 19 cfg0.N) shapeCasts_S16x512x1024_S16x512x4x16x16 := by
  unfold Pipeline.afterTail₀
  show StableHlo.after hostOps1 _ (Proc.devRef .tc main_v29) = _
  after_results
  rw [Pipeline.withArrays_arr spec0 launch0.win.arr_inj c _ _ 19]
  rfl

/-! ## The run, read at the results -/

/-- Every weakly fair execution of @main terminates, nothing faulting; each of the four results ends as the reshape
    of its output array as the launch computes it, and each of the fourteen argument arrays ends as launched. -/
theorem run_value : θ_run defs (onTc (τ := τ) (main (F := F))) ⟨m, fun _ => 0, ρ⟩ (fun r => ∀ c : Dev nD,
      r.2.mem ((c.tc : Thread nD τ).loc main_v26) = shapeCast S16x512x4x16x16 ((dats m 0 c).arrAt 16 cfg0.N) shapeCasts_S16x512x1024_S16x512x4x16x16
      ∧ r.2.mem ((c.tc : Thread nD τ).loc main_v27) = shapeCast S16x512x4x16x16 ((dats m 0 c).arrAt 17 cfg0.N) shapeCasts_S16x512x1024_S16x512x4x16x16
      ∧ r.2.mem ((c.tc : Thread nD τ).loc main_v28) = shapeCast S16x512x4x16x16 ((dats m 0 c).arrAt 18 cfg0.N) shapeCasts_S16x512x1024_S16x512x4x16x16
      ∧ r.2.mem ((c.tc : Thread nD τ).loc main_v29) = shapeCast S16x512x4x16x16 ((dats m 0 c).arrAt 19 cfg0.N) shapeCasts_S16x512x1024_S16x512x4x16x16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_v26 (Pipeline.mem_restRefs_of main_v26 (by decide) (by decide))).trans (tail_v26 m c),
    ((h c).2 main_v27 (Pipeline.mem_restRefs_of main_v27 (by decide) (by decide))).trans (tail_v27 m c),
    ((h c).2 main_v28 (Pipeline.mem_restRefs_of main_v28 (by decide) (by decide))).trans (tail_v28 m c),
    ((h c).2 main_v29 (Pipeline.mem_restRefs_of main_v29 (by decide) (by decide))).trans (tail_v29 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c)⟩) (run_main m ρ)

end Cert.KernelIdeal.Hand

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibChannelMajor.lean ====
/-
  Channel-major layouts on the extended reals: arrays whose ROWS are channels and whose COLUMNS are tokens.

  General in extents; read-at-an-index lemmas for the operations a channel-major kernel body is made of:
  `broadcastTo_a1_ab_apply` (a per-channel column [a, 1] broadcast along the tokens of [a, b] reads the column at the
  row), `sumRows_apply` (the vector unit's multi_reduction <add> of an [n, c] array ALONG AXIS 0 from the zero word, at
  column d, is the sum over the n rows — the hypothesis on the accumulator typed as a printed payload carries it),
  `slab_apply` (a block of m rows cut from row o of a rank-2 array, at (j, e), is the array at (o + j, e)),
  `cmpi_apply` and `rsqrt_apply` (an integer comparison and a reciprocal square root are pointwise), and
  `indicator_word` (a signed equality test of two 32-bit words, widened to 32 bits and read as a float, is 1 when they
  are equal and 0 otherwise: an indicator column built as (codes == iota).astype(float)).
  Imports only library modules.
-/
import Idealize.ShloMosaic.PureOps.Ideal.Laws
import Idealize.ShloMosaic.Lib.ValueIdx
import Idealize.ShloMosaic.Lib.ValueLayout
import Idealize.ShloMosaic.Lib.Pipeline.Value

noncomputable section

namespace Cert.ChannelMajor

open Idealize.ShloMosaic Idealize.ShloMosaic.ValueIdx

variable {α : Type}

/-- A column [a, 1] broadcast along the rows of [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [n, c] array along its rows, from the zero word, at column d. -/
theorem sumRows_apply {n c : ℕ} (x : FVec Ideal ⟨2, ![n, c]⟩ .f32) (h : (⟨2, ![n, c]⟩ : Shape).Reduces [0] ⟨1, ![c]⟩)
    (hφ : FKind.Formats .f32) (hacc : (0x00000000#32 : BitVec 32) = FKind.add.neutral .f32 hφ) (d : Fin c) :
    multiReduction .add [0] ⟨1, ![c]⟩ x 0x00000000#32 h hφ hacc (ix1 d) = ∑ k : Fin n, x (ix2 k d) := by
  refine (Ideal.multiReduction_add_single x 0x00000000#32 h hφ hacc (ix1 d)).trans ?_
  refine Finset.sum_congr rfl fun k _ => congrArg x (funext fun ax => Fin.ext ?_)
  match ax with
  | ⟨0, _⟩ => rfl
  | ⟨1, _⟩ => rfl

theorem cmpi_apply {s : Shape} {w : ℕ} (p : CmpIPredicate) (x y : IVec s w) (i : s.Idx) :
    cmpi p x y i = IntOp.cmpi p (x i) (y i) := rfl

/-- A block of m rows of an [n0, n1] array from row o, read at (j, e). -/
theorem slab_apply {n0 n1 m : ℕ} (o : ℕ) (X : (⟨2, ![n0, n1]⟩ : Shape).Idx → α)
    (h : (⟨2, ![n0, n1]⟩ : Shape).Slices ![o, 0] ⟨2, ![m, n1]⟩) (j : Fin m) (e : Fin n1) (hb : o + j.val < n0) :
    extractStridedSlice ⟨2, ![m, n1]⟩ ![o, 0] X h (ix2 j e) = X (ix2 ⟨o + j.val, hb⟩ e) :=
  slice2_axis0_apply o X h j e ⟨o + j.val, hb⟩ rfl

theorem rsqrt_apply {s : Shape} {φ : FTy} (x : FVec Ideal s φ) (i : s.Idx) : rsqrt x i = Ideal.rsqrt (x i) := rfl

/-- The indicator word: a signed equality test, widened and read as a float, is one or zero. -/
theorem indicator_word (a b : BitVec 32) :
    (FloatOps.sitofp (F := Ideal) .f32 ((IntOp.cmpi .eq a b).setWidth 32) : EReal) = if a = b then 1 else 0 := by
  by_cases h : a = b
  · subst h
    simp [IntOp.cmpi, FloatOps.sitofp]
  · have hb : (a == b) = false := beq_eq_false_iff_ne.mpr h
    simp [IntOp.cmpi, FloatOps.sitofp, h, hb]

end Cert.ChannelMajor

end
-- ==== Proof.Spec.lean ====
/-
  The mathematics of the channel predictor, one token at a time, on the extended reals.

  A token is one position (batch entry, frame, row, column) of the input. It carries a column of 512 features and
  four integer codes, of which the first three are used. Everything the two programs compute for a token depends on
  that token alone:

  * the features are layer-normalised over the 512 channels (`ln`): the mean is the channel sum divided by the count,
    the variance the mean square of the deviations, and the result is
    deviation · rsqrt(variance + eps) · gamma + beta;
  * a code `s` is turned into the indicator column `oh s` of length 512 (one at the row equal to the code, zero
    elsewhere; all zero when the code is outside 0 … 511);
  * head `k` (k = 0, 1, 2, 3) feeds the normalised features followed by the indicator columns of the first `k` codes
    — a column of 512·(k+1) entries — through a dense layer `U_k`, adds a bias, rectifies, and applies the shared
    projection `P` with its bias.

  This file states that mathematics once in the arrangement the reference uses (`inp`, `hidden`, `head`: one long
  dot product per head) and once in the arrangement of the kernel (`hiddenSplit`: the dot product with the features
  and one dot product per code, added one after another), and proves them equal. The only laws used are
  commutativity of the product and associativity and commutativity of the sum, which hold on all of the extended
  reals, so no finiteness is needed.
-/
import Mathlib.Data.EReal.Operations
import Idealize.ShloMosaic.PureOps.Ideal

noncomputable section

namespace Cert.Spec

open Idealize.ShloMosaic

/-- Layer normalisation of one column of `n` features: `z` is the value the channel sums start from, `cnt` the
    divisor of the two means, `eps` the variance offset. -/
def ln {n : Nat} (z cnt eps : EReal) (g b : Fin n → EReal) (x : Fin n → EReal) : Fin n → EReal :=
  fun f =>
    (x f - Ideal.div (z + ∑ j, x j) cnt)
      * Ideal.rsqrt (Ideal.div (z + ∑ j, (x j - Ideal.div (z + ∑ i, x i) cnt) * (x j - Ideal.div (z + ∑ i, x i) cnt)) cnt + eps)
      * g f + b f

/-- The indicator column of a code: one at the row whose number is the code, zero elsewhere. -/
def oh (s : BitVec 32) (v : Fin 512) : EReal := if s = BitVec.ofNat 32 v.val then 1 else 0

/-- The input column of head `k`: the 512 normalised features followed by the indicator columns of codes 0 … k-1. -/
def inp (k : Nat) (x : Fin 512 → EReal) (s : Fin 4 → BitVec 32) : Fin (512 * (k + 1)) → EReal :=
  fun f =>
    if h : f.val < 512 then x ⟨f.val, h⟩
    else oh (s ⟨(f.val - 512) / 512 % 4, Nat.mod_lt _ (by norm_num)⟩) ⟨(f.val - 512) % 512, Nat.mod_lt _ (by norm_num)⟩

/-- A dense layer with bias, rectified: `u d = max ((∑ f, a f · U d f) + b d) 0`. -/
def hidden {K : Nat} (U : Fin 512 → Fin K → EReal) (b : Fin 512 → EReal) (a : Fin K → EReal) (d : Fin 512) : EReal :=
  max ((∑ f, a f * U d f) + b d) 0

/-- The shared projection with bias: `o v = (∑ d, h d · P v d) + pb v`. -/
def head (P : Fin 512 → Fin 512 → EReal) (pb : Fin 512 → EReal) (h : Fin 512 → EReal) (v : Fin 512) : EReal :=
  (∑ d, h d * P v d) + pb v

/-- Output `k` of the predictor at one token, in the reference's arrangement. -/
def out (k : Nat) (U : Fin 512 → Fin (512 * (k + 1)) → EReal) (bU : Fin 512 → EReal)
    (P : Fin 512 → Fin 512 → EReal) (pb : Fin 512 → EReal)
    (x : Fin 512 → EReal) (s : Fin 4 → BitVec 32) (v : Fin 512) : EReal :=
  head P pb (hidden U bU (inp k x s)) v

/-! ## The kernel's arrangement -/

/-- The projection with the factors in the kernel's order: `o v = (∑ d, P v d · h d) + pb v`. -/
def headK (P : Fin 512 → Fin 512 → EReal) (pb : Fin 512 → EReal) (h : Fin 512 → EReal) (v : Fin 512) : EReal :=
  (∑ d, P v d * h d) + pb v

/-- The first hidden layer in the kernel's order of factors. -/
def hiddenK0 (U : Fin 512 → Fin 512 → EReal) (b : Fin 512 → EReal) (x : Fin 512 → EReal) (d : Fin 512) : EReal :=
  max ((∑ f, U d f * x f) + b d) 0

/-- The second hidden layer as the kernel adds it up: the product with the features, then the product of the code-0
    weight slab with the indicator column, then the bias. -/
def hiddenK1 (Ux W0 : Fin 512 → Fin 512 → EReal) (b : Fin 512 → EReal) (x o0 : Fin 512 → EReal) (d : Fin 512) : EReal :=
  max (((∑ f, Ux d f * x f) + ∑ v, W0 d v * o0 v) + b d) 0

/-- The third hidden layer: features, code 0, code 1, bias. -/
def hiddenK2 (Ux W0 W1 : Fin 512 → Fin 512 → EReal) (b : Fin 512 → EReal) (x o0 o1 : Fin 512 → EReal) (d : Fin 512) : EReal :=
  max ((((∑ f, Ux d f * x f) + ∑ v, W0 d v * o0 v) + ∑ v, W1 d v * o1 v) + b d) 0

/-- The fourth hidden layer: features, code 0, code 1, code 2, bias. -/
def hiddenK3 (Ux W0 W1 W2 : Fin 512 → Fin 512 → EReal) (b : Fin 512 → EReal) (x o0 o1 o2 : Fin 512 → EReal) (d : Fin 512) :
    EReal :=
  max (((((∑ f, Ux d f * x f) + ∑ v, W0 d v * o0 v) + ∑ v, W1 d v * o1 v) + ∑ v, W2 d v * o2 v) + b d) 0

/-! ## The two arrangements agree -/

theorem head_eq (P : Fin 512 → Fin 512 → EReal) (pb h : Fin 512 → EReal) (v : Fin 512) : head P pb h v = headK P pb h v := by
  unfold head headK
  exact congrArg (· + pb v) (Finset.sum_congr rfl fun d _ => mul_comm _ _)

/-- A sum over `a + b` consecutive indices is the sum over the first `a` plus the sum over the last `b`. -/
theorem sum_split (a b : ℕ) (G : Fin (a + b) → EReal) :
    ∑ i, G i = (∑ i : Fin a, G ⟨i.val, by omega⟩) + ∑ j : Fin b, G ⟨a + j.val, by omega⟩ :=
  Fin.sum_univ_add G

/-- The first 512 entries of a head's input column are the features. -/
theorem inp_lo (k : ℕ) (x : Fin 512 → EReal) (s : Fin 4 → BitVec 32) (f : Fin (512 * (k + 1))) (h : f.val < 512) :
    inp k x s f = x ⟨f.val, h⟩ := dif_pos h

/-- Entry `512 + 512·c + v` of a head's input column is row `v` of the indicator column of code `c`. -/
theorem inp_hi (k : ℕ) (x : Fin 512 → EReal) (s : Fin 4 → BitVec 32) (f : Fin (512 * (k + 1))) (c : Fin 4) (v : Fin 512)
    (h : f.val = 512 + 512 * c.val + v.val) : inp k x s f = oh (s c) v := by
  have hc := c.isLt
  have hv := v.isLt
  unfold inp
  rw [dif_neg (by omega)]
  have h1 : (⟨(f.val - 512) / 512 % 4, Nat.mod_lt _ (by norm_num)⟩ : Fin 4) = c := Fin.ext (by
    show (f.val - 512) / 512 % 4 = c.val
    omega)
  have h2 : (⟨(f.val - 512) % 512, Nat.mod_lt _ (by norm_num)⟩ : Fin 512) = v := Fin.ext (by
    show (f.val - 512) % 512 = v.val
    omega)
  rw [h1, h2]

theorem hidden_eq0 (U : Fin 512 → Fin (512 * (0 + 1)) → EReal) (b x : Fin 512 → EReal) (s : Fin 4 → BitVec 32) (d : Fin 512) :
    hidden U b (inp 0 x s) d = hiddenK0 (fun d f => U d ⟨f.val, by omega⟩) b x d := by
  unfold hidden hiddenK0
  refine congrArg (fun t => max (t + b d) 0) ?_
  show ∑ f : Fin 512, inp 0 x s f * U d f = _
  exact Finset.sum_congr rfl fun f _ => by rw [inp_lo 0 x s f f.isLt, mul_comm]

theorem hidden_eq1 (U : Fin 512 → Fin (512 * (1 + 1)) → EReal) (b x : Fin 512 → EReal) (s : Fin 4 → BitVec 32) (d : Fin 512) :
    hidden U b (inp 1 x s) d
      = hiddenK1 (fun d f => U d ⟨f.val, by omega⟩) (fun d v => U d ⟨512 + v.val, by omega⟩) b x (oh (s 0)) d := by
  unfold hidden hiddenK1
  refine congrArg (fun t => max (t + b d) 0) ?_
  show ∑ f : Fin (512 + 512), inp 1 x s f * U d f = _
  rw [sum_split 512 512]
  refine congrArg₂ (· + ·) ?_ ?_
  · exact Finset.sum_congr rfl fun f _ => by rw [inp_lo 1 x s ⟨f.val, _⟩ f.isLt, mul_comm]
  · exact Finset.sum_congr rfl fun v _ => by
      rw [inp_hi 1 x s ⟨512 + v.val, _⟩ 0 v (by simp), mul_comm]

theorem hidden_eq2 (U : Fin 512 → Fin (512 * (2 + 1)) → EReal) (b x : Fin 512 → EReal) (s : Fin 4 → BitVec 32) (d : Fin 512) :
    hidden U b (inp 2 x s) d
      = hiddenK2 (fun d f => U d ⟨f.val, by omega⟩) (fun d v => U d ⟨512 + v.val, by omega⟩)
          (fun d v => U d ⟨1024 + v.val, by omega⟩) b x (oh (s 0)) (oh (s 1)) d := by
  unfold hidden hiddenK2
  refine congrArg (fun t => max (t + b d) 0) ?_
  show ∑ f : Fin (512 + 512 + 512), inp 2 x s f * U d f = _
  rw [sum_split (512 + 512) 512, sum_split 512 512]
  refine congrArg₂ (· + ·) (congrArg₂ (· + ·) ?_ ?_) ?_
  · exact Finset.sum_congr rfl fun f _ => by rw [inp_lo 2 x s ⟨f.val, _⟩ f.isLt, mul_comm]
  · exact Finset.sum_congr rfl fun v _ => by
      rw [inp_hi 2 x s ⟨512 + v.val, _⟩ 0 v (by simp), mul_comm]
  · exact Finset.sum_congr rfl fun v _ => by
      rw [inp_hi 2 x s ⟨512 + 512 + v.val, _⟩ 1 v (by simp), mul_comm]

theorem hidden_eq3 (U : Fin 512 → Fin (512 * (3 + 1)) → EReal) (b x : Fin 512 → EReal) (s : Fin 4 → BitVec 32) (d : Fin 512) :
    hidden U b (inp 3 x s) d
      = hiddenK3 (fun d f => U d ⟨f.val, by omega⟩) (fun d v => U d ⟨512 + v.val, by omega⟩)
          (fun d v => U d ⟨1024 + v.val, by omega⟩) (fun d v => U d ⟨1536 + v.val, by omega⟩) b x
          (oh (s 0)) (oh (s 1)) (oh (s 2)) d := by
  unfold hidden hiddenK3
  refine congrArg (fun t => max (t + b d) 0) ?_
  show ∑ f : Fin (512 + 512 + 512 + 512), inp 3 x s f * U d f = _
  rw [sum_split (512 + 512 + 512) 512, sum_split (512 + 512) 512, sum_split 512 512]
  refine congrArg₂ (· + ·) (congrArg₂ (· + ·) (congrArg₂ (· + ·) ?_ ?_) ?_) ?_
  · exact Finset.sum_congr rfl fun f _ => by rw [inp_lo 3 x s ⟨f.val, _⟩ f.isLt, mul_comm]
  · exact Finset.sum_congr rfl fun v _ => by
      rw [inp_hi 3 x s ⟨512 + v.val, _⟩ 0 v (by simp), mul_comm]
  · exact Finset.sum_congr rfl fun v _ => by
      rw [inp_hi 3 x s ⟨512 + 512 + v.val, _⟩ 1 v (by simp), mul_comm]
  · exact Finset.sum_congr rfl fun v _ => by
      rw [inp_hi 3 x s ⟨512 + 512 + 512 + v.val, _⟩ 2 v (by simp), mul_comm]

/-! ## The outputs in the kernel's arrangement -/

theorem out_eq0 (U : Fin 512 → Fin (512 * (0 + 1)) → EReal) (bU : Fin 512 → EReal) (P : Fin 512 → Fin 512 → EReal)
    (pb x : Fin 512 → EReal) (s : Fin 4 → BitVec 32) (v : Fin 512) :
    out 0 U bU P pb x s v = headK P pb (hiddenK0 (fun d f => U d ⟨f.val, by omega⟩) bU x) v := by
  unfold out
  rw [head_eq]
  exact congrArg (fun h => headK P pb h v) (funext fun d => hidden_eq0 U bU x s d)

theorem out_eq1 (U : Fin 512 → Fin (512 * (1 + 1)) → EReal) (bU : Fin 512 → EReal) (P : Fin 512 → Fin 512 → EReal)
    (pb x : Fin 512 → EReal) (s : Fin 4 → BitVec 32) (v : Fin 512) :
    out 1 U bU P pb x s v
      = headK P pb (hiddenK1 (fun d f => U d ⟨f.val, by omega⟩) (fun d w => U d ⟨512 + w.val, by omega⟩) bU x (oh (s 0))) v := by
  unfold out
  rw [head_eq]
  exact congrArg (fun h => headK P pb h v) (funext fun d => hidden_eq1 U bU x s d)

theorem out_eq2 (U : Fin 512 → Fin (512 * (2 + 1)) → EReal) (bU : Fin 512 → EReal) (P : Fin 512 → Fin 512 → EReal)
    (pb x : Fin 512 → EReal) (s : Fin 4 → BitVec 32) (v : Fin 512) :
    out 2 U bU P pb x s v
      = headK P pb (hiddenK2 (fun d f => U d ⟨f.val, by omega⟩) (fun d w => U d ⟨512 + w.val, by omega⟩)
          (fun d w => U d ⟨1024 + w.val, by omega⟩) bU x (oh (s 0)) (oh (s 1))) v := by
  unfold out
  rw [head_eq]
  exact congrArg (fun h => headK P pb h v) (funext fun d => hidden_eq2 U bU x s d)

theorem out_eq3 (U : Fin 512 → Fin (512 * (3 + 1)) → EReal) (bU : Fin 512 → EReal) (P : Fin 512 → Fin 512 → EReal)
    (pb x : Fin 512 → EReal) (s : Fin 4 → BitVec 32) (v : Fin 512) :
    out 3 U bU P pb x s v
      = headK P pb (hiddenK3 (fun d f => U d ⟨f.val, by omega⟩) (fun d w => U d ⟨512 + w.val, by omega⟩)
          (fun d w => U d ⟨1024 + w.val, by omega⟩) (fun d w => U d ⟨1536 + w.val, by omega⟩) bU x
          (oh (s 0)) (oh (s 1)) (oh (s 2))) v := by
  unfold out
  rw [head_eq]
  exact congrArg (fun h => headK P pb h v) (funext fun d => hidden_eq3 U bU x s d)

end Cert.Spec

end
-- ==== Proof.KernelBlock.lean ====
/-
  One block of the kernel, index by index, on the extended reals.

  The body works channel-major: a block is [channels, 512 tokens], and every quantity of token q sits in column q.
  Read at (v, q), each output block is a function of column q of the feature block and of the three codes of
  token q alone: the features are layer-normalised down the column (`pay3_apply`); each code row is compared with
  the row numbers to give an indicator array whose column q is the indicator column of the token's code
  (`pay5_apply`, `pay6_apply`, `pay8_apply`); a product of a weight array with a [512, 512] operand, at (d, q), is
  the dot product of the weight row d with column q (the matrix unit into a zero accumulator is a plain sum); a
  per-channel column broadcast along the tokens adds the channel's bias. Put together (`o16_apply` … `o19_apply`),
  output k at (v, q) is the projection, at row v, of the rectified hidden layer k of token q, in the arrangement
  `Cert.Spec.headK`, `hiddenK0 … hiddenK3`: the feature part of the hidden layer reads the first 512 columns of the
  layer's weights, the code parts read row slabs of the two stacked arrays (for the fourth layer, code 2 reads the
  last 512 columns of the layer's own weights).
-/
import proofs.«129167_j56925496541808_2_alg».proof.Proof.FrameData
import proofs.«129167_j56925496541808_2_alg».proof.Proof.LibDense
import proofs.«129167_j56925496541808_2_alg».proof.Proof.LibChannelMajor
import proofs.«129167_j56925496541808_2_alg».proof.Proof.Spec

set_option maxRecDepth 16384

noncomputable section

namespace Cert.KernelIdeal.Block

open Idealize.ShloMosaic Idealize.ShloMosaic.ValueIdx
open Cert.KernelIdeal Cert.KernelIdeal.Gen Cert.KernelIdeal.Hand Cert.ChannelMajor

/-- A 512-column slab of a [512, n] array, loaded through the rectangle at column offset o, read at (d, f). -/
theorem ld_cols {n : ℕ} {e : EltTy} (X : (⟨2, ![512, n]⟩ : Shape).Idx → Elt Ideal e) (o : ℕ)
    (inb : ∀ a, (![0, o] : Fin 2 → Nat) a + (⟨2, ![512, 512]⟩ : Shape).size a ≤ (⟨2, ![512, n]⟩ : Shape).size a)
    (d f : Fin 512) (hb : o + f.val < n) :
    View.ld (Val := Elt Ideal) X (Rect.unit (s := ⟨2, ![512, n]⟩) ![0, o] (⟨2, ![512, 512]⟩ : Shape).size inb) (ix2 d f)
      = X (ix2 d ⟨o + f.val, hb⟩) := by
  show X ((Rect.unit (s := ⟨2, ![512, n]⟩) ![0, o] (⟨2, ![512, 512]⟩ : Shape).size inb).idx (ix2 d f)) = _
  refine congrArg X (funext fun a => Fin.ext ?_)
  match a with
  | ⟨0, _⟩ =>
    show 0 + 1 * d.val = d.val
    omega
  | ⟨1, _⟩ =>
    show o + 1 * f.val = o + f.val
    omega

/-- The normalised features of a block at (f, q): the layer norm of column q of the feature block. -/
theorem pay3_apply (v0 : Vec Ideal S1x512x512 .f32) (v18 v22 : Vec Ideal S512x1 .f32) (f q : Fin 512) :
    k0_pay3 (F := Ideal) v0 v18 v22 (ix2 f q)
      = Cert.Spec.ln 0 (Ideal.ofBits .f32 0x44000000#32) (Ideal.ofBits .f32 0x3727C5AC#32)
          (fun f => v18 (ix2 f (0 : Fin 1))) (fun f => v22 (ix2 f (0 : Fin 1))) (fun f => v0 (ix3 (0 : Fin 1) f q)) f := by
  have hsum : ∀ (x : FVec Ideal S512x512 .f32) (q : Fin 512),
      multiReduction .add [0] S512 x 0x00000000#32 reduces_S512x512_S512 (.inl rfl) rfl (ix1 q) = ∑ k : Fin 512, x (ix2 k q) :=
    fun x q => sumRows_apply x _ _ _ q
  unfold k0_pay3
  simp only [hsum, truncf_apply, addf_apply, mulf_apply, subf_apply, divf_apply, rsqrt_apply, broadcast_apply,
    broadcastTo_1b_ab_apply, broadcastTo_a1_ab_apply, shapeCast_a_1a_apply, shapeCast_1ab_ab_apply, shapeCast_self,
    sumRows_apply, Ideal.ofBits_def, Cert.Spec.ln, zero_add]

theorem mm512 (l r : FVec Ideal S512x512 .bf16) :
    matmul (F := Ideal) dot_S512x512_S512x512_S512x512_1_0_0_1_n_n none l r (constant S512x512 .f32 0x00000000#32)
      = Cert.Dense.mm l r :=
  Cert.Dense.matmul_zero_eq_mm _ rfl rfl rfl rfl rfl rfl none l r

theorem mm1536 (l : FVec Ideal S1536x512 .bf16) (r : FVec Ideal S512x512 .bf16) :
    matmul (F := Ideal) dot_S1536x512_S512x512_S1536x512_1_0_0_1_n_n none l r (constant S1536x512 .f32 0x00000000#32)
      = Cert.Dense.mm l r :=
  Cert.Dense.matmul_zero_eq_mm _ rfl rfl rfl rfl rfl rfl none l r

theorem mm1024 (l : FVec Ideal S1024x512 .bf16) (r : FVec Ideal S512x512 .bf16) :
    matmul (F := Ideal) dot_S1024x512_S512x512_S1024x512_1_0_0_1_n_n none l r (constant S1024x512 .f32 0x00000000#32)
      = Cert.Dense.mm l r :=
  Cert.Dense.matmul_zero_eq_mm _ rfl rfl rfl rfl rfl rfl none l r

/-- The indicator array of a row of codes: at (v, q) it is one when code q equals v. -/
theorem indicator_apply (s : IVec S1x512 32) (v q : Fin 512) :
    (truncf .bf16 (sitofp (F := Ideal) .f32 (extui 32 (cmpi .eq (broadcastTo S512x512 s broadcasts_S1x512_S512x512)
        (iota .tc S512x512 32 [0] iota_S512x512_d0_w32)) natLt_1_32)) bitsLt_bf16_f32 : FVec Ideal S512x512 .bf16) (ix2 v q)
      = Cert.Spec.oh (s (ix2 (0 : Fin 1) q)) v := by
  have hio : iota .tc S512x512 32 [0] iota_S512x512_d0_w32 (ix2 v q) = BitVec.ofNat 32 v.val :=
    iota_single_apply .tc S512x512 32 0 iota_S512x512_d0_w32 (ix2 v q)
  simp only [truncf_apply, sitofp_apply, extui_apply, cmpi_apply, broadcastTo_1b_ab_apply, hio, indicator_word]
  rfl

/-- Row c of the block of codes, at column q. -/
theorem codeRow_apply (v27 : Vec Ideal S1x3x512 .i32) (c : Fin 3) (q : Fin 512)
    (h : S3x512.Slices ![c.val, 0] S1x512) :
    extractStridedSlice S1x512 ![c.val, 0] (k0_pay4 (F := Ideal) v27) h (ix2 (0 : Fin 1) q) = v27 (ix3 (0 : Fin 1) c q) := by
  refine (slab_apply c.val _ h (0 : Fin 1) q (by have := c.isLt; show c.val + 0 < 3; omega)).trans ?_
  unfold k0_pay4
  exact shapeCast_1ab_ab_apply v27 _ _ q

theorem pay5_apply (v27 : Vec Ideal S1x3x512 .i32) (v q : Fin 512) :
    k0_pay5 (F := Ideal) v27 (ix2 v q) = Cert.Spec.oh (v27 (ix3 (0 : Fin 1) (0 : Fin 3) q)) v := by
  unfold k0_pay5
  refine (indicator_apply _ v q).trans ?_
  exact congrArg (fun s => Cert.Spec.oh s v) (codeRow_apply v27 0 q slices_S3x512_o0_0_S1x512)

theorem pay6_apply (v27 : Vec Ideal S1x3x512 .i32) (v q : Fin 512) :
    k0_pay6 (F := Ideal) v27 (ix2 v q) = Cert.Spec.oh (v27 (ix3 (0 : Fin 1) (1 : Fin 3) q)) v := by
  unfold k0_pay6
  refine (indicator_apply _ v q).trans ?_
  exact congrArg (fun s => Cert.Spec.oh s v) (codeRow_apply v27 1 q slices_S3x512_o1_0_S1x512)

theorem pay8_apply (v27 : Vec Ideal S1x3x512 .i32) (v q : Fin 512) :
    k0_pay8 (F := Ideal) (iota .tc S512x512 32 [0] iota_S512x512_d0_w32) (k0_pay7 v27) (ix2 v q)
      = Cert.Spec.oh (v27 (ix3 (0 : Fin 1) (2 : Fin 3) q)) v := by
  unfold k0_pay8 k0_pay7
  refine (indicator_apply _ v q).trans ?_
  exact congrArg (fun s => Cert.Spec.oh s v) (codeRow_apply v27 2 q slices_S3x512_o2_0_S1x512)

/-- A block of 512 rows of a stacked weight array times an indicator array, at (d, q). -/
theorem pay11_apply (v35 : FVec Ideal S512x512 .bf16) (v68 : Vec Ideal S1536x512 .bf16) (d q : Fin 512) :
    k0_pay11 (F := Ideal) v35 v68 (ix2 d q) = ∑ v : Fin 512, v68 (ix2 ⟨d.val, by omega⟩ v) * v35 (ix2 v q) := by
  unfold k0_pay11 k0_pay10
  refine (slab_apply 0 _ _ d q (by omega)).trans ?_
  simp only [shapeCast_self, mm1536, Cert.Dense.mm_apply, Nat.zero_add]

theorem pay12_apply (v35 : FVec Ideal S512x512 .bf16) (v68 : Vec Ideal S1536x512 .bf16) (d q : Fin 512) :
    k0_pay12 (F := Ideal) v35 v68 (ix2 d q) = ∑ v : Fin 512, v68 (ix2 ⟨512 + d.val, by omega⟩ v) * v35 (ix2 v q) := by
  unfold k0_pay12 k0_pay10
  refine (slab_apply 512 _ _ d q (by omega)).trans ?_
  simp only [shapeCast_self, mm1536, Cert.Dense.mm_apply]

theorem pay13_apply (v35 : FVec Ideal S512x512 .bf16) (v68 : Vec Ideal S1536x512 .bf16) (d q : Fin 512) :
    k0_pay13 (F := Ideal) v35 v68 (ix2 d q) = ∑ v : Fin 512, v68 (ix2 ⟨1024 + d.val, by omega⟩ v) * v35 (ix2 v q) := by
  unfold k0_pay13 k0_pay10
  refine (slab_apply 1024 _ _ d q (by omega)).trans ?_
  simp only [shapeCast_self, mm1536, Cert.Dense.mm_apply]

theorem pay15_apply (v41 : FVec Ideal S512x512 .bf16) (v74 : Vec Ideal S1024x512 .bf16) (d q : Fin 512) :
    k0_pay15 (F := Ideal) v41 v74 (ix2 d q) = ∑ v : Fin 512, v74 (ix2 ⟨d.val, by omega⟩ v) * v41 (ix2 v q) := by
  unfold k0_pay15 k0_pay14
  refine (slab_apply 0 _ _ d q (by omega)).trans ?_
  simp only [shapeCast_self, mm1024, Cert.Dense.mm_apply, Nat.zero_add]

theorem pay16_apply (v41 : FVec Ideal S512x512 .bf16) (v74 : Vec Ideal S1024x512 .bf16) (d q : Fin 512) :
    k0_pay16 (F := Ideal) v41 v74 (ix2 d q) = ∑ v : Fin 512, v74 (ix2 ⟨512 + d.val, by omega⟩ v) * v41 (ix2 v q) := by
  unfold k0_pay16 k0_pay14
  refine (slab_apply 512 _ _ d q (by omega)).trans ?_
  simp only [shapeCast_self, mm1024, Cert.Dense.mm_apply]

/-- The first head's output block at (u, v, q). -/
theorem pay9_apply (v26 : FVec Ideal S512x512 .bf16) (v48 : Vec Ideal S512x512 .bf16) (v51 : Vec Ideal S512x1 .f32)
    (v58 : Vec Ideal S512x512 .bf16) (v61 : Vec Ideal S512x1 .f32) (u : Fin 1) (v q : Fin 512) :
    k0_pay9 (F := Ideal) v26 v48 v51 v58 v61 (ix3 u v q)
      = Cert.Spec.headK (fun v d => v58 (ix2 v d)) (fun v => v61 (ix2 v (0 : Fin 1)))
          (Cert.Spec.hiddenK0 (fun d f => v48 (ix2 d f)) (fun d => v51 (ix2 d (0 : Fin 1))) (fun f => v26 (ix2 f q))) v := by
  unfold k0_pay9
  simp only [shapeCast_ab_1ab_apply, addf_apply, maximumf_apply, truncf_apply, broadcast_apply, shapeCast_self, mm512,
    Cert.Dense.mm_apply, broadcastTo_a1_ab_apply, Ideal.ofBits_def, Ideal.ofBits_zero_f32, Cert.Spec.headK, Cert.Spec.hiddenK0]

/-- The second head's output block at (u, v, q); `v71` is the code-0 term of the hidden layer. -/
theorem pay17_apply (v26 : FVec Ideal S512x512 .bf16) (v71 : FVec Ideal S512x512 .f32) (v79 : Vec Ideal S512x512 .bf16)
    (v83 : Vec Ideal S512x1 .f32) (v90 : Vec Ideal S512x512 .bf16) (v93 : Vec Ideal S512x1 .f32) (u : Fin 1) (v q : Fin 512) :
    k0_pay17 (F := Ideal) v26 v71 v79 v83 v90 v93 (ix3 u v q)
      = Cert.Spec.headK (fun v d => v90 (ix2 v d)) (fun v => v93 (ix2 v (0 : Fin 1)))
          (fun d => max (((∑ f : Fin 512, v79 (ix2 d f) * v26 (ix2 f q)) + v71 (ix2 d q)) + v83 (ix2 d (0 : Fin 1))) 0) v := by
  unfold k0_pay17
  simp only [shapeCast_ab_1ab_apply, addf_apply, maximumf_apply, truncf_apply, broadcast_apply, shapeCast_self, mm512,
    Cert.Dense.mm_apply, broadcastTo_a1_ab_apply, Ideal.ofBits_def, Ideal.ofBits_zero_f32, Cert.Spec.headK]

/-- The third head: the hidden layer times the projection, before the projection's bias, at (v, q). -/
theorem pay18_apply (v26 : FVec Ideal S512x512 .bf16) (v72 v77 : FVec Ideal S512x512 .f32) (v100 : Vec Ideal S512x512 .bf16)
    (v105 : Vec Ideal S512x1 .f32) (v112 : Vec Ideal S512x512 .bf16) (v q : Fin 512) :
    k0_pay18 (F := Ideal) v26 v72 v77 v100 v105 v112 (ix2 v q)
      = ∑ d : Fin 512, v112 (ix2 v d)
          * max ((((∑ f : Fin 512, v100 (ix2 d f) * v26 (ix2 f q)) + v72 (ix2 d q)) + v77 (ix2 d q)) + v105 (ix2 d (0 : Fin 1))) 0 := by
  unfold k0_pay18
  simp only [addf_apply, maximumf_apply, truncf_apply, broadcast_apply, shapeCast_self, mm512,
    Cert.Dense.mm_apply, broadcastTo_a1_ab_apply, Ideal.ofBits_def, Ideal.ofBits_zero_f32]

theorem pay1_apply (v114 : FVec Ideal S512x512 .f32) (v115 : Vec Ideal S512x1 .f32) (u : Fin 1) (v q : Fin 512) :
    k0_pay1 (F := Ideal) v114 v115 (ix3 u v q) = v114 (ix2 v q) + v115 (ix2 v (0 : Fin 1)) := by
  unfold k0_pay1
  simp only [shapeCast_ab_1ab_apply, addf_apply, shapeCast_self, broadcastTo_a1_ab_apply]

/-- The fourth head's output block at (u, v, q); `v73`, `v78` are the code-0 and code-1 terms of the hidden layer. -/
theorem pay2_apply (v26 v47 : FVec Ideal S512x512 .bf16) (v73 v78 : FVec Ideal S512x512 .f32) (v122 v125 : Vec Ideal S512x512 .bf16)
    (v131 : Vec Ideal S512x1 .f32) (v138 : Vec Ideal S512x512 .bf16) (v141 : Vec Ideal S512x1 .f32) (u : Fin 1) (v q : Fin 512) :
    k0_pay2 (F := Ideal) v26 v47 v73 v78 v122 v125 v131 v138 v141 (ix3 u v q)
      = Cert.Spec.headK (fun v d => v138 (ix2 v d)) (fun v => v141 (ix2 v (0 : Fin 1)))
          (fun d => max (((((∑ f : Fin 512, v125 (ix2 d f) * v26 (ix2 f q)) + v73 (ix2 d q)) + v78 (ix2 d q))
            + ∑ w : Fin 512, v122 (ix2 d w) * v47 (ix2 w q)) + v131 (ix2 d (0 : Fin 1))) 0) v := by
  unfold k0_pay2
  simp only [shapeCast_ab_1ab_apply, addf_apply, maximumf_apply, truncf_apply, broadcast_apply, shapeCast_self, mm512,
    Cert.Dense.mm_apply, broadcastTo_a1_ab_apply, Ideal.ofBits_def, Ideal.ofBits_zero_f32, Cert.Spec.headK]

/-! ## The four output blocks, index by index, from the sixteen input blocks -/

theorem hz3 : (![0, 0, 0] : Fin 3 → Nat) = fun _ => 0 := funext fun a => by fin_cases a <;> rfl
theorem hz2 : (![0, 0] : Fin 2 → Nat) = fun _ => 0 := funext fun a => by fin_cases a <;> rfl

section Outputs

variable (x0 : Vec Ideal S1x512x512 .f32) (x1 : Vec Ideal S1x3x512 .i32) (x2 : Vec Ideal S512x1 .f32) (x3 : Vec Ideal S512x1 .f32) (x4 : Vec Ideal S512x512 .bf16) (x5 : Vec Ideal S512x1 .f32) (x6 : Vec Ideal S512x1024 .bf16) (x7 : Vec Ideal S512x1 .f32) (x8 : Vec Ideal S512x1536 .bf16) (x9 : Vec Ideal S512x1 .f32) (x10 : Vec Ideal S512x2048 .bf16) (x11 : Vec Ideal S512x1 .f32) (x12 : Vec Ideal S512x512 .bf16) (x13 : Vec Ideal S512x1 .f32) (x14 : Vec Ideal S1536x512 .bf16) (x15 : Vec Ideal S1024x512 .bf16)

/-- Column q of the feature block, layer-normalised over the 512 channels. -/
abbrev lnCol (q : Fin 512) : Fin 512 → EReal :=
  Cert.Spec.ln 0 (Ideal.ofBits .f32 0x44000000#32) (Ideal.ofBits .f32 0x3727C5AC#32)
    (fun f => x2 (ix2 f (0 : Fin 1))) (fun f => x3 (ix2 f (0 : Fin 1))) (fun f => x0 (ix3 (0 : Fin 1) f q))

theorem xb_apply (f q : Fin 512) : xb x0 x1 x2 x3 x4 x5 x6 x7 x8 x9 x10 x11 x12 x13 x14 x15 (ix2 f q) = lnCol x0 x2 x3 q f := by
  unfold xb
  rw [View.ld_unit_zero hz3, View.ld_unit_zero (S := S512x1) hz2, View.ld_unit_zero (S := S512x1) hz2]
  exact pay3_apply x0 x2 x3 f q

theorem oh0_apply (v q : Fin 512) : oh0 x0 x1 x2 x3 x4 x5 x6 x7 x8 x9 x10 x11 x12 x13 x14 x15 (ix2 v q) = Cert.Spec.oh (x1 (ix3 (0 : Fin 1) (0 : Fin 3) q)) v := by
  unfold oh0
  rw [View.ld_unit_zero hz3]
  exact pay5_apply x1 v q

theorem oh1_apply (v q : Fin 512) : oh1 x0 x1 x2 x3 x4 x5 x6 x7 x8 x9 x10 x11 x12 x13 x14 x15 (ix2 v q) = Cert.Spec.oh (x1 (ix3 (0 : Fin 1) (1 : Fin 3) q)) v := by
  unfold oh1
  rw [View.ld_unit_zero hz3]
  exact pay6_apply x1 v q

theorem oh2_apply (v q : Fin 512) : oh2 x0 x1 x2 x3 x4 x5 x6 x7 x8 x9 x10 x11 x12 x13 x14 x15 (ix2 v q) = Cert.Spec.oh (x1 (ix3 (0 : Fin 1) (2 : Fin 3) q)) v := by
  unfold oh2
  rw [View.ld_unit_zero hz3]
  exact pay8_apply x1 v q

/-- Output 0 at (u, v, q): the first head of the token in column q. -/
theorem o16_apply (u : Fin 1) (v q : Fin 512) :
    o16 x0 x1 x2 x3 x4 x5 x6 x7 x8 x9 x10 x11 x12 x13 x14 x15 (ix3 u v q)
      = Cert.Spec.headK (fun v d => x12 (ix2 v d)) (fun v => x13 (ix2 v (0 : Fin 1)))
          (Cert.Spec.hiddenK0 (fun d f => x4 (ix2 d f)) (fun d => x5 (ix2 d (0 : Fin 1))) (lnCol x0 x2 x3 q)) v := by
  unfold o16
  rw [View.canon_unit_zero hz3]
  simp only [View.ld_unit_zero (S := S512x512) hz2, View.ld_unit_zero (S := S512x1) hz2]
  refine (pay9_apply _ _ _ _ _ u v q).trans ?_
  simp only [xb_apply]

/-- Output 1 at (u, v, q): the second head (features and code 0). -/
theorem o17_apply (u : Fin 1) (v q : Fin 512) :
    o17 x0 x1 x2 x3 x4 x5 x6 x7 x8 x9 x10 x11 x12 x13 x14 x15 (ix3 u v q)
      = Cert.Spec.headK (fun v d => x12 (ix2 v d)) (fun v => x13 (ix2 v (0 : Fin 1)))
          (Cert.Spec.hiddenK1 (fun d f => x6 (ix2 d ⟨f.val, by omega⟩)) (fun d w => x14 (ix2 ⟨d.val, by omega⟩ w))
            (fun d => x7 (ix2 d (0 : Fin 1))) (lnCol x0 x2 x3 q) (Cert.Spec.oh (x1 (ix3 (0 : Fin 1) (0 : Fin 3) q)))) v := by
  have e6 : ∀ d f : Fin 512, View.ld (Val := Elt Ideal) x6 rU1 (ix2 d f) = x6 (ix2 d ⟨f.val, by omega⟩) :=
    fun d f => (ld_cols x6 0 _ d f (by omega)).trans (by simp only [Nat.zero_add])
  unfold o17
  rw [View.canon_unit_zero hz3]
  simp only [View.ld_unit_zero (S := S512x512) hz2, View.ld_unit_zero (S := S512x1) hz2, View.ld_unit_zero (S := S1536x512) hz2]
  refine (pay17_apply _ _ _ _ _ _ u v q).trans ?_
  simp only [xb_apply, pay11_apply, oh0_apply, e6]
  rfl

/-- Output 2 at (u, v, q): the third head (features, codes 0 and 1). -/
theorem o18_apply (u : Fin 1) (v q : Fin 512) :
    o18 x0 x1 x2 x3 x4 x5 x6 x7 x8 x9 x10 x11 x12 x13 x14 x15 (ix3 u v q)
      = Cert.Spec.headK (fun v d => x12 (ix2 v d)) (fun v => x13 (ix2 v (0 : Fin 1)))
          (Cert.Spec.hiddenK2 (fun d f => x8 (ix2 d ⟨f.val, by omega⟩)) (fun d w => x14 (ix2 ⟨512 + d.val, by omega⟩ w))
            (fun d w => x15 (ix2 ⟨d.val, by omega⟩ w)) (fun d => x9 (ix2 d (0 : Fin 1))) (lnCol x0 x2 x3 q)
            (Cert.Spec.oh (x1 (ix3 (0 : Fin 1) (0 : Fin 3) q))) (Cert.Spec.oh (x1 (ix3 (0 : Fin 1) (1 : Fin 3) q)))) v := by
  have e8 : ∀ d f : Fin 512, View.ld (Val := Elt Ideal) x8 rU2 (ix2 d f) = x8 (ix2 d ⟨f.val, by omega⟩) :=
    fun d f => (ld_cols x8 0 _ d f (by omega)).trans (by simp only [Nat.zero_add])
  unfold o18
  rw [View.canon_unit_zero hz3]
  simp only [View.ld_unit_zero (S := S512x512) hz2, View.ld_unit_zero (S := S512x1) hz2, View.ld_unit_zero (S := S1536x512) hz2,
    View.ld_unit_zero (S := S1024x512) hz2]
  refine (pay1_apply _ _ u v q).trans ?_
  rw [pay18_apply]
  simp only [xb_apply, pay12_apply, pay15_apply, oh0_apply, oh1_apply, e8, Cert.Spec.hiddenK2, Cert.Spec.headK]

/-- Output 3 at (u, v, q): the fourth head (features, codes 0, 1 and 2). -/
theorem o19_apply (u : Fin 1) (v q : Fin 512) :
    o19 x0 x1 x2 x3 x4 x5 x6 x7 x8 x9 x10 x11 x12 x13 x14 x15 (ix3 u v q)
      = Cert.Spec.headK (fun v d => x12 (ix2 v d)) (fun v => x13 (ix2 v (0 : Fin 1)))
          (Cert.Spec.hiddenK3 (fun d f => x10 (ix2 d ⟨f.val, by omega⟩)) (fun d w => x14 (ix2 ⟨1024 + d.val, by omega⟩ w))
            (fun d w => x15 (ix2 ⟨512 + d.val, by omega⟩ w)) (fun d w => x10 (ix2 d ⟨1536 + w.val, by omega⟩))
            (fun d => x11 (ix2 d (0 : Fin 1))) (lnCol x0 x2 x3 q)
            (Cert.Spec.oh (x1 (ix3 (0 : Fin 1) (0 : Fin 3) q))) (Cert.Spec.oh (x1 (ix3 (0 : Fin 1) (1 : Fin 3) q)))
            (Cert.Spec.oh (x1 (ix3 (0 : Fin 1) (2 : Fin 3) q)))) v := by
  have e10 : ∀ d f : Fin 512, View.ld (Val := Elt Ideal) x10 rU3 (ix2 d f) = x10 (ix2 d ⟨f.val, by omega⟩) :=
    fun d f => (ld_cols x10 0 _ d f (by omega)).trans (by simp only [Nat.zero_add])
  have e10c : ∀ d f : Fin 512, View.ld (Val := Elt Ideal) x10 rU3c (ix2 d f) = x10 (ix2 d ⟨1536 + f.val, by omega⟩) :=
    fun d f => ld_cols x10 1536 _ d f _
  unfold o19
  rw [View.canon_unit_zero hz3]
  simp only [View.ld_unit_zero (S := S512x512) hz2, View.ld_unit_zero (S := S512x1) hz2, View.ld_unit_zero (S := S1536x512) hz2,
    View.ld_unit_zero (S := S1024x512) hz2]
  refine (pay2_apply _ _ _ _ _ _ _ _ _ u v q).trans ?_
  simp only [xb_apply, pay13_apply, pay16_apply, oh0_apply, oh1_apply, oh2_apply, e10, e10c]
  rfl

end Outputs

end Cert.KernelIdeal.Block

end
-- ==== Proof.Whole.lean ====
/-
  The four output arrays of the kernel as whole-array functions, and their agreement with the reference's token
  formulas.

  Every output array [16, 512, 1024] is, at (batch entry bi, row v, token n), a function of the token (bi, n) alone:
  `tok0 … tok3` state it over the sixteen operand arrays as the region finds them (`E0` the features, `E1` the three
  clamped code rows, `E2`, `E3` the layer-norm columns, then weights and bias columns, `E14`, `E15` the two stacked
  slab arrays), and `G` lays such a token function out as an array. The bridges say: if the operand arrays read,
  entry by entry, as the argument arrays do — the features of the token, the codes of the token, each bias and
  weight entry, each slab row of a stacked array the corresponding column slab of a layer's weights — then the token
  function is the reference's `Cert.Spec.out k` of the argument arrays. The zero the reference's channel sums start
  from is the extended real 0.
-/
import proofs.«129167_j56925496541808_2_alg».proof.Proof.Spec
import Idealize.ShloMosaic.PureOps.Ideal.Laws
import Idealize.ShloMosaic.Lib.ValueIdx

noncomputable section

namespace Cert.Whole

open Idealize.ShloMosaic Idealize.ShloMosaic.ValueIdx Cert.Spec

abbrev Arr3 (a b c : ℕ) : Type := (⟨3, ![a, b, c]⟩ : Shape).Idx → EReal
abbrev Arr2 (a b : ℕ) : Type := (⟨2, ![a, b]⟩ : Shape).Idx → EReal
abbrev Arr1 (a : ℕ) : Type := (⟨1, ![a]⟩ : Shape).Idx → EReal
abbrev Arr5 (a b c d e : ℕ) : Type := (⟨5, ![a, b, c, d, e]⟩ : Shape).Idx → EReal

/-- The divisor of the two channel means, 512, and the variance offset, as the words both programs carry. -/
abbrev c512 : EReal := Ideal.ofBits .f32 0x44000000#32
abbrev eps : EReal := Ideal.ofBits .f32 0x3727C5AC#32

/-- A token function laid out as an array [16, 512, 1024]: entry (bi, v, n) is the function at token (bi, n), row v. -/
def G (T : Fin 16 → Fin 1024 → Fin 512 → EReal) : Arr3 16 512 1024 :=
  fun i => T ⟨(i 0).val, (i 0).isLt⟩ ⟨(i 2).val, (i 2).isLt⟩ ⟨(i 1).val, (i 1).isLt⟩

theorem G_ix3 (T : Fin 16 → Fin 1024 → Fin 512 → EReal) (bi : Fin 16) (v : Fin 512) (n : Fin 1024) :
    G T (ix3 bi v n) = T bi n v := rfl

/-- The layer-normalised features of token (bi, n). -/
def lnTok (E0 : Arr3 16 512 1024) (E2 E3 : Arr2 512 1) (bi : Fin 16) (n : Fin 1024) : Fin 512 → EReal :=
  ln 0 c512 eps (fun f => E2 (ix2 f (0 : Fin 1))) (fun f => E3 (ix2 f (0 : Fin 1))) (fun f => E0 (ix3 bi f n))

/-- Output 0 at token (bi, n), row v. -/
def tok0 (E0 : Arr3 16 512 1024) (E2 E3 : Arr2 512 1) (E4 : Arr2 512 512) (E5 : Arr2 512 1) (E12 : Arr2 512 512)
    (E13 : Arr2 512 1) (bi : Fin 16) (n : Fin 1024) (v : Fin 512) : EReal :=
  headK (fun v d => E12 (ix2 v d)) (fun v => E13 (ix2 v (0 : Fin 1)))
    (hiddenK0 (fun d f => E4 (ix2 d f)) (fun d => E5 (ix2 d (0 : Fin 1))) (lnTok E0 E2 E3 bi n)) v

/-- Output 1 at token (bi, n), row v. -/
def tok1 (E0 : Arr3 16 512 1024) (E1 : (⟨3, ![16, 3, 1024]⟩ : Shape).Idx → BitVec 32) (E2 E3 : Arr2 512 1)
    (E6 : Arr2 512 1024) (E7 : Arr2 512 1) (E12 : Arr2 512 512) (E13 : Arr2 512 1) (E14 : Arr2 1536 512)
    (bi : Fin 16) (n : Fin 1024) (v : Fin 512) : EReal :=
  headK (fun v d => E12 (ix2 v d)) (fun v => E13 (ix2 v (0 : Fin 1)))
    (hiddenK1 (fun d f => E6 (ix2 d ⟨f.val, by omega⟩)) (fun d w => E14 (ix2 ⟨d.val, by omega⟩ w))
      (fun d => E7 (ix2 d (0 : Fin 1))) (lnTok E0 E2 E3 bi n) (oh (E1 (ix3 bi (0 : Fin 3) n)))) v

/-- Output 2 at token (bi, n), row v. -/
def tok2 (E0 : Arr3 16 512 1024) (E1 : (⟨3, ![16, 3, 1024]⟩ : Shape).Idx → BitVec 32) (E2 E3 : Arr2 512 1)
    (E8 : Arr2 512 1536) (E9 : Arr2 512 1) (E12 : Arr2 512 512) (E13 : Arr2 512 1) (E14 : Arr2 1536 512) (E15 : Arr2 1024 512)
    (bi : Fin 16) (n : Fin 1024) (v : Fin 512) : EReal :=
  headK (fun v d => E12 (ix2 v d)) (fun v => E13 (ix2 v (0 : Fin 1)))
    (hiddenK2 (fun d f => E8 (ix2 d ⟨f.val, by omega⟩)) (fun d w => E14 (ix2 ⟨512 + d.val, by omega⟩ w))
      (fun d w => E15 (ix2 ⟨d.val, by omega⟩ w)) (fun d => E9 (ix2 d (0 : Fin 1))) (lnTok E0 E2 E3 bi n)
      (oh (E1 (ix3 bi (0 : Fin 3) n))) (oh (E1 (ix3 bi (1 : Fin 3) n)))) v

/-- Output 3 at token (bi, n), row v. -/
def tok3 (E0 : Arr3 16 512 1024) (E1 : (⟨3, ![16, 3, 1024]⟩ : Shape).Idx → BitVec 32) (E2 E3 : Arr2 512 1)
    (E10 : Arr2 512 2048) (E11 : Arr2 512 1) (E12 : Arr2 512 512) (E13 : Arr2 512 1) (E14 : Arr2 1536 512) (E15 : Arr2 1024 512)
    (bi : Fin 16) (n : Fin 1024) (v : Fin 512) : EReal :=
  headK (fun v d => E12 (ix2 v d)) (fun v => E13 (ix2 v (0 : Fin 1)))
    (hiddenK3 (fun d f => E10 (ix2 d ⟨f.val, by omega⟩)) (fun d w => E14 (ix2 ⟨1024 + d.val, by omega⟩ w))
      (fun d w => E15 (ix2 ⟨512 + d.val, by omega⟩ w)) (fun d w => E10 (ix2 d ⟨1536 + w.val, by omega⟩))
      (fun d => E11 (ix2 d (0 : Fin 1))) (lnTok E0 E2 E3 bi n)
      (oh (E1 (ix3 bi (0 : Fin 3) n))) (oh (E1 (ix3 bi (1 : Fin 3) n))) (oh (E1 (ix3 bi (2 : Fin 3) n)))) v

/-! ## The bridges to the reference's arrangement -/

section Bridge

variable (a0 : (⟨5, ![16, 4, 4, 16, 16]⟩ : Shape).Idx → BitVec 32) (a1 : Arr5 16 512 4 16 16) (a2 a3 : Arr1 512)
variable (a12 : Arr2 512 512) (a13 : Arr1 512)
variable (E0 : Arr3 16 512 1024) (E1 : (⟨3, ![16, 3, 1024]⟩ : Shape).Idx → BitVec 32) (E2 E3 : Arr2 512 1)
variable (E12 : Arr2 512 512) (E13 : Arr2 512 1)
variable (bi : Fin 16) (n : Fin 1024) (t : Fin 4) (h w : Fin 16)
variable (h0 : ∀ f : Fin 512, E0 (ix3 bi f n) = a1 (ix5 bi f t h w))
variable (h1 : ∀ cc : Fin 3, E1 (ix3 bi cc n) = a0 (ix5 bi ⟨cc.val, by omega⟩ t h w))
variable (h2 : ∀ f : Fin 512, E2 (ix2 f (0 : Fin 1)) = a2 (ix1 f)) (h3 : ∀ f : Fin 512, E3 (ix2 f (0 : Fin 1)) = a3 (ix1 f))
variable (h12 : ∀ v d : Fin 512, E12 (ix2 v d) = a12 (ix2 v d)) (h13 : ∀ v : Fin 512, E13 (ix2 v (0 : Fin 1)) = a13 (ix1 v))

include h0 h2 h3 in
theorem lnTok_eq : lnTok E0 E2 E3 bi n
    = ln (Ideal.ofBits .f32 0x00000000#32) c512 eps (fun f => a2 (ix1 f)) (fun f => a3 (ix1 f)) (fun f => a1 (ix5 bi f t h w)) := by
  unfold lnTok
  rw [Ideal.ofBits_zero_f32]
  simp only [h0, h2, h3]

include h0 h2 h3 h12 h13 in
theorem bridge0 (a4 : Arr2 512 512) (a5 : Arr1 512) (E4 : Arr2 512 512) (E5 : Arr2 512 1)
    (h4 : ∀ d f : Fin 512, E4 (ix2 d f) = a4 (ix2 d f)) (h5 : ∀ d : Fin 512, E5 (ix2 d (0 : Fin 1)) = a5 (ix1 d)) (v : Fin 512) :
    tok0 E0 E2 E3 E4 E5 E12 E13 bi n v
      = out 0 (fun d f => a4 (ix2 d f)) (fun d => a5 (ix1 d)) (fun v d => a12 (ix2 v d)) (fun v => a13 (ix1 v))
          (ln (Ideal.ofBits .f32 0x00000000#32) c512 eps (fun f => a2 (ix1 f)) (fun f => a3 (ix1 f)) (fun f => a1 (ix5 bi f t h w)))
          (fun c => a0 (ix5 bi c t h w)) v := by
  rw [out_eq0, ← lnTok_eq a1 a2 a3 E0 E2 E3 bi n t h w h0 h2 h3]
  unfold tok0
  simp only [h4, h5, h12, h13]

include h0 h1 h2 h3 h12 h13 in
theorem bridge1 (a6 : Arr2 512 1024) (a7 : Arr1 512) (E6 : Arr2 512 1024) (E7 : Arr2 512 1) (E14 : Arr2 1536 512)
    (h6 : ∀ (d : Fin 512) (f : Fin 1024), E6 (ix2 d f) = a6 (ix2 d f)) (h7 : ∀ d : Fin 512, E7 (ix2 d (0 : Fin 1)) = a7 (ix1 d))
    (h14 : ∀ d w : Fin 512, E14 (ix2 ⟨d.val, by omega⟩ w) = a6 (ix2 d ⟨512 + w.val, by omega⟩)) (v : Fin 512) :
    tok1 E0 E1 E2 E3 E6 E7 E12 E13 E14 bi n v
      = out 1 (fun d f => a6 (ix2 d f)) (fun d => a7 (ix1 d)) (fun v d => a12 (ix2 v d)) (fun v => a13 (ix1 v))
          (ln (Ideal.ofBits .f32 0x00000000#32) c512 eps (fun f => a2 (ix1 f)) (fun f => a3 (ix1 f)) (fun f => a1 (ix5 bi f t h w)))
          (fun c => a0 (ix5 bi c t h w)) v := by
  rw [out_eq1, ← lnTok_eq a1 a2 a3 E0 E2 E3 bi n t h w h0 h2 h3]
  unfold tok1
  simp only [h1, h6, h7, h12, h13, h14]
  rfl

include h0 h1 h2 h3 h12 h13 in
theorem bridge2 (a8 : Arr2 512 1536) (a9 : Arr1 512) (E8 : Arr2 512 1536) (E9 : Arr2 512 1) (E14 : Arr2 1536 512) (E15 : Arr2 1024 512)
    (h8 : ∀ (d : Fin 512) (f : Fin 1536), E8 (ix2 d f) = a8 (ix2 d f)) (h9 : ∀ d : Fin 512, E9 (ix2 d (0 : Fin 1)) = a9 (ix1 d))
    (h14 : ∀ d w : Fin 512, E14 (ix2 ⟨512 + d.val, by omega⟩ w) = a8 (ix2 d ⟨512 + w.val, by omega⟩))
    (h15 : ∀ d w : Fin 512, E15 (ix2 ⟨d.val, by omega⟩ w) = a8 (ix2 d ⟨1024 + w.val, by omega⟩)) (v : Fin 512) :
    tok2 E0 E1 E2 E3 E8 E9 E12 E13 E14 E15 bi n v
      = out 2 (fun d f => a8 (ix2 d f)) (fun d => a9 (ix1 d)) (fun v d => a12 (ix2 v d)) (fun v => a13 (ix1 v))
          (ln (Ideal.ofBits .f32 0x00000000#32) c512 eps (fun f => a2 (ix1 f)) (fun f => a3 (ix1 f)) (fun f => a1 (ix5 bi f t h w)))
          (fun c => a0 (ix5 bi c t h w)) v := by
  rw [out_eq2, ← lnTok_eq a1 a2 a3 E0 E2 E3 bi n t h w h0 h2 h3]
  unfold tok2
  simp only [h1, h8, h9, h12, h13, h14, h15]
  rfl

include h0 h1 h2 h3 h12 h13 in
theorem bridge3 (a10 : Arr2 512 2048) (a11 : Arr1 512) (E10 : Arr2 512 2048) (E11 : Arr2 512 1) (E14 : Arr2 1536 512) (E15 : Arr2 1024 512)
    (h10 : ∀ (d : Fin 512) (f : Fin 2048), E10 (ix2 d f) = a10 (ix2 d f)) (h11 : ∀ d : Fin 512, E11 (ix2 d (0 : Fin 1)) = a11 (ix1 d))
    (h14 : ∀ d w : Fin 512, E14 (ix2 ⟨1024 + d.val, by omega⟩ w) = a10 (ix2 d ⟨512 + w.val, by omega⟩))
    (h15 : ∀ d w : Fin 512, E15 (ix2 ⟨512 + d.val, by omega⟩ w) = a10 (ix2 d ⟨1024 + w.val, by omega⟩)) (v : Fin 512) :
    tok3 E0 E1 E2 E3 E10 E11 E12 E13 E14 E15 bi n v
      = out 3 (fun d f => a10 (ix2 d f)) (fun d => a11 (ix1 d)) (fun v d => a12 (ix2 v d)) (fun v => a13 (ix1 v))
          (ln (Ideal.ofBits .f32 0x00000000#32) c512 eps (fun f => a2 (ix1 f)) (fun f => a3 (ix1 f)) (fun f => a1 (ix5 bi f t h w)))
          (fun c => a0 (ix5 bi c t h w)) v := by
  rw [out_eq3, ← lnTok_eq a1 a2 a3 E0 E2 E3 bi n t h w h0 h2 h3]
  unfold tok3
  simp only [h1, h10, h11, h12, h13, h14, h15]
  rfl

end Bridge

end Cert.Whole

end
-- ==== Proof.KernelFlush.lean ====
/-
  What each grid point writes back, as a block of one whole-array function.

  Point t = 2·bi + ni of the grid works on batch entry bi and the tokens ni·512 … ni·512 + 511. Its feature block is
  rows (bi, ·, ni·512 + q) of the regrouped features, its code block likewise; the other fourteen operand blocks are
  the whole operand arrays at every point. Output k at (v, q) of the block is therefore the token function
  `Cert.Whole.tok k` of the operand arrays at token (bi, ni·512 + q), row v — the block of the array
  `Cert.Whole.G (tok k …)` that the point's output window names. Since the blocks of the 32 points cover each output
  array, the array after the run is that function (`final16 … final19`).
-/
import proofs.«129167_j56925496541808_2_alg».proof.Proof.KernelArray
import proofs.«129167_j56925496541808_2_alg».proof.Proof.KernelBlock
import proofs.«129167_j56925496541808_2_alg».proof.Proof.Whole

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Block

variable (m : (ℓ : Loc nD τ sig) → Buf (Elt Ideal) ℓ)

/-- Row (f, q) of point t's feature block is the regrouped features at (t / 2, f, (t % 2)·512 + q). -/
theorem tile0_read (c : Dev nD) (t : Fin cfg0.N) (q f : Fin 512) :
    (iblk m c 0 t : S1x512x512.Idx → EReal) (ix3 (0 : Fin 1) f q)
      = (V m c main_v0 : S16x512x1024.Idx → EReal) (ix3 (⟨t.val / 2, by have := pt_lt t; omega⟩ : Fin 16) f
          (⟨t.val % 2 * 512 + q.val, by have := q.isLt; omega⟩ : Fin 1024)) := by
  show (V m c main_v0 : S16x512x1024.Idx → EReal) (((cfg0.win 0).blk t).view.emb (ix3 (0 : Fin 1) f q)) = _
  rw [emb_tile0]

/-- Row (cc, q) of point t's code block is the clamped codes at (t / 2, cc, (t % 2)·512 + q). -/
theorem tile1_read (c : Dev nD) (t : Fin cfg0.N) (q : Fin 512) (cc : Fin 3) :
    (iblk m c 1 t : S1x3x512.Idx → BitVec 32) (ix3 (0 : Fin 1) cc q)
      = (V m c main_v3 : S16x3x1024.Idx → BitVec 32) (ix3 (⟨t.val / 2, by have := pt_lt t; omega⟩ : Fin 16) cc
          (⟨t.val % 2 * 512 + q.val, by have := q.isLt; omega⟩ : Fin 1024)) := by
  show (V m c main_v3 : S16x3x1024.Idx → BitVec 32) (((cfg0.win 1).blk t).view.emb (ix3 (0 : Fin 1) cc q)) = _
  rw [emb_tile1]

/-- What point t writes back of output 0 is its block of the whole-array function. -/
theorem flushed16_eq (c : Dev nD) (t : Fin cfg0.N) :
    (dats m 0 c).flushed 16 t = ((cfg0.win 16).blk t).view.read (Elt Ideal) (Cert.Whole.G (Cert.Whole.tok0 (V m c main_v0 : S16x512x1024.Idx → EReal) (V m c main_v4 : S512x1.Idx → EReal) (V m c main_v5 : S512x1.Idx → EReal) (V m c main_v6 : S512x512.Idx → EReal) (V m c main_v7 : S512x1.Idx → EReal) (V m c main_v14 : S512x512.Idx → EReal) (V m c main_v15 : S512x1.Idx → EReal))) := by
  rw [flushed_out16, after16]
  funext y
  obtain ⟨u, v, q, rfl⟩ : ∃ (u : Fin 1) (v q : Fin 512), (y : S1x512x512.Idx) = ix3 u v q := ⟨y 0, y 1, y 2, eq_ix3 y⟩
  show o16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 u v q)
    = (Cert.Whole.G (Cert.Whole.tok0 (V m c main_v0 : S16x512x1024.Idx → EReal) (V m c main_v4 : S512x1.Idx → EReal) (V m c main_v5 : S512x1.Idx → EReal) (V m c main_v6 : S512x512.Idx → EReal) (V m c main_v7 : S512x1.Idx → EReal) (V m c main_v14 : S512x512.Idx → EReal) (V m c main_v15 : S512x1.Idx → EReal))) (((cfg0.win 16).blk t).view.emb (ix3 u v q))
  rw [emb_tile16, Cert.Whole.G_ix3]
  refine (o16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) u v q).trans ?_
  unfold Cert.Whole.tok0 Cert.Whole.lnTok
  rw [iblk_const2, iblk_const3, iblk_const4, iblk_const5, iblk_const12, iblk_const13]
  simp only [lnCol, tile0_read]

theorem final16 (c : Dev nD) : (dats m 0 c).arrAt 16 cfg0.N = (Cert.Whole.G (Cert.Whole.tok0 (V m c main_v0 : S16x512x1024.Idx → EReal) (V m c main_v4 : S512x1.Idx → EReal) (V m c main_v5 : S512x1.Idx → EReal) (V m c main_v6 : S512x512.Idx → EReal) (V m c main_v7 : S512x1.Idx → EReal) (V m c main_v14 : S512x512.Idx → EReal) (V m c main_v15 : S512x1.Idx → EReal))) :=
  final_out16 m c _ (flushed16_eq m c)

/-- What point t writes back of output 1 is its block of the whole-array function. -/
theorem flushed17_eq (c : Dev nD) (t : Fin cfg0.N) :
    (dats m 0 c).flushed 17 t = ((cfg0.win 17).blk t).view.read (Elt Ideal) (Cert.Whole.G (Cert.Whole.tok1 (V m c main_v0 : S16x512x1024.Idx → EReal) (V m c main_v3 : S16x3x1024.Idx → BitVec 32) (V m c main_v4 : S512x1.Idx → EReal) (V m c main_v5 : S512x1.Idx → EReal) (V m c main_v8 : S512x1024.Idx → EReal) (V m c main_v9 : S512x1.Idx → EReal) (V m c main_v14 : S512x512.Idx → EReal) (V m c main_v15 : S512x1.Idx → EReal) (V m c main_v20 : S1536x512.Idx → EReal))) := by
  rw [flushed_out17, after17]
  funext y
  obtain ⟨u, v, q, rfl⟩ : ∃ (u : Fin 1) (v q : Fin 512), (y : S1x512x512.Idx) = ix3 u v q := ⟨y 0, y 1, y 2, eq_ix3 y⟩
  show o17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 u v q)
    = (Cert.Whole.G (Cert.Whole.tok1 (V m c main_v0 : S16x512x1024.Idx → EReal) (V m c main_v3 : S16x3x1024.Idx → BitVec 32) (V m c main_v4 : S512x1.Idx → EReal) (V m c main_v5 : S512x1.Idx → EReal) (V m c main_v8 : S512x1024.Idx → EReal) (V m c main_v9 : S512x1.Idx → EReal) (V m c main_v14 : S512x512.Idx → EReal) (V m c main_v15 : S512x1.Idx → EReal) (V m c main_v20 : S1536x512.Idx → EReal))) (((cfg0.win 17).blk t).view.emb (ix3 u v q))
  rw [emb_tile17, Cert.Whole.G_ix3]
  refine (o17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) u v q).trans ?_
  unfold Cert.Whole.tok1 Cert.Whole.lnTok
  rw [iblk_const2, iblk_const3, iblk_const6, iblk_const7, iblk_const12, iblk_const13, iblk_const14]
  simp only [lnCol, tile0_read, tile1_read]

theorem final17 (c : Dev nD) : (dats m 0 c).arrAt 17 cfg0.N = (Cert.Whole.G (Cert.Whole.tok1 (V m c main_v0 : S16x512x1024.Idx → EReal) (V m c main_v3 : S16x3x1024.Idx → BitVec 32) (V m c main_v4 : S512x1.Idx → EReal) (V m c main_v5 : S512x1.Idx → EReal) (V m c main_v8 : S512x1024.Idx → EReal) (V m c main_v9 : S512x1.Idx → EReal) (V m c main_v14 : S512x512.Idx → EReal) (V m c main_v15 : S512x1.Idx → EReal) (V m c main_v20 : S1536x512.Idx → EReal))) :=
  final_out17 m c _ (flushed17_eq m c)

/-- What point t writes back of output 2 is its block of the whole-array function. -/
theorem flushed18_eq (c : Dev nD) (t : Fin cfg0.N) :
    (dats m 0 c).flushed 18 t = ((cfg0.win 18).blk t).view.read (Elt Ideal) (Cert.Whole.G (Cert.Whole.tok2 (V m c main_v0 : S16x512x1024.Idx → EReal) (V m c main_v3 : S16x3x1024.Idx → BitVec 32) (V m c main_v4 : S512x1.Idx → EReal) (V m c main_v5 : S512x1.Idx → EReal) (V m c main_v10 : S512x1536.Idx → EReal) (V m c main_v11 : S512x1.Idx → EReal) (V m c main_v14 : S512x512.Idx → EReal) (V m c main_v15 : S512x1.Idx → EReal) (V m c main_v20 : S1536x512.Idx → EReal) (V m c main_v24 : S1024x512.Idx → EReal))) := by
  rw [flushed_out18, after18]
  funext y
  obtain ⟨u, v, q, rfl⟩ : ∃ (u : Fin 1) (v q : Fin 512), (y : S1x512x512.Idx) = ix3 u v q := ⟨y 0, y 1, y 2, eq_ix3 y⟩
  show o18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 u v q)
    = (Cert.Whole.G (Cert.Whole.tok2 (V m c main_v0 : S16x512x1024.Idx → EReal) (V m c main_v3 : S16x3x1024.Idx → BitVec 32) (V m c main_v4 : S512x1.Idx → EReal) (V m c main_v5 : S512x1.Idx → EReal) (V m c main_v10 : S512x1536.Idx → EReal) (V m c main_v11 : S512x1.Idx → EReal) (V m c main_v14 : S512x512.Idx → EReal) (V m c main_v15 : S512x1.Idx → EReal) (V m c main_v20 : S1536x512.Idx → EReal) (V m c main_v24 : S1024x512.Idx → EReal))) (((cfg0.win 18).blk t).view.emb (ix3 u v q))
  rw [emb_tile18, Cert.Whole.G_ix3]
  refine (o18_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) u v q).trans ?_
  unfold Cert.Whole.tok2 Cert.Whole.lnTok
  rw [iblk_const2, iblk_const3, iblk_const8, iblk_const9, iblk_const12, iblk_const13, iblk_const14, iblk_const15]
  simp only [lnCol, tile0_read, tile1_read]

theorem final18 (c : Dev nD) : (dats m 0 c).arrAt 18 cfg0.N = (Cert.Whole.G (Cert.Whole.tok2 (V m c main_v0 : S16x512x1024.Idx → EReal) (V m c main_v3 : S16x3x1024.Idx → BitVec 32) (V m c main_v4 : S512x1.Idx → EReal) (V m c main_v5 : S512x1.Idx → EReal) (V m c main_v10 : S512x1536.Idx → EReal) (V m c main_v11 : S512x1.Idx → EReal) (V m c main_v14 : S512x512.Idx → EReal) (V m c main_v15 : S512x1.Idx → EReal) (V m c main_v20 : S1536x512.Idx → EReal) (V m c main_v24 : S1024x512.Idx → EReal))) :=
  final_out18 m c _ (flushed18_eq m c)

/-- What point t writes back of output 3 is its block of the whole-array function. -/
theorem flushed19_eq (c : Dev nD) (t : Fin cfg0.N) :
    (dats m 0 c).flushed 19 t = ((cfg0.win 19).blk t).view.read (Elt Ideal) (Cert.Whole.G (Cert.Whole.tok3 (V m c main_v0 : S16x512x1024.Idx → EReal) (V m c main_v3 : S16x3x1024.Idx → BitVec 32) (V m c main_v4 : S512x1.Idx → EReal) (V m c main_v5 : S512x1.Idx → EReal) (V m c main_v12 : S512x2048.Idx → EReal) (V m c main_v13 : S512x1.Idx → EReal) (V m c main_v14 : S512x512.Idx → EReal) (V m c main_v15 : S512x1.Idx → EReal) (V m c main_v20 : S1536x512.Idx → EReal) (V m c main_v24 : S1024x512.Idx → EReal))) := by
  rw [flushed_out19, after19]
  funext y
  obtain ⟨u, v, q, rfl⟩ : ∃ (u : Fin 1) (v q : Fin 512), (y : S1x512x512.Idx) = ix3 u v q := ⟨y 0, y 1, y 2, eq_ix3 y⟩
  show o19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 u v q)
    = (Cert.Whole.G (Cert.Whole.tok3 (V m c main_v0 : S16x512x1024.Idx → EReal) (V m c main_v3 : S16x3x1024.Idx → BitVec 32) (V m c main_v4 : S512x1.Idx → EReal) (V m c main_v5 : S512x1.Idx → EReal) (V m c main_v12 : S512x2048.Idx → EReal) (V m c main_v13 : S512x1.Idx → EReal) (V m c main_v14 : S512x512.Idx → EReal) (V m c main_v15 : S512x1.Idx → EReal) (V m c main_v20 : S1536x512.Idx → EReal) (V m c main_v24 : S1024x512.Idx → EReal))) (((cfg0.win 19).blk t).view.emb (ix3 u v q))
  rw [emb_tile19, Cert.Whole.G_ix3]
  refine (o19_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) u v q).trans ?_
  unfold Cert.Whole.tok3 Cert.Whole.lnTok
  rw [iblk_const2, iblk_const3, iblk_const10, iblk_const11, iblk_const12, iblk_const13, iblk_const14, iblk_const15]
  simp only [lnCol, tile0_read, tile1_read]

theorem final19 (c : Dev nD) : (dats m 0 c).arrAt 19 cfg0.N = (Cert.Whole.G (Cert.Whole.tok3 (V m c main_v0 : S16x512x1024.Idx → EReal) (V m c main_v3 : S16x3x1024.Idx → BitVec 32) (V m c main_v4 : S512x1.Idx → EReal) (V m c main_v5 : S512x1.Idx → EReal) (V m c main_v12 : S512x2048.Idx → EReal) (V m c main_v13 : S512x1.Idx → EReal) (V m c main_v14 : S512x512.Idx → EReal) (V m c main_v15 : S512x1.Idx → EReal) (V m c main_v20 : S1536x512.Idx → EReal) (V m c main_v24 : S1024x512.Idx → EReal))) :=
  final_out19 m c _ (flushed19_eq m c)

end Cert.KernelIdeal.Hand

end
-- ==== Proof.LibTypedRef.lean ====
/-
  Typed references: a value carried to a buffer's own type and back is the value.

  A host operation of a called function is stated over typed references: a reference together with the equation that
  its buffer's type is the value's type. The operation's function is conjugated by the transport along that equation
  (`toBuf` into the buffer's type, `ofBuf` out of it). Reading a chain of such operations back therefore leaves
  pairs `ofBuf (toBuf v)` around every intermediate value; each pair is the identity.
-/
import Idealize.ShloMosaic.Lib.StableHlo

namespace Cert.TypedRef

open Idealize.ShloMosaic Idealize.ShloMosaic.StableHlo

/-- Carrying a value to the buffer's type and back gives the value. -/
theorem ofBuf_toBuf {sig : RefSig} {T : BufTy} {Val : EltTy → Type} (x : TRef sig T) (v : T.Contents Val) :
    x.ofBuf (x.toBuf v) = v := by
  obtain ⟨r, h, a, b⟩ := x
  subst h
  rfl

/-- Carrying a buffer's contents to the value's type and back gives the contents. -/
theorem toBuf_ofBuf {sig : RefSig} {T : BufTy} {Val : EltTy → Type} (x : TRef sig T) (v : x.ref.ty.Contents Val) :
    x.toBuf (x.ofBuf v) = v := by
  obtain ⟨r, h, a, b⟩ := x
  subst h
  rfl

end Cert.TypedRef
-- ==== Proof.HostPrefix.lean ====
/-
  What the kernel's sixteen operand arrays hold when the region is entered, as functions of the fourteen argument
  arrays: the features regrouped [16, 512, 1024]; the first three code channels regrouped [16, 3, 1024] and clamped
  to 0 … 511; each bias and the two layer-norm vectors as a column [512, 1]; each weight array unchanged (its format
  change is the identity on the extended reals); and the two stacked arrays, the code-0 column slabs of the second,
  third and fourth layers one above the other, and the code-1 slabs of the third and fourth.
-/
import proofs.«129167_j56925496541808_2_alg».proof.Proof.FrameData
import proofs.«129167_j56925496541808_2_alg».proof.Proof.LibTypedRef
import Idealize.ShloMosaic.Lib.StableHlo.Run
import Idealize.ShloMosaic.PureOps.Ideal

set_option maxRecDepth 16384

noncomputable section

namespace Cert.KernelIdeal.Entry

open Idealize.ShloMosaic Idealize.ShloMosaic.TcCoe Idealize.ShloMosaic.StableHlo
open Idealize.SL Idealize.SL.Sem
open Cert.KernelIdeal Cert.KernelIdeal.Gen Cert.KernelIdeal.Hand

variable (m : (ℓ : Loc nD τ sig) → Buf (Elt Ideal) ℓ)

/-! ## A three-operand operation over a literal family of references

The result of an operation over the literal family `![x, a, b]` with each operand's contents at its own reference
(the family applied to a bound index is no literal reference, and reading the operands back would stop there). -/

theorem nary3_result {x a b y : Ref sig .tc}
    (f : ((k : Fin 3) → ((![x, a, b] : Fin 3 → Ref sig .tc) k).ty.Contents (Elt Ideal)) → y.ty.Contents (Elt Ideal)) (hxs hy)
    (G : Valuation τ sig (Elt Ideal)) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-- Reading a buffer back through a literal list of operations: each operation's result at its own result reference is
    its function's value, at any other reference what was there before. -/
macro "entry_results" : tactic =>
  `(tactic| (simp only [StableHlo.after_cons, StableHlo.after_nil]
             repeat (first
               | rw [StableHlo.nullary_result] | rw [StableHlo.unary_result] | rw [StableHlo.binary_result]
               | rw [StableHlo.reshape_result] | rw [nary3_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

/-! ## The sixteen operand arrays -/

theorem V_main_v0 (c : Dev nD) : (V m c main_v0 : S16x512x1024.Idx → EReal) = shapeCast S16x512x1024 (m ((c : Thread nD τ).loc main_arg1)) shapeCasts_S16x512x4x16x16_S16x512x1024 := by
  dsimp only [V, V0]
  simp only [hostOps0, hostOps0_1, hostOps0_2, List.flatten_cons, List.flatten_nil, List.append_nil, List.cons_append, List.nil_append]
  after_results
  rfl

theorem V_main_v4 (c : Dev nD) : (V m c main_v4 : S512x1.Idx → EReal) = shapeCast S512x1 (m ((c : Thread nD τ).loc main_arg2)) shapeCasts_S512_S512x1 := by
  dsimp only [V, V0]
  simp only [hostOps0, hostOps0_1, hostOps0_2, List.flatten_cons, List.flatten_nil, List.append_nil, List.cons_append, List.nil_append]
  after_results
  rfl

theorem V_main_v5 (c : Dev nD) : (V m c main_v5 : S512x1.Idx → EReal) = shapeCast S512x1 (m ((c : Thread nD τ).loc main_arg3)) shapeCasts_S512_S512x1 := by
  dsimp only [V, V0]
  simp only [hostOps0, hostOps0_1, hostOps0_2, List.flatten_cons, List.flatten_nil, List.append_nil, List.cons_append, List.nil_append]
  after_results
  rfl

theorem V_main_v6 (c : Dev nD) : (V m c main_v6 : S512x512.Idx → EReal) = truncf (F := Ideal) .bf16 (m ((c : Thread nD τ).loc main_arg4) : FVec Ideal S512x512 .f32) bitsLt_bf16_f32 := by
  dsimp only [V, V0]
  simp only [hostOps0, hostOps0_1, hostOps0_2, List.flatten_cons, List.flatten_nil, List.append_nil, List.cons_append, List.nil_append]
  after_results

theorem V_main_v7 (c : Dev nD) : (V m c main_v7 : S512x1.Idx → EReal) = shapeCast S512x1 (m ((c : Thread nD τ).loc main_arg5)) shapeCasts_S512_S512x1 := by
  dsimp only [V, V0]
  simp only [hostOps0, hostOps0_1, hostOps0_2, List.flatten_cons, List.flatten_nil, List.append_nil, List.cons_append, List.nil_append]
  after_results
  rfl

theorem V_main_v8 (c : Dev nD) : (V m c main_v8 : S512x1024.Idx → EReal) = truncf (F := Ideal) .bf16 (m ((c : Thread nD τ).loc main_arg6) : FVec Ideal S512x1024 .f32) bitsLt_bf16_f32 := by
  dsimp only [V, V0]
  simp only [hostOps0, hostOps0_1, hostOps0_2, List.flatten_cons, List.flatten_nil, List.append_nil, List.cons_append, List.nil_append]
  after_results

theorem V_main_v9 (c : Dev nD) : (V m c main_v9 : S512x1.Idx → EReal) = shapeCast S512x1 (m ((c : Thread nD τ).loc main_arg7)) shapeCasts_S512_S512x1 := by
  dsimp only [V, V0]
  simp only [hostOps0, hostOps0_1, hostOps0_2, List.flatten_cons, List.flatten_nil, List.append_nil, List.cons_append, List.nil_append]
  after_results
  rfl

theorem V_main_v10 (c : Dev nD) : (V m c main_v10 : S512x1536.Idx → EReal) = truncf (F := Ideal) .bf16 (m ((c : Thread nD τ).loc main_arg8) : FVec Ideal S512x1536 .f32) bitsLt_bf16_f32 := by
  dsimp only [V, V0]
  simp only [hostOps0, hostOps0_1, hostOps0_2, List.flatten_cons, List.flatten_nil, List.append_nil, List.cons_append, List.nil_append]
  after_results

theorem V_main_v11 (c : Dev nD) : (V m c main_v11 : S512x1.Idx → EReal) = shapeCast S512x1 (m ((c : Thread nD τ).loc main_arg9)) shapeCasts_S512_S512x1 := by
  dsimp only [V, V0]
  simp only [hostOps0, hostOps0_1, hostOps0_2, List.flatten_cons, List.flatten_nil, List.append_nil, List.cons_append, List.nil_append]
  after_results
  rfl

theorem V_main_v12 (c : Dev nD) : (V m c main_v12 : S512x2048.Idx → EReal) = truncf (F := Ideal) .bf16 (m ((c : Thread nD τ).loc main_arg10) : FVec Ideal S512x2048 .f32) bitsLt_bf16_f32 := by
  dsimp only [V, V0]
  simp only [hostOps0, hostOps0_1, hostOps0_2, List.flatten_cons, List.flatten_nil, List.append_nil, List.cons_append, List.nil_append]
  after_results

theorem V_main_v13 (c : Dev nD) : (V m c main_v13 : S512x1.Idx → EReal) = shapeCast S512x1 (m ((c : Thread nD τ).loc main_arg11)) shapeCasts_S512_S512x1 := by
  dsimp only [V, V0]
  simp only [hostOps0, hostOps0_1, hostOps0_2, List.flatten_cons, List.flatten_nil, List.append_nil, List.cons_append, List.nil_append]
  after_results
  rfl

theorem V_main_v14 (c : Dev nD) : (V m c main_v14 : S512x512.Idx → EReal) = truncf (F := Ideal) .bf16 (m ((c : Thread nD τ).loc main_arg12) : FVec Ideal S512x512 .f32) bitsLt_bf16_f32 := by
  dsimp only [V, V0]
  simp only [hostOps0, hostOps0_1, hostOps0_2, List.flatten_cons, List.flatten_nil, List.append_nil, List.cons_append, List.nil_append]
  after_results

theorem V_main_v15 (c : Dev nD) : (V m c main_v15 : S512x1.Idx → EReal) = shapeCast S512x1 (m ((c : Thread nD τ).loc main_arg13)) shapeCasts_S512_S512x1 := by
  dsimp only [V, V0]
  simp only [hostOps0, hostOps0_1, hostOps0_2, List.flatten_cons, List.flatten_nil, List.append_nil, List.cons_append, List.nil_append]
  after_results
  rfl

/-- The clamped codes. -/
theorem V_main_v3 (c : Dev nD) : (V m c main_v3 : S16x3x1024.Idx → BitVec 32) =
    minsi (broadcastInDim S16x3x1024 ![] bcast_S_S16x3x1024 (constantI S_ 32 511#32))
      (maxsi (broadcastInDim S16x3x1024 ![] bcast_S_S16x3x1024 (constantI S_ 32 0#32))
        (extractStridedSlice S16x3x1024 ![0, 0, 0]
          (shapeCast S16x4x1024 (m ((c : Thread nD τ).loc main_arg0)) shapeCasts_S16x4x4x16x16_S16x4x1024)
          slices_S16x4x1024_S16x3x1024_0_0_0)) := by
  dsimp only [V, V0]
  simp only [hostOps0, hostOps0_1, hostOps0_2, List.flatten_cons, List.flatten_nil, List.append_nil, List.cons_append, List.nil_append]
  after_results
  simp only [Cert.TypedRef.ofBuf_toBuf]
  rfl

set_option maxHeartbeats 1600000 in
/-- The three code-0 slabs, stacked. -/
theorem V_main_v20 (c : Dev nD) : (V m c main_v20 : S1536x512.Idx → EReal) =
    truncf (F := Ideal) .bf16 (concatenate (α := EReal) S1536x512 0
      [⟨S512x512, extractStridedSlice S512x512 ![0, 512] (m ((c : Thread nD τ).loc main_arg6) : FVec Ideal S512x1024 .f32) slices_S512x1024_S512x512_0_512⟩,
       ⟨S512x512, extractStridedSlice S512x512 ![0, 512] (m ((c : Thread nD τ).loc main_arg8) : FVec Ideal S512x1536 .f32) slices_S512x1536_S512x512_0_512⟩,
       ⟨S512x512, extractStridedSlice S512x512 ![0, 512] (m ((c : Thread nD τ).loc main_arg10) : FVec Ideal S512x2048 .f32) slices_S512x2048_S512x512_0_512⟩]
      concatenates_S512x512_S512x512_S512x512_S1536x512_d0) bitsLt_bf16_f32 := by
  dsimp only [V, V0]
  simp only [hostOps0, hostOps0_1, hostOps0_2, List.flatten_cons, List.flatten_nil, List.append_nil, List.cons_append, List.nil_append]
  entry_results
  rfl

set_option maxHeartbeats 1600000 in
/-- The two code-1 slabs, stacked. -/
theorem V_main_v24 (c : Dev nD) : (V m c main_v24 : S1024x512.Idx → EReal) =
    truncf (F := Ideal) .bf16 (concatenate (α := EReal) S1024x512 0
      [⟨S512x512, extractStridedSlice S512x512 ![0, 1024] (m ((c : Thread nD τ).loc main_arg8) : FVec Ideal S512x1536 .f32) slices_S512x1536_S512x512_0_1024⟩,
       ⟨S512x512, extractStridedSlice S512x512 ![0, 1024] (m ((c : Thread nD τ).loc main_arg10) : FVec Ideal S512x2048 .f32) slices_S512x2048_S512x512_0_1024⟩]
      concatenates_S512x512_S512x512_S1024x512_d0) bitsLt_bf16_f32 := by
  dsimp only [V, V0]
  simp only [hostOps0, hostOps0_1, hostOps0_2, List.flatten_cons, List.flatten_nil, List.append_nil, List.cons_append, List.nil_append]
  after_results

end Cert.KernelIdeal.Entry

end
-- ==== Proof.RefForm.lean ====
/-
  The reference program read one token at a time.

  The reference lays the input out token-major: the [16,512,4,16,16] features become [16,1024,512] with token
  n = t·256 + h·16 + w, and everything it computes afterwards for (batch entry, token) depends on that token's
  feature column and codes alone. This file reads each stage of the generated reading of the program at an index
  (batch entry b, token n, channel) and identifies it with the mathematics of `Spec`: the normalised features with
  `Spec.ln`, the indicator array with `Spec.oh`, each head's concatenated input with `Spec.inp`, the dense layer with
  `Spec.hidden`, the projection with `Spec.head`; the last transpose and reshape bring token n back to (t, h, w).
  No law of arithmetic is used: every step is reading an index through a layout operation or unfolding an
  elementwise one.
-/
import proofs.«129167_j56925496541808_2_alg».proof.Proof.Spec
import proofs.«129167_j56925496541808_2_alg».proof.Proof.Gen.ReferenceIdeal.Read

noncomputable section

namespace Cert.RefForm

open Cert.ReferenceIdeal Cert.ReferenceIdeal.Gen Cert.ReferenceIdeal.Read
open Idealize.ShloMosaic Idealize.ShloMosaic.ValueIdx Idealize.ShloMosaic.StableHlo

/-! ## Tokens -/

/-- Frame of token `n = t·256 + h·16 + w`. -/
def tokT (n : Fin 1024) : Fin 4 := ⟨n.val / 256, by have := n.isLt; omega⟩
/-- Row of token `n`. -/
def tokH (n : Fin 1024) : Fin 16 := ⟨n.val / 16 % 16, Nat.mod_lt _ (by norm_num)⟩
/-- Column of token `n`. -/
def tokW (n : Fin 1024) : Fin 16 := ⟨n.val % 16, Nat.mod_lt _ (by norm_num)⟩
/-- The token of frame `t`, row `h`, column `w`. -/
def tok (t : Fin 4) (h w : Fin 16) : Fin 1024 :=
  ⟨t.val * 256 + h.val * 16 + w.val, by have := t.isLt; have := h.isLt; have := w.isLt; omega⟩

theorem tokT_tok (t : Fin 4) (h w : Fin 16) : tokT (tok t h w) = t :=
  Fin.ext (by have := h.isLt; have := w.isLt; show (t.val * 256 + h.val * 16 + w.val) / 256 = t.val; omega)
theorem tokH_tok (t : Fin 4) (h w : Fin 16) : tokH (tok t h w) = h :=
  Fin.ext (by have := h.isLt; have := w.isLt; show (t.val * 256 + h.val * 16 + w.val) / 16 % 16 = h.val; omega)
theorem tokW_tok (t : Fin 4) (h w : Fin 16) : tokW (tok t h w) = w :=
  Fin.ext (by have := h.isLt; have := w.isLt; show (t.val * 256 + h.val * 16 + w.val) % 16 = w.val; omega)

abbrev A0 := (⟨S16x4x4x16x16, .i32⟩ : BufTy).Contents (Elt Ideal)
abbrev A1 := (⟨S16x512x4x16x16, .f32⟩ : BufTy).Contents (Elt Ideal)
abbrev V512 := (⟨S512, .f32⟩ : BufTy).Contents (Elt Ideal)

/-- The feature column of token `n` of batch entry `b`. -/
def X (x1 : A1) (b : Fin 16) (n : Fin 1024) : Fin 512 → EReal :=
  fun f => x1 (ix5 b f (tokT n) (tokH n) (tokW n))
/-- The four codes of token `n` of batch entry `b`. -/
def C (x0 : A0) (b : Fin 16) (n : Fin 1024) : Fin 4 → BitVec 32 :=
  fun c => x0 (ix5 b c (tokT n) (tokH n) (tokW n))

/-- The feature column of the token of frame `t`, row `h`, column `w`. -/
theorem X_tok (x1 : A1) (b : Fin 16) (t : Fin 4) (h w : Fin 16) :
    X x1 b (tok t h w) = fun f => x1 (ix5 b f t h w) := by
  funext f; simp only [X, tokT_tok, tokH_tok, tokW_tok]
/-- The codes of the token of frame `t`, row `h`, column `w`. -/
theorem C_tok (x0 : A0) (b : Fin 16) (t : Fin 4) (h w : Fin 16) :
    C x0 b (tok t h w) = fun c => x0 (ix5 b c t h w) := by
  funext c; simp only [C, tokT_tok, tokH_tok, tokW_tok]

/-- The three float constants of the layer norm, kept as their words. -/
abbrev z : EReal := Ideal.ofBits .f32 0x00000000#32
abbrev c512 : EReal := Ideal.ofBits .f32 0x44000000#32
abbrev eps : EReal := Ideal.ofBits .f32 0x3727C5AC#32

/-- The only index of the last axis of a [.,.,1] array. -/
abbrev o1 : Fin 1 := ⟨0, Nat.one_pos⟩

/-! ## The layer norm (operations %0 … %25) -/

/-- The token-major features: reshape [16,512,4,16,16] → [16,512,1024], then transpose to [16,1024,512]. -/
theorem v1_at (x1 : A1) (b : Fin 16) (n : Fin 1024) (f : Fin 512) :
    val_main_v1 (F := Ideal) x1 (ix3 b n f) = X x1 b n f := by
  rw [val_main_v1_apply, val_main_v0_apply]
  refine congrArg x1 (funext fun a => Fin.ext ?_)
  have hb := b.isLt; have hn := n.isLt; have hf := f.isLt
  match a with
  | ⟨0, _⟩ => show ((b.val * 512 + f.val) * 1024 + n.val) / 524288 = b.val; omega
  | ⟨1, _⟩ => show ((b.val * 512 + f.val) * 1024 + n.val) / 1024 % 512 = f.val; omega
  | ⟨2, _⟩ => show ((b.val * 512 + f.val) * 1024 + n.val) / 256 % 4 = n.val / 256; omega
  | ⟨3, _⟩ => show ((b.val * 512 + f.val) * 1024 + n.val) / 16 % 16 = n.val / 16 % 16; omega
  | ⟨4, _⟩ => show ((b.val * 512 + f.val) * 1024 + n.val) % 16 = n.val % 16; omega

/-- The channel sum of a token. -/
theorem v2_at (x1 : A1) (b : Fin 16) (n : Fin 1024) :
    val_main_v2 (F := Ideal) x1 (ix2 b n) = z + ∑ k : Fin 512, X x1 b n k := by
  rw [val_main_v2_apply, val_main_cst_apply]
  refine congrArg₂ (· + ·) rfl (Finset.sum_congr rfl fun k _ => ?_)
  rw [show idx_main_v2 (ix2 b n) k = ix3 b n k from
    funext fun a => Fin.ext (by match a with | ⟨0, _⟩ => rfl | ⟨1, _⟩ => rfl | ⟨2, _⟩ => rfl), v1_at]

/-- The channel mean of a token. -/
def mean (x1 : A1) (b : Fin 16) (n : Fin 1024) : EReal := Ideal.div (z + ∑ k : Fin 512, X x1 b n k) c512

theorem v5_at (x1 : A1) (b : Fin 16) (n : Fin 1024) :
    val_main_v5 (F := Ideal) x1 (ix3 b n o1) = mean x1 b n := by
  rw [val_main_v5_apply, val_main_v3_apply, val_main_v4_apply, val_main_cst_0_apply,
    show idx_main_v3 (ix3 b n o1) = ix2 b n from
      funext fun a => Fin.ext (by match a with | ⟨0, _⟩ => rfl | ⟨1, _⟩ => rfl), v2_at]
  rfl

/-- The deviation from the mean (the program computes it twice: %7 for the variance, %14 for the result). -/
theorem v7_at (x1 : A1) (b : Fin 16) (n : Fin 1024) (f : Fin 512) :
    val_main_v7 (F := Ideal) x1 (ix3 b n f) = X x1 b n f - mean x1 b n := by
  rw [val_main_v7_apply, val_main_v6_apply, v1_at,
    show idx_main_v6 (ix3 b n f) = ix3 b n o1 from
      funext fun a => Fin.ext (by match a with | ⟨0, _⟩ => rfl | ⟨1, _⟩ => rfl | ⟨2, _⟩ => rfl), v5_at]
  rfl

theorem v14_at (x1 : A1) (b : Fin 16) (n : Fin 1024) (f : Fin 512) :
    val_main_v14 (F := Ideal) x1 (ix3 b n f) = X x1 b n f - mean x1 b n := by
  rw [val_main_v14_apply, val_main_v13_apply, v1_at,
    show idx_main_v13 (ix3 b n f) = ix3 b n o1 from
      funext fun a => Fin.ext (by match a with | ⟨0, _⟩ => rfl | ⟨1, _⟩ => rfl | ⟨2, _⟩ => rfl), v5_at]
  rfl

/-- The sum of the squared deviations of a token. -/
theorem v9_at (x1 : A1) (b : Fin 16) (n : Fin 1024) :
    val_main_v9 (F := Ideal) x1 (ix2 b n)
      = z + ∑ k : Fin 512, (X x1 b n k - mean x1 b n) * (X x1 b n k - mean x1 b n) := by
  rw [val_main_v9_apply, val_main_cst_1_apply]
  refine congrArg₂ (· + ·) rfl (Finset.sum_congr rfl fun k _ => ?_)
  rw [show idx_main_v9 (ix2 b n) k = ix3 b n k from
    funext fun a => Fin.ext (by match a with | ⟨0, _⟩ => rfl | ⟨1, _⟩ => rfl | ⟨2, _⟩ => rfl),
    val_main_v8_apply, v7_at]
  rfl

/-- The reciprocal standard deviation of a token: rsqrt (variance + eps). -/
def rstd (x1 : A1) (b : Fin 16) (n : Fin 1024) : EReal :=
  Ideal.rsqrt (Ideal.div (z + ∑ k : Fin 512, (X x1 b n k - mean x1 b n) * (X x1 b n k - mean x1 b n)) c512 + eps)

theorem v17_at (x1 : A1) (b : Fin 16) (n : Fin 1024) :
    val_main_v17 (F := Ideal) x1 (ix3 b n o1) = rstd x1 b n := by
  rw [val_main_v17_apply, val_main_v16_apply, val_main_v12_apply, val_main_v10_apply, val_main_v11_apply,
    val_main_cst_2_apply, val_main_v15_apply, val_main_cst_3_apply,
    show idx_main_v10 (ix3 b n o1) = ix2 b n from
      funext fun a => Fin.ext (by match a with | ⟨0, _⟩ => rfl | ⟨1, _⟩ => rfl), v9_at]
  rfl

/-- The normalised features of a token are `Spec.ln` of its feature column. -/
theorem v25_at (x1 : A1) (x2 x3 : V512) (b : Fin 16) (n : Fin 1024) (f : Fin 512) :
    val_main_v25 (F := Ideal) x1 x2 x3 (ix3 b n f)
      = Cert.Spec.ln z c512 eps (fun f => x2 (ix1 f)) (fun f => x3 (ix1 f)) (X x1 b n) f := by
  rw [val_main_v25_apply, val_main_v22_apply, val_main_v19_apply, val_main_v14_apply, val_main_v13_apply,
    val_main_v18_apply, val_main_v21_apply, val_main_v20_apply, val_main_v24_apply, val_main_v23_apply, v1_at,
    show idx_main_v13 (ix3 b n f) = ix3 b n o1 from
      funext fun a => Fin.ext (by match a with | ⟨0, _⟩ => rfl | ⟨1, _⟩ => rfl | ⟨2, _⟩ => rfl),
    show idx_main_v18 (ix3 b n f) = ix3 b n o1 from
      funext fun a => Fin.ext (by match a with | ⟨0, _⟩ => rfl | ⟨1, _⟩ => rfl | ⟨2, _⟩ => rfl),
    show idx_main_v20 (idx_main_v21 (ix3 b n f)) = ix1 f from
      funext fun a => Fin.ext (by match a with | ⟨0, _⟩ => rfl),
    show idx_main_v23 (idx_main_v24 (ix3 b n f)) = ix1 f from
      funext fun a => Fin.ext (by match a with | ⟨0, _⟩ => rfl),
    v5_at, v17_at]
  rfl

/-! ## The indicator array (operations %26 … %29) -/

/-- One bit turned into a float: the comparison of two words, converted, is the indicator of their equality. -/
theorem uitofp_cmpi_eq (s y : BitVec 32) :
    FloatOps.uitofp (F := Ideal) .f32 (IntOp.cmpi .eq s y) = if s = y then (1 : EReal) else 0 := by
  by_cases h : s = y
  · subst h
    rw [if_pos rfl]
    have e : IntOp.cmpi .eq s s = 1#1 := by simp [IntOp.cmpi]
    rw [e]
    show (((1#1 : BitVec 1).toNat : ℝ) : EReal) = 1
    simp
  · rw [if_neg h]
    have hb : (s == y) = false := beq_eq_false_iff_ne.mpr h
    have e : IntOp.cmpi .eq s y = 0#1 := by simp [IntOp.cmpi, hb]
    rw [e]
    show (((0#1 : BitVec 1).toNat : ℝ) : EReal) = 0
    simp

/-- The token-major codes: reshape [16,4,4,16,16] → [16,4,1024], then transpose to [16,1024,4]. -/
theorem v27_at (x0 : A0) (b : Fin 16) (n : Fin 1024) (c : Fin 4) :
    val_main_v27 (F := Ideal) x0 (ix3 b n c) = C x0 b n c := by
  rw [val_main_v27_apply, val_main_v26_apply]
  refine congrArg x0 (funext fun a => Fin.ext ?_)
  have hb := b.isLt; have hn := n.isLt; have hc := c.isLt
  match a with
  | ⟨0, _⟩ => show ((b.val * 4 + c.val) * 1024 + n.val) / 4096 = b.val; omega
  | ⟨1, _⟩ => show ((b.val * 4 + c.val) * 1024 + n.val) / 1024 % 4 = c.val; omega
  | ⟨2, _⟩ => show ((b.val * 4 + c.val) * 1024 + n.val) / 256 % 4 = n.val / 256; omega
  | ⟨3, _⟩ => show ((b.val * 4 + c.val) * 1024 + n.val) / 16 % 16 = n.val / 16 % 16; omega
  | ⟨4, _⟩ => show ((b.val * 4 + c.val) * 1024 + n.val) % 16 = n.val % 16; omega

/-- The [16,1024,4,512] indicator: entry (b, n, c, v) is the indicator column of code `c` of the token at row `v`. -/
theorem v28_at (x0 : A0) (b : Fin 16) (n : Fin 1024) (c : Fin 4) (v : Fin 512) :
    val_main_v28 (F := Ideal) x0 (ix4 b n c v) = Cert.Spec.oh (C x0 b n c) v := by
  rw [val_main_v28_apply, val_main_call0_v4_apply, val_main_call0_v2_apply, val_main_call0_v0_apply,
    val_main_call0_v3_apply, val_main_call0_v1_apply,
    show idx_main_call0_v0 (idx_main_call0_v2 (ix4 b n c v)) = ix3 b n c from
      funext fun a => Fin.ext (by match a with | ⟨0, _⟩ => rfl | ⟨1, _⟩ => rfl | ⟨2, _⟩ => rfl),
    v27_at, uitofp_cmpi_eq]
  rfl

/-- The [16,1024,2048] indicator: column `j` is row `j % 512` of the indicator column of code `j / 512`. -/
theorem v29_at (x0 : A0) (b : Fin 16) (n : Fin 1024) (j : Fin 2048) :
    val_main_v29 (F := Ideal) x0 (ix3 b n j)
      = Cert.Spec.oh (C x0 b n ⟨j.val / 512 % 4, Nat.mod_lt _ (by norm_num)⟩)
          ⟨j.val % 512, Nat.mod_lt _ (by norm_num)⟩ := by
  rw [val_main_v29_apply,
    show idx_main_v29 (ix3 b n j)
        = ix4 b n (⟨j.val / 512 % 4, Nat.mod_lt _ (by norm_num)⟩ : Fin 4) (⟨j.val % 512, Nat.mod_lt _ (by norm_num)⟩ : Fin 512) from
      funext fun a => Fin.ext (by
        have hb := b.isLt; have hn := n.isLt; have hj := j.isLt
        match a with
        | ⟨0, _⟩ => show ((b.val * 1024 + n.val) * 2048 + j.val) / 2097152 = b.val; omega
        | ⟨1, _⟩ => show ((b.val * 1024 + n.val) * 2048 + j.val) / 2048 % 1024 = n.val; omega
        | ⟨2, _⟩ => show ((b.val * 1024 + n.val) * 2048 + j.val) / 512 % 4 = j.val / 512 % 4; omega
        | ⟨3, _⟩ => show ((b.val * 1024 + n.val) * 2048 + j.val) % 512 = j.val % 512; omega),
    v28_at]

/-! ## The input of each head -/

/-- The normalised feature column of a token. -/
abbrev LN (x1 : A1) (x2 x3 : V512) (b : Fin 16) (n : Fin 1024) : Fin 512 → EReal :=
  Cert.Spec.ln z c512 eps (fun f => x2 (ix1 f)) (fun f => x3 (ix1 f)) (X x1 b n)

/-! ## Head 0 -/

/-- The input of head 0 is the normalised feature column itself: no indicator column follows. -/
theorem inp_zero (x : Fin 512 → EReal) (s : Fin 4 → BitVec 32) (f : Fin 512) : Cert.Spec.inp 0 x s f = x f := by
  unfold Cert.Spec.inp
  exact dif_pos f.isLt

/-- The dense layer of head 0 before the bias: one dot product of length 512 per token and output channel. -/
theorem v30_at (x0 : A0) (x1 : A1) (x2 x3 : V512) (x4 : (⟨S512x512, .f32⟩ : BufTy).Contents (Elt Ideal))
    (b : Fin 16) (n : Fin 1024) (d : Fin 512) :
    val_main_v30 (F := Ideal) x1 x2 x3 x4 (ix3 b n d)
      = ∑ f : Fin 512, Cert.Spec.inp 0 (LN x1 x2 x3 b n) (C x0 b n) f * x4 (ix2 d f) := by
  rw [val_main_v30_apply]
  refine Finset.sum_congr rfl fun f _ => ?_
  rw [show lidx_main_v30 (ix3 b n d) f = ix3 b n f from
      funext fun a => Fin.ext (by match a with | ⟨0, _⟩ => rfl | ⟨1, _⟩ => rfl | ⟨2, _⟩ => rfl),
    show ridx_main_v30 (ix3 b n d) f = ix2 d f from
      funext fun a => Fin.ext (by match a with | ⟨0, _⟩ => rfl | ⟨1, _⟩ => rfl),
    v25_at, inp_zero]

/-- The hidden layer of head 0: bias added, rectified. The rectifier compares with the word of +0, which is the
    number 0. -/
theorem v34_at (x0 : A0) (x1 : A1) (x2 x3 : V512) (x4 : (⟨S512x512, .f32⟩ : BufTy).Contents (Elt Ideal)) (x5 : V512)
    (b : Fin 16) (n : Fin 1024) (d : Fin 512) :
    val_main_v34 (F := Ideal) x1 x2 x3 x4 x5 (ix3 b n d)
      = Cert.Spec.hidden (fun d f => x4 (ix2 d f)) (fun d => x5 (ix1 d))
          (Cert.Spec.inp 0 (LN x1 x2 x3 b n) (C x0 b n)) d := by
  rw [val_main_v34_apply, val_main_v33_apply, val_main_call1_v0_apply, val_main_call1_cst_apply,
    val_main_v32_apply, val_main_v31_apply,
    show idx_main_v31 (idx_main_v32 (ix3 b n d)) = ix1 d from
      funext fun a => Fin.ext (by match a with | ⟨0, _⟩ => rfl),
    v30_at x0]
  show max (_ + _) (Ideal.ofBits .f32 0x00000000#32) = _
  rw [Ideal.ofBits_zero_f32]
  rfl

/-- The projection of head 0's hidden layer, bias added. -/
theorem v38_at (x0 : A0) (x1 : A1) (x2 x3 : V512) (x4 : (⟨S512x512, .f32⟩ : BufTy).Contents (Elt Ideal)) (x5 : V512)
    (x12 : (⟨S512x512, .f32⟩ : BufTy).Contents (Elt Ideal)) (x13 : V512)
    (b : Fin 16) (n : Fin 1024) (v : Fin 512) :
    val_main_v38 (F := Ideal) x1 x2 x3 x4 x5 x12 x13 (ix3 b n v)
      = Cert.Spec.out 0 (fun d f => x4 (ix2 d f)) (fun d => x5 (ix1 d)) (fun v d => x12 (ix2 v d))
          (fun v => x13 (ix1 v)) (LN x1 x2 x3 b n) (C x0 b n) v := by
  rw [val_main_v38_apply, val_main_v35_apply, val_main_v37_apply, val_main_v36_apply,
    show idx_main_v36 (idx_main_v37 (ix3 b n v)) = ix1 v from
      funext fun a => Fin.ext (by match a with | ⟨0, _⟩ => rfl)]
  unfold Cert.Spec.out Cert.Spec.head
  refine congrArg₂ (· + ·) (Finset.sum_congr rfl fun d _ => ?_) rfl
  rw [show lidx_main_v35 (ix3 b n v) d = ix3 b n d from
      funext fun a => Fin.ext (by match a with | ⟨0, _⟩ => rfl | ⟨1, _⟩ => rfl | ⟨2, _⟩ => rfl),
    show ridx_main_v35 (ix3 b n v) d = ix2 v d from
      funext fun a => Fin.ext (by match a with | ⟨0, _⟩ => rfl | ⟨1, _⟩ => rfl),
    v34_at x0]

/-- Result 0 of the reference at (batch entry, class, frame, row, column): the token's output 0. (The codes do not
    enter it: `x0` appears on the right only because `Spec.out` takes the codes for every head.) -/
theorem out0_at (x0 : A0) (x1 : A1) (x2 x3 : V512) (x4 : (⟨S512x512, .f32⟩ : BufTy).Contents (Elt Ideal)) (x5 : V512)
    (x12 : (⟨S512x512, .f32⟩ : BufTy).Contents (Elt Ideal)) (x13 : V512)
    (b : Fin 16) (v : Fin 512) (t : Fin 4) (h w : Fin 16) :
    val_main_v40 (F := Ideal) x1 x2 x3 x4 x5 x12 x13 (ix5 b v t h w)
      = Cert.Spec.out 0 (fun d f => x4 (ix2 d f)) (fun d => x5 (ix1 d)) (fun v d => x12 (ix2 v d))
          (fun v => x13 (ix1 v))
          (Cert.Spec.ln z c512 eps (fun f => x2 (ix1 f)) (fun f => x3 (ix1 f)) (fun f => x1 (ix5 b f t h w)))
          (fun c => x0 (ix5 b c t h w)) v := by
  rw [val_main_v40_apply, val_main_v39_apply,
    show idx_main_v39 (idx_main_v40 (ix5 b v t h w)) = ix3 b (tok t h w) v from
      funext fun a => Fin.ext (by
        have hb := b.isLt; have hv := v.isLt; have ht := t.isLt; have hh := h.isLt; have hw := w.isLt
        match a with
        | ⟨0, _⟩ => show ((((b.val * 512 + v.val) * 4 + t.val) * 16 + h.val) * 16 + w.val) / 524288 = b.val; omega
        | ⟨1, _⟩ => show ((((b.val * 512 + v.val) * 4 + t.val) * 16 + h.val) * 16 + w.val) % 1024
            = t.val * 256 + h.val * 16 + w.val; omega
        | ⟨2, _⟩ => show ((((b.val * 512 + v.val) * 4 + t.val) * 16 + h.val) * 16 + w.val) / 1024 % 512 = v.val; omega),
    v38_at x0]
  unfold LN
  rw [X_tok, C_tok]

/-! ## Head 1 -/

/-- The input of head 1: the normalised features followed by the first indicator column. -/
theorem v42_at (x0 : A0) (x1 : A1) (x2 x3 : V512) (b : Fin 16) (n : Fin 1024) (f : Fin 1024) :
    val_main_v42 (F := Ideal) x0 x1 x2 x3 (ix3 b n f) = Cert.Spec.inp 1 (LN x1 x2 x3 b n) (C x0 b n) f := by
  unfold val_main_v42 Cert.Spec.inp
  have hf := f.isLt
  by_cases h : f.val < 512
  · rw [dif_pos h]
    refine (concatenate_pair_apply_left _ _ _ concatenates_S16x1024x512_S16x1024x512_S16x1024x1024_d2 (ix3 b n f) rfl
      (ix3 b n (⟨f.val, h⟩ : Fin 512))
      (fun a => by match a with | ⟨0, _⟩ => rfl | ⟨1, _⟩ => rfl | ⟨2, _⟩ => rfl)).trans ?_
    rw [v25_at]
  · rw [dif_neg h]
    refine (concatenate_pair_apply_right _ _ _ concatenates_S16x1024x512_S16x1024x512_S16x1024x1024_d2 (ix3 b n f) rfl rfl
      (ix3 b n (⟨f.val - 512, by omega⟩ : Fin 512))
      (fun a ha => by match a with | ⟨0, _⟩ => rfl | ⟨1, _⟩ => rfl | ⟨2, _⟩ => exact absurd rfl ha)
      (by show f.val - 512 + 512 = f.val; omega)).trans ?_
    rw [val_main_v41_apply,
      show idx_main_v41 (ix3 b n (⟨f.val - 512, by omega⟩ : Fin 512))
          = ix3 b n (⟨f.val - 512, by omega⟩ : Fin 2048) from
        funext fun a => Fin.ext (by match a with | ⟨0, _⟩ => rfl | ⟨1, _⟩ => rfl | ⟨2, _⟩ => rfl),
      v29_at]

/-- The dense layer of head 1 before the bias: one dot product of length 1024 per token and output channel. -/
theorem v43_at (x0 : A0) (x1 : A1) (x2 x3 : V512) (x6 : (⟨S512x1024, .f32⟩ : BufTy).Contents (Elt Ideal))
    (b : Fin 16) (n : Fin 1024) (d : Fin 512) :
    val_main_v43 (F := Ideal) x0 x1 x2 x3 x6 (ix3 b n d)
      = ∑ f : Fin 1024, Cert.Spec.inp 1 (LN x1 x2 x3 b n) (C x0 b n) f * x6 (ix2 d f) := by
  rw [val_main_v43_apply]
  refine Finset.sum_congr rfl fun f _ => ?_
  rw [show lidx_main_v43 (ix3 b n d) f = ix3 b n f from
      funext fun a => Fin.ext (by match a with | ⟨0, _⟩ => rfl | ⟨1, _⟩ => rfl | ⟨2, _⟩ => rfl),
    show ridx_main_v43 (ix3 b n d) f = ix2 d f from
      funext fun a => Fin.ext (by match a with | ⟨0, _⟩ => rfl | ⟨1, _⟩ => rfl),
    v42_at]

/-- The hidden layer of head 1: bias added, rectified. The rectifier compares with the word of +0, which is the
    number 0. -/
theorem v47_at (x0 : A0) (x1 : A1) (x2 x3 : V512) (x6 : (⟨S512x1024, .f32⟩ : BufTy).Contents (Elt Ideal)) (x7 : V512)
    (b : Fin 16) (n : Fin 1024) (d : Fin 512) :
    val_main_v47 (F := Ideal) x0 x1 x2 x3 x6 x7 (ix3 b n d)
      = Cert.Spec.hidden (fun d f => x6 (ix2 d f)) (fun d => x7 (ix1 d))
          (Cert.Spec.inp 1 (LN x1 x2 x3 b n) (C x0 b n)) d := by
  rw [val_main_v47_apply, val_main_v46_apply, val_main_call2_v0_apply, val_main_call2_cst_apply,
    val_main_v45_apply, val_main_v44_apply,
    show idx_main_v44 (idx_main_v45 (ix3 b n d)) = ix1 d from
      funext fun a => Fin.ext (by match a with | ⟨0, _⟩ => rfl),
    v43_at]
  show max (_ + _) (Ideal.ofBits .f32 0x00000000#32) = _
  rw [Ideal.ofBits_zero_f32]
  rfl

/-- The projection of head 1's hidden layer, bias added. -/
theorem v51_at (x0 : A0) (x1 : A1) (x2 x3 : V512) (x6 : (⟨S512x1024, .f32⟩ : BufTy).Contents (Elt Ideal)) (x7 : V512)
    (x12 : (⟨S512x512, .f32⟩ : BufTy).Contents (Elt Ideal)) (x13 : V512)
    (b : Fin 16) (n : Fin 1024) (v : Fin 512) :
    val_main_v51 (F := Ideal) x0 x1 x2 x3 x6 x7 x12 x13 (ix3 b n v)
      = Cert.Spec.out 1 (fun d f => x6 (ix2 d f)) (fun d => x7 (ix1 d)) (fun v d => x12 (ix2 v d))
          (fun v => x13 (ix1 v)) (LN x1 x2 x3 b n) (C x0 b n) v := by
  rw [val_main_v51_apply, val_main_v48_apply, val_main_v50_apply, val_main_v49_apply,
    show idx_main_v49 (idx_main_v50 (ix3 b n v)) = ix1 v from
      funext fun a => Fin.ext (by match a with | ⟨0, _⟩ => rfl)]
  unfold Cert.Spec.out Cert.Spec.head
  refine congrArg₂ (· + ·) (Finset.sum_congr rfl fun d _ => ?_) rfl
  rw [show lidx_main_v48 (ix3 b n v) d = ix3 b n d from
      funext fun a => Fin.ext (by match a with | ⟨0, _⟩ => rfl | ⟨1, _⟩ => rfl | ⟨2, _⟩ => rfl),
    show ridx_main_v48 (ix3 b n v) d = ix2 v d from
      funext fun a => Fin.ext (by match a with | ⟨0, _⟩ => rfl | ⟨1, _⟩ => rfl),
    v47_at]

/-- Result 1 of the reference at (batch entry, class, frame, row, column): the token's output 1. -/
theorem out1_at (x0 : A0) (x1 : A1) (x2 x3 : V512) (x6 : (⟨S512x1024, .f32⟩ : BufTy).Contents (Elt Ideal)) (x7 : V512)
    (x12 : (⟨S512x512, .f32⟩ : BufTy).Contents (Elt Ideal)) (x13 : V512)
    (b : Fin 16) (v : Fin 512) (t : Fin 4) (h w : Fin 16) :
    val_main_v53 (F := Ideal) x0 x1 x2 x3 x6 x7 x12 x13 (ix5 b v t h w)
      = Cert.Spec.out 1 (fun d f => x6 (ix2 d f)) (fun d => x7 (ix1 d)) (fun v d => x12 (ix2 v d))
          (fun v => x13 (ix1 v))
          (Cert.Spec.ln z c512 eps (fun f => x2 (ix1 f)) (fun f => x3 (ix1 f)) (fun f => x1 (ix5 b f t h w)))
          (fun c => x0 (ix5 b c t h w)) v := by
  rw [val_main_v53_apply, val_main_v52_apply,
    show idx_main_v52 (idx_main_v53 (ix5 b v t h w)) = ix3 b (tok t h w) v from
      funext fun a => Fin.ext (by
        have hb := b.isLt; have hv := v.isLt; have ht := t.isLt; have hh := h.isLt; have hw := w.isLt
        match a with
        | ⟨0, _⟩ => show ((((b.val * 512 + v.val) * 4 + t.val) * 16 + h.val) * 16 + w.val) / 524288 = b.val; omega
        | ⟨1, _⟩ => show ((((b.val * 512 + v.val) * 4 + t.val) * 16 + h.val) * 16 + w.val) % 1024
            = t.val * 256 + h.val * 16 + w.val; omega
        | ⟨2, _⟩ => show ((((b.val * 512 + v.val) * 4 + t.val) * 16 + h.val) * 16 + w.val) / 1024 % 512 = v.val; omega),
    v51_at]
  unfold LN
  rw [X_tok, C_tok]

/-! ## Head 2 -/

/-- The input of head 2: the normalised features followed by the first 2 indicator columns. -/
theorem v55_at (x0 : A0) (x1 : A1) (x2 x3 : V512) (b : Fin 16) (n : Fin 1024) (f : Fin 1536) :
    val_main_v55 (F := Ideal) x0 x1 x2 x3 (ix3 b n f) = Cert.Spec.inp 2 (LN x1 x2 x3 b n) (C x0 b n) f := by
  unfold val_main_v55 Cert.Spec.inp
  have hf := f.isLt
  by_cases h : f.val < 512
  · rw [dif_pos h]
    refine (concatenate_pair_apply_left _ _ _ concatenates_S16x1024x512_S16x1024x1024_S16x1024x1536_d2 (ix3 b n f) rfl
      (ix3 b n (⟨f.val, h⟩ : Fin 512))
      (fun a => by match a with | ⟨0, _⟩ => rfl | ⟨1, _⟩ => rfl | ⟨2, _⟩ => rfl)).trans ?_
    rw [v25_at]
  · rw [dif_neg h]
    refine (concatenate_pair_apply_right _ _ _ concatenates_S16x1024x512_S16x1024x1024_S16x1024x1536_d2 (ix3 b n f) rfl rfl
      (ix3 b n (⟨f.val - 512, by omega⟩ : Fin 1024))
      (fun a ha => by match a with | ⟨0, _⟩ => rfl | ⟨1, _⟩ => rfl | ⟨2, _⟩ => exact absurd rfl ha)
      (by show f.val - 512 + 512 = f.val; omega)).trans ?_
    rw [val_main_v54_apply,
      show idx_main_v54 (ix3 b n (⟨f.val - 512, by omega⟩ : Fin 1024))
          = ix3 b n (⟨f.val - 512, by omega⟩ : Fin 2048) from
        funext fun a => Fin.ext (by match a with | ⟨0, _⟩ => rfl | ⟨1, _⟩ => rfl | ⟨2, _⟩ => rfl),
      v29_at]

/-- The dense layer of head 2 before the bias: one dot product of length 1536 per token and output channel. -/
theorem v56_at (x0 : A0) (x1 : A1) (x2 x3 : V512) (x8 : (⟨S512x1536, .f32⟩ : BufTy).Contents (Elt Ideal))
    (b : Fin 16) (n : Fin 1024) (d : Fin 512) :
    val_main_v56 (F := Ideal) x0 x1 x2 x3 x8 (ix3 b n d)
      = ∑ f : Fin 1536, Cert.Spec.inp 2 (LN x1 x2 x3 b n) (C x0 b n) f * x8 (ix2 d f) := by
  rw [val_main_v56_apply]
  refine Finset.sum_congr rfl fun f _ => ?_
  rw [show lidx_main_v56 (ix3 b n d) f = ix3 b n f from
      funext fun a => Fin.ext (by match a with | ⟨0, _⟩ => rfl | ⟨1, _⟩ => rfl | ⟨2, _⟩ => rfl),
    show ridx_main_v56 (ix3 b n d) f = ix2 d f from
      funext fun a => Fin.ext (by match a with | ⟨0, _⟩ => rfl | ⟨1, _⟩ => rfl),
    v55_at]

/-- The hidden layer of head 2: bias added, rectified. The rectifier compares with the word of +0, which is the
    number 0. -/
theorem v60_at (x0 : A0) (x1 : A1) (x2 x3 : V512) (x8 : (⟨S512x1536, .f32⟩ : BufTy).Contents (Elt Ideal)) (x9 : V512)
    (b : Fin 16) (n : Fin 1024) (d : Fin 512) :
    val_main_v60 (F := Ideal) x0 x1 x2 x3 x8 x9 (ix3 b n d)
      = Cert.Spec.hidden (fun d f => x8 (ix2 d f)) (fun d => x9 (ix1 d))
          (Cert.Spec.inp 2 (LN x1 x2 x3 b n) (C x0 b n)) d := by
  rw [val_main_v60_apply, val_main_v59_apply, val_main_call3_v0_apply, val_main_call3_cst_apply,
    val_main_v58_apply, val_main_v57_apply,
    show idx_main_v57 (idx_main_v58 (ix3 b n d)) = ix1 d from
      funext fun a => Fin.ext (by match a with | ⟨0, _⟩ => rfl),
    v56_at]
  show max (_ + _) (Ideal.ofBits .f32 0x00000000#32) = _
  rw [Ideal.ofBits_zero_f32]
  rfl

/-- The projection of head 2's hidden layer, bias added. -/
theorem v64_at (x0 : A0) (x1 : A1) (x2 x3 : V512) (x8 : (⟨S512x1536, .f32⟩ : BufTy).Contents (Elt Ideal)) (x9 : V512)
    (x12 : (⟨S512x512, .f32⟩ : BufTy).Contents (Elt Ideal)) (x13 : V512)
    (b : Fin 16) (n : Fin 1024) (v : Fin 512) :
    val_main_v64 (F := Ideal) x0 x1 x2 x3 x8 x9 x12 x13 (ix3 b n v)
      = Cert.Spec.out 2 (fun d f => x8 (ix2 d f)) (fun d => x9 (ix1 d)) (fun v d => x12 (ix2 v d))
          (fun v => x13 (ix1 v)) (LN x1 x2 x3 b n) (C x0 b n) v := by
  rw [val_main_v64_apply, val_main_v61_apply, val_main_v63_apply, val_main_v62_apply,
    show idx_main_v62 (idx_main_v63 (ix3 b n v)) = ix1 v from
      funext fun a => Fin.ext (by match a with | ⟨0, _⟩ => rfl)]
  unfold Cert.Spec.out Cert.Spec.head
  refine congrArg₂ (· + ·) (Finset.sum_congr rfl fun d _ => ?_) rfl
  rw [show lidx_main_v61 (ix3 b n v) d = ix3 b n d from
      funext fun a => Fin.ext (by match a with | ⟨0, _⟩ => rfl | ⟨1, _⟩ => rfl | ⟨2, _⟩ => rfl),
    show ridx_main_v61 (ix3 b n v) d = ix2 v d from
      funext fun a => Fin.ext (by match a with | ⟨0, _⟩ => rfl | ⟨1, _⟩ => rfl),
    v60_at]

/-- Result 2 of the reference at (batch entry, class, frame, row, column): the token's output 2. -/
theorem out2_at (x0 : A0) (x1 : A1) (x2 x3 : V512) (x8 : (⟨S512x1536, .f32⟩ : BufTy).Contents (Elt Ideal)) (x9 : V512)
    (x12 : (⟨S512x512, .f32⟩ : BufTy).Contents (Elt Ideal)) (x13 : V512)
    (b : Fin 16) (v : Fin 512) (t : Fin 4) (h w : Fin 16) :
    val_main_v66 (F := Ideal) x0 x1 x2 x3 x8 x9 x12 x13 (ix5 b v t h w)
      = Cert.Spec.out 2 (fun d f => x8 (ix2 d f)) (fun d => x9 (ix1 d)) (fun v d => x12 (ix2 v d))
          (fun v => x13 (ix1 v))
          (Cert.Spec.ln z c512 eps (fun f => x2 (ix1 f)) (fun f => x3 (ix1 f)) (fun f => x1 (ix5 b f t h w)))
          (fun c => x0 (ix5 b c t h w)) v := by
  rw [val_main_v66_apply, val_main_v65_apply,
    show idx_main_v65 (idx_main_v66 (ix5 b v t h w)) = ix3 b (tok t h w) v from
      funext fun a => Fin.ext (by
        have hb := b.isLt; have hv := v.isLt; have ht := t.isLt; have hh := h.isLt; have hw := w.isLt
        match a with
        | ⟨0, _⟩ => show ((((b.val * 512 + v.val) * 4 + t.val) * 16 + h.val) * 16 + w.val) / 524288 = b.val; omega
        | ⟨1, _⟩ => show ((((b.val * 512 + v.val) * 4 + t.val) * 16 + h.val) * 16 + w.val) % 1024
            = t.val * 256 + h.val * 16 + w.val; omega
        | ⟨2, _⟩ => show ((((b.val * 512 + v.val) * 4 + t.val) * 16 + h.val) * 16 + w.val) / 1024 % 512 = v.val; omega),
    v64_at]
  unfold LN
  rw [X_tok, C_tok]

/-! ## Head 3 -/

/-- The input of head 3: the normalised features followed by the first 3 indicator columns. -/
theorem v68_at (x0 : A0) (x1 : A1) (x2 x3 : V512) (b : Fin 16) (n : Fin 1024) (f : Fin 2048) :
    val_main_v68 (F := Ideal) x0 x1 x2 x3 (ix3 b n f) = Cert.Spec.inp 3 (LN x1 x2 x3 b n) (C x0 b n) f := by
  unfold val_main_v68 Cert.Spec.inp
  have hf := f.isLt
  by_cases h : f.val < 512
  · rw [dif_pos h]
    refine (concatenate_pair_apply_left _ _ _ concatenates_S16x1024x512_S16x1024x1536_S16x1024x2048_d2 (ix3 b n f) rfl
      (ix3 b n (⟨f.val, h⟩ : Fin 512))
      (fun a => by match a with | ⟨0, _⟩ => rfl | ⟨1, _⟩ => rfl | ⟨2, _⟩ => rfl)).trans ?_
    rw [v25_at]
  · rw [dif_neg h]
    refine (concatenate_pair_apply_right _ _ _ concatenates_S16x1024x512_S16x1024x1536_S16x1024x2048_d2 (ix3 b n f) rfl rfl
      (ix3 b n (⟨f.val - 512, by omega⟩ : Fin 1536))
      (fun a ha => by match a with | ⟨0, _⟩ => rfl | ⟨1, _⟩ => rfl | ⟨2, _⟩ => exact absurd rfl ha)
      (by show f.val - 512 + 512 = f.val; omega)).trans ?_
    rw [val_main_v67_apply,
      show idx_main_v67 (ix3 b n (⟨f.val - 512, by omega⟩ : Fin 1536))
          = ix3 b n (⟨f.val - 512, by omega⟩ : Fin 2048) from
        funext fun a => Fin.ext (by match a with | ⟨0, _⟩ => rfl | ⟨1, _⟩ => rfl | ⟨2, _⟩ => rfl),
      v29_at]

/-- The dense layer of head 3 before the bias: one dot product of length 2048 per token and output channel. -/
theorem v69_at (x0 : A0) (x1 : A1) (x2 x3 : V512) (x10 : (⟨S512x2048, .f32⟩ : BufTy).Contents (Elt Ideal))
    (b : Fin 16) (n : Fin 1024) (d : Fin 512) :
    val_main_v69 (F := Ideal) x0 x1 x2 x3 x10 (ix3 b n d)
      = ∑ f : Fin 2048, Cert.Spec.inp 3 (LN x1 x2 x3 b n) (C x0 b n) f * x10 (ix2 d f) := by
  rw [val_main_v69_apply]
  refine Finset.sum_congr rfl fun f _ => ?_
  rw [show lidx_main_v69 (ix3 b n d) f = ix3 b n f from
      funext fun a => Fin.ext (by match a with | ⟨0, _⟩ => rfl | ⟨1, _⟩ => rfl | ⟨2, _⟩ => rfl),
    show ridx_main_v69 (ix3 b n d) f = ix2 d f from
      funext fun a => Fin.ext (by match a with | ⟨0, _⟩ => rfl | ⟨1, _⟩ => rfl),
    v68_at]

/-- The hidden layer of head 3: bias added, rectified. The rectifier compares with the word of +0, which is the
    number 0. -/
theorem v73_at (x0 : A0) (x1 : A1) (x2 x3 : V512) (x10 : (⟨S512x2048, .f32⟩ : BufTy).Contents (Elt Ideal)) (x11 : V512)
    (b : Fin 16) (n : Fin 1024) (d : Fin 512) :
    val_main_v73 (F := Ideal) x0 x1 x2 x3 x10 x11 (ix3 b n d)
      = Cert.Spec.hidden (fun d f => x10 (ix2 d f)) (fun d => x11 (ix1 d))
          (Cert.Spec.inp 3 (LN x1 x2 x3 b n) (C x0 b n)) d := by
  rw [val_main_v73_apply, val_main_v72_apply, val_main_call4_v0_apply, val_main_call4_cst_apply,
    val_main_v71_apply, val_main_v70_apply,
    show idx_main_v70 (idx_main_v71 (ix3 b n d)) = ix1 d from
      funext fun a => Fin.ext (by match a with | ⟨0, _⟩ => rfl),
    v69_at]
  show max (_ + _) (Ideal.ofBits .f32 0x00000000#32) = _
  rw [Ideal.ofBits_zero_f32]
  rfl

/-- The projection of head 3's hidden layer, bias added. -/
theorem v77_at (x0 : A0) (x1 : A1) (x2 x3 : V512) (x10 : (⟨S512x2048, .f32⟩ : BufTy).Contents (Elt Ideal)) (x11 : V512)
    (x12 : (⟨S512x512, .f32⟩ : BufTy).Contents (Elt Ideal)) (x13 : V512)
    (b : Fin 16) (n : Fin 1024) (v : Fin 512) :
    val_main_v77 (F := Ideal) x0 x1 x2 x3 x10 x11 x12 x13 (ix3 b n v)
      = Cert.Spec.out 3 (fun d f => x10 (ix2 d f)) (fun d => x11 (ix1 d)) (fun v d => x12 (ix2 v d))
          (fun v => x13 (ix1 v)) (LN x1 x2 x3 b n) (C x0 b n) v := by
  rw [val_main_v77_apply, val_main_v74_apply, val_main_v76_apply, val_main_v75_apply,
    show idx_main_v75 (idx_main_v76 (ix3 b n v)) = ix1 v from
      funext fun a => Fin.ext (by match a with | ⟨0, _⟩ => rfl)]
  unfold Cert.Spec.out Cert.Spec.head
  refine congrArg₂ (· + ·) (Finset.sum_congr rfl fun d _ => ?_) rfl
  rw [show lidx_main_v74 (ix3 b n v) d = ix3 b n d from
      funext fun a => Fin.ext (by match a with | ⟨0, _⟩ => rfl | ⟨1, _⟩ => rfl | ⟨2, _⟩ => rfl),
    show ridx_main_v74 (ix3 b n v) d = ix2 v d from
      funext fun a => Fin.ext (by match a with | ⟨0, _⟩ => rfl | ⟨1, _⟩ => rfl),
    v73_at]

/-- Result 3 of the reference at (batch entry, class, frame, row, column): the token's output 3. -/
theorem out3_at (x0 : A0) (x1 : A1) (x2 x3 : V512) (x10 : (⟨S512x2048, .f32⟩ : BufTy).Contents (Elt Ideal)) (x11 : V512)
    (x12 : (⟨S512x512, .f32⟩ : BufTy).Contents (Elt Ideal)) (x13 : V512)
    (b : Fin 16) (v : Fin 512) (t : Fin 4) (h w : Fin 16) :
    val_main_v79 (F := Ideal) x0 x1 x2 x3 x10 x11 x12 x13 (ix5 b v t h w)
      = Cert.Spec.out 3 (fun d f => x10 (ix2 d f)) (fun d => x11 (ix1 d)) (fun v d => x12 (ix2 v d))
          (fun v => x13 (ix1 v))
          (Cert.Spec.ln z c512 eps (fun f => x2 (ix1 f)) (fun f => x3 (ix1 f)) (fun f => x1 (ix5 b f t h w)))
          (fun c => x0 (ix5 b c t h w)) v := by
  rw [val_main_v79_apply, val_main_v78_apply,
    show idx_main_v78 (idx_main_v79 (ix5 b v t h w)) = ix3 b (tok t h w) v from
      funext fun a => Fin.ext (by
        have hb := b.isLt; have hv := v.isLt; have ht := t.isLt; have hh := h.isLt; have hw := w.isLt
        match a with
        | ⟨0, _⟩ => show ((((b.val * 512 + v.val) * 4 + t.val) * 16 + h.val) * 16 + w.val) / 524288 = b.val; omega
        | ⟨1, _⟩ => show ((((b.val * 512 + v.val) * 4 + t.val) * 16 + h.val) * 16 + w.val) % 1024
            = t.val * 256 + h.val * 16 + w.val; omega
        | ⟨2, _⟩ => show ((((b.val * 512 + v.val) * 4 + t.val) * 16 + h.val) * 16 + w.val) / 1024 % 512 = v.val; omega),
    v77_at]
  unfold LN
  rw [X_tok, C_tok]

end Cert.RefForm

end
-- ==== Proof.PreDecode.lean ====
/-
  The range condition on the codes, read back from the printed precondition.

  The precondition's last conjunct says that every code lies in 0 … 511: the printed predicate ends with the
  comparison of the code array with 0 (signed, at least) and with 512 (signed, below), the conjunction of the two bit
  arrays, its reduction by "and" over all five axes, and the conjunction of that bit with the finiteness conjuncts
  before it. The predicate being 1 therefore gives both comparisons at every index. A code in that range is left
  unchanged by clamping it to 0 … 511.
-/
import proofs.«129167_j56925496541808_2_alg».proof.Defs
import proofs.«129167_j56925496541808_2_alg».proof.Proof.Gen.Pre_finite_inputs
import Idealize.ShloMosaic.Lib.ReduceAll
import Idealize.ShloMosaic.Lib.Pipeline.Value
import Idealize.ShloMosaic.Lib.ValueIdx

noncomputable section

namespace Cert.PreDecode

open Idealize.ShloMosaic Idealize.SL.Sem

/-- The scalar shape has one index. -/
instance : Subsingleton Cert.Pre_finite_inputs.S_.Idx := ⟨fun a b => funext fun d => d.elim0⟩

/-- The last four operations of the predicate: if their result is 1, the two bit arrays they combine are 1 at every
    index (whatever the bit of the earlier conjuncts is). -/
theorem part4_one [hPre_finite_inputs : Cert.Pre_finite_inputs.Facts]
    (v63 : IVec Cert.Pre_finite_inputs.S_ 1) (p q : IVec Cert.Pre_finite_inputs.S16x4x4x16x16 1)
    (j : Cert.Pre_finite_inputs.S_.Idx)
    (e : Cert.Pre_finite_inputs.fn_part4 (F := Ideal) v63 p q j = 1#1)
    (i : Cert.Pre_finite_inputs.S16x4x4x16x16.Idx) : p i = 1#1 ∧ q i = 1#1 := by
  unfold Cert.Pre_finite_inputs.fn_part4 at e
  dsimp only at e
  have e2 := (IntOp.andi_eq_one.1 e).2
  have e3 := Host.reduce_andi_all _ _ _ _ j e2 i
  exact IntOp.andi_eq_one.1 e3

/-- Every code is in 0 … 511 (read as a signed word). -/
theorem codes_in_range [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S16x4x4x16x16.Idx) :
    0 ≤ (m ((c.tc : Thread Cert.KernelIdeal.nD Cert.KernelIdeal.τ).loc Cert.KernelIdeal.main_arg0) i).toInt
      ∧ (m ((c.tc : Thread Cert.KernelIdeal.nD Cert.KernelIdeal.τ).loc Cert.KernelIdeal.main_arg0) i).toInt < 512 := by
  have e := congrFun (h c) ValueIdx.ix0
  obtain ⟨hp, hq⟩ := part4_one _ _ _ ValueIdx.ix0 e i
  have h0 := IntOp.cmpi_sge.1 hp
  have h1 := IntOp.cmpi_slt.1 hq
  rw [broadcastInDim_apply _ _ _ i ValueIdx.ix0 (fun a => a.elim0)] at h0 h1
  have z0 : (0#32 : BitVec 32).toInt = 0 := by decide
  have z512 : (512#32 : BitVec 32).toInt = 512 := by decide
  exact ⟨z0 ▸ h0, z512 ▸ h1⟩

/-- Clamping a code that is already in 0 … 511 to that range leaves it unchanged. -/
theorem clamp_id (s : BitVec 32) (h0 : 0 ≤ s.toInt) (h1 : s.toInt < 512) :
    IntOp.minsi 511#32 (IntOp.maxsi 0#32 s) = s := by
  have z0 : (0#32 : BitVec 32).toInt = 0 := by decide
  have z511 : (511#32 : BitVec 32).toInt = 511 := by decide
  have a : IntOp.maxsi 0#32 s = s := by
    unfold IntOp.maxsi
    exact if_neg (by rw [BitVec.slt_iff_toInt_lt, z0]; omega)
  rw [a]
  unfold IntOp.minsi
  exact if_neg (by rw [BitVec.slt_iff_toInt_lt, z511]; omega)

end Cert.PreDecode

end
-- ==== Proof.EntryRead.lean ====
/-
  The kernel's operand arrays when the region is entered, read at an index.

  Each of the sixteen arrays is a layout operation (a regrouping, a slice, a stacking) or a format change of argument
  arrays, so an entry of it is one entry of one argument: the regrouped features at (batch entry, channel, token
  t·256 + h·16 + w) are the features at (batch entry, channel, t, h, w); the clamped codes are the clamp to 0 … 511
  of the code of the same token, which under the precondition (every code already in that range) is the code itself;
  a column [512, 1] reads the vector it came from; a weight array reads itself (its format change is the identity on
  the extended reals); and row 512·k + d of a stacked array is row d of the k-th slab, that is, of the slab's weight
  array at the slab's columns.
-/
import proofs.«129167_j56925496541808_2_alg».proof.Proof.HostPrefix
import proofs.«129167_j56925496541808_2_alg».proof.Proof.RefForm
import proofs.«129167_j56925496541808_2_alg».proof.Proof.PreDecode
import Idealize.ShloMosaic.Lib.ValueLayout

set_option maxRecDepth 16384

noncomputable section

namespace Cert.KernelIdeal.Entry

open Idealize.ShloMosaic Idealize.ShloMosaic.TcCoe Idealize.ShloMosaic.StableHlo Idealize.ShloMosaic.ValueIdx
open Idealize.SL Idealize.SL.Sem
open Cert.KernelIdeal Cert.KernelIdeal.Gen Cert.KernelIdeal.Hand
open Cert.RefForm (tok)

/-! ## A vector as a column -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## Square arrays stacked along the rows -/

section Stack
variable {α : Type}

/-- Three [512, 512] arrays stacked: rows 0 … 511 are the first. -/
theorem stack3_at0 (x0 x1 x2 : S512x512.Idx → α) (hc : Shape.Concatenates [S512x512, S512x512, S512x512] S1536x512 0)
    (d w : Fin 512) (r : Fin 1536) (hr : r.val = d.val) :
    concatenate S1536x512 0 [⟨S512x512, x0⟩, ⟨S512x512, x1⟩, ⟨S512x512, x2⟩] hc (ix2 r w) = x0 (ix2 d w) :=
  concatenate_apply_piece 0 [⟨S512x512, x0⟩, ⟨S512x512, x1⟩, ⟨S512x512, x2⟩] hc (ix2 r w) 0 (by show (0 : Nat) < 3; decide) S512x512 x0 rfl rfl 0 rfl
    (ix2 d w) (fun b hb => by match b with | ⟨0, _⟩ => exact absurd rfl hb | ⟨1, _⟩ => rfl)
    (by show 0 + d.val = r.val; omega)

/-- Three [512, 512] arrays stacked: rows 512 … 1023 are the second. -/
theorem stack3_at1 (x0 x1 x2 : S512x512.Idx → α) (hc : Shape.Concatenates [S512x512, S512x512, S512x512] S1536x512 0)
    (d w : Fin 512) (r : Fin 1536) (hr : r.val = 512 + d.val) :
    concatenate S1536x512 0 [⟨S512x512, x0⟩, ⟨S512x512, x1⟩, ⟨S512x512, x2⟩] hc (ix2 r w) = x1 (ix2 d w) :=
  concatenate_apply_piece 0 [⟨S512x512, x0⟩, ⟨S512x512, x1⟩, ⟨S512x512, x2⟩] hc (ix2 r w) 1 (by show (1 : Nat) < 3; decide) S512x512 x1 rfl rfl 512 rfl
    (ix2 d w) (fun b hb => by match b with | ⟨0, _⟩ => exact absurd rfl hb | ⟨1, _⟩ => rfl)
    (by show 512 + d.val = r.val; omega)

/-- Three [512, 512] arrays stacked: rows 1024 … 1535 are the third. -/
theorem stack3_at2 (x0 x1 x2 : S512x512.Idx → α) (hc : Shape.Concatenates [S512x512, S512x512, S512x512] S1536x512 0)
    (d w : Fin 512) (r : Fin 1536) (hr : r.val = 1024 + d.val) :
    concatenate S1536x512 0 [⟨S512x512, x0⟩, ⟨S512x512, x1⟩, ⟨S512x512, x2⟩] hc (ix2 r w) = x2 (ix2 d w) :=
  concatenate_apply_piece 0 [⟨S512x512, x0⟩, ⟨S512x512, x1⟩, ⟨S512x512, x2⟩] hc (ix2 r w) 2 (by show (2 : Nat) < 3; decide) S512x512 x2 rfl rfl 1024 rfl
    (ix2 d w) (fun b hb => by match b with | ⟨0, _⟩ => exact absurd rfl hb | ⟨1, _⟩ => rfl)
    (by show 1024 + d.val = r.val; omega)

/-- Two [512, 512] arrays stacked: rows 0 … 511 are the first. -/
theorem stack2_at0 (x0 x1 : S512x512.Idx → α) (hc : Shape.Concatenates [S512x512, S512x512] S1024x512 0)
    (d w : Fin 512) (r : Fin 1024) (hr : r.val = d.val) :
    concatenate S1024x512 0 [⟨S512x512, x0⟩, ⟨S512x512, x1⟩] hc (ix2 r w) = x0 (ix2 d w) :=
  concatenate_apply_piece 0 [⟨S512x512, x0⟩, ⟨S512x512, x1⟩] hc (ix2 r w) 0 (by show (0 : Nat) < 2; decide) S512x512 x0 rfl rfl 0 rfl
    (ix2 d w) (fun b hb => by match b with | ⟨0, _⟩ => exact absurd rfl hb | ⟨1, _⟩ => rfl)
    (by show 0 + d.val = r.val; omega)

/-- Two [512, 512] arrays stacked: rows 512 … 1023 are the second. -/
theorem stack2_at1 (x0 x1 : S512x512.Idx → α) (hc : Shape.Concatenates [S512x512, S512x512] S1024x512 0)
    (d w : Fin 512) (r : Fin 1024) (hr : r.val = 512 + d.val) :
    concatenate S1024x512 0 [⟨S512x512, x0⟩, ⟨S512x512, x1⟩] hc (ix2 r w) = x1 (ix2 d w) :=
  concatenate_apply_piece 0 [⟨S512x512, x0⟩, ⟨S512x512, x1⟩] hc (ix2 r w) 1 (by show (1 : Nat) < 2; decide) S512x512 x1 rfl rfl 512 rfl
    (ix2 d w) (fun b hb => by match b with | ⟨0, _⟩ => exact absurd rfl hb | ⟨1, _⟩ => rfl)
    (by show 512 + d.val = r.val; omega)

end Stack

variable (m : (ℓ : Loc nD τ sig) → Buf (Elt Ideal) ℓ) (c : Dev nD)

/-! ## The regrouped features -/

/-- The features at (batch entry, channel, token `n`), for `n = t·256 + h·16 + w`. -/
theorem read_v0_of (bi : Fin 16) (f : Fin 512) (n : Fin 1024) (t : Fin 4) (h w : Fin 16)
    (hn : n.val = t.val * 256 + h.val * 16 + w.val) :
    (V m c main_v0 : S16x512x1024.Idx → EReal) (ix3 bi f n)
      = m ((c : Thread nD τ).loc main_arg1) (ix5 bi f t h w) := by
  rw [V_main_v0]
  exact shapeCast_apply _ _ _ _ (by
    show (S16x512x4x16x16.rowMajor (ix5 bi f t h w)).val = (S16x512x1024.rowMajor (ix3 bi f n)).val
    rw [Shape.rowMajor_val_five, Shape.rowMajor_val_three]
    show (((bi.val * 512 + f.val) * 4 + t.val) * 16 + h.val) * 16 + w.val = (bi.val * 512 + f.val) * 1024 + n.val
    omega)

theorem read_v0 (bi : Fin 16) (f : Fin 512) (t : Fin 4) (h w : Fin 16) :
    (V m c main_v0 : S16x512x1024.Idx → EReal) (ix3 bi f (tok t h w))
      = m ((c : Thread nD τ).loc main_arg1) (ix5 bi f t h w) :=
  read_v0_of m c bi f (tok t h w) t h w rfl

/-! ## The clamped codes -/

/-- The clamped code of channel `cc` (of the first three) at token `n = t·256 + h·16 + w`. -/
theorem read_v3_of (bi : Fin 16) (cc : Fin 3) (n : Fin 1024) (t : Fin 4) (h w : Fin 16)
    (hn : n.val = t.val * 256 + h.val * 16 + w.val) :
    (V m c main_v3 : S16x3x1024.Idx → BitVec 32) (ix3 bi cc n)
      = IntOp.minsi 511#32 (IntOp.maxsi 0#32
          (m ((c : Thread nD τ).loc main_arg0) (ix5 bi (⟨cc.val, by have := cc.isLt; omega⟩ : Fin 4) t h w))) := by
  rw [V_main_v3]
  refine congrArg₂ IntOp.minsi (broadcastInDim_apply _ _ _ _ ix0 (fun a => a.elim0))
    (congrArg₂ IntOp.maxsi (broadcastInDim_apply _ _ _ _ ix0 (fun a => a.elim0)) ?_)
  refine (slice3_axis1_apply 0 _ _ bi cc n (⟨cc.val, by have := cc.isLt; omega⟩ : Fin 4) (Nat.zero_add _).symm).trans ?_
  exact shapeCast_apply _ _ _ _ (by
    show (S16x4x4x16x16.rowMajor (ix5 bi (⟨cc.val, by have := cc.isLt; omega⟩ : Fin 4) t h w)).val
      = (S16x4x1024.rowMajor (ix3 bi (⟨cc.val, by have := cc.isLt; omega⟩ : Fin 4) n)).val
    rw [Shape.rowMajor_val_five, Shape.rowMajor_val_three]
    show (((bi.val * 4 + cc.val) * 4 + t.val) * 16 + h.val) * 16 + w.val = (bi.val * 4 + cc.val) * 1024 + n.val
    omega)

theorem read_v3 (bi : Fin 16) (cc : Fin 3) (t : Fin 4) (h w : Fin 16) :
    (V m c main_v3 : S16x3x1024.Idx → BitVec 32) (ix3 bi cc (tok t h w))
      = IntOp.minsi 511#32 (IntOp.maxsi 0#32
          (m ((c : Thread nD τ).loc main_arg0) (ix5 bi (⟨cc.val, by have := cc.isLt; omega⟩ : Fin 4) t h w))) :=
  read_v3_of m c bi cc (tok t h w) t h w rfl

/-- Under the precondition every code is already in 0 … 511, so the clamp does nothing. -/
theorem read_v3_pre [hPre_finite_inputs : Cert.Pre_finite_inputs.Facts] (hpre : Cert.Pre_KernelIdeal m)
    (bi : Fin 16) (cc : Fin 3) (t : Fin 4) (h w : Fin 16) :
    (V m c main_v3 : S16x3x1024.Idx → BitVec 32) (ix3 bi cc (tok t h w))
      = m ((c : Thread nD τ).loc main_arg0) (ix5 bi (⟨cc.val, by have := cc.isLt; omega⟩ : Fin 4) t h w) := by
  rw [read_v3]
  exact Cert.PreDecode.clamp_id _ (Cert.PreDecode.codes_in_range m hpre c _).1 (Cert.PreDecode.codes_in_range m hpre c _).2

/-! ## The seven columns -/

theorem read_v4 (f : Fin 512) : (V m c main_v4 : S512x1.Idx → EReal) (ix2 f (0 : Fin 1)) = m ((c : Thread nD τ).loc main_arg2) (ix1 f) := by
  rw [V_main_v4]; exact shapeCast_a_a1_apply _ _ f 0
theorem read_v5 (f : Fin 512) : (V m c main_v5 : S512x1.Idx → EReal) (ix2 f (0 : Fin 1)) = m ((c : Thread nD τ).loc main_arg3) (ix1 f) := by
  rw [V_main_v5]; exact shapeCast_a_a1_apply _ _ f 0
theorem read_v7 (f : Fin 512) : (V m c main_v7 : S512x1.Idx → EReal) (ix2 f (0 : Fin 1)) = m ((c : Thread nD τ).loc main_arg5) (ix1 f) := by
  rw [V_main_v7]; exact shapeCast_a_a1_apply _ _ f 0
theorem read_v9 (f : Fin 512) : (V m c main_v9 : S512x1.Idx → EReal) (ix2 f (0 : Fin 1)) = m ((c : Thread nD τ).loc main_arg7) (ix1 f) := by
  rw [V_main_v9]; exact shapeCast_a_a1_apply _ _ f 0
theorem read_v11 (f : Fin 512) : (V m c main_v11 : S512x1.Idx → EReal) (ix2 f (0 : Fin 1)) = m ((c : Thread nD τ).loc main_arg9) (ix1 f) := by
  rw [V_main_v11]; exact shapeCast_a_a1_apply _ _ f 0
theorem read_v13 (f : Fin 512) : (V m c main_v13 : S512x1.Idx → EReal) (ix2 f (0 : Fin 1)) = m ((c : Thread nD τ).loc main_arg11) (ix1 f) := by
  rw [V_main_v13]; exact shapeCast_a_a1_apply _ _ f 0
theorem read_v15 (f : Fin 512) : (V m c main_v15 : S512x1.Idx → EReal) (ix2 f (0 : Fin 1)) = m ((c : Thread nD τ).loc main_arg13) (ix1 f) := by
  rw [V_main_v15]; exact shapeCast_a_a1_apply _ _ f 0

/-! ## The five weight arrays -/

theorem read_v6 (d f : Fin 512) : (V m c main_v6 : S512x512.Idx → EReal) (ix2 d f) = m ((c : Thread nD τ).loc main_arg4) (ix2 d f) := by
  rw [V_main_v6]; rfl
theorem read_v8 (d : Fin 512) (f : Fin 1024) : (V m c main_v8 : S512x1024.Idx → EReal) (ix2 d f) = m ((c : Thread nD τ).loc main_arg6) (ix2 d f) := by
  rw [V_main_v8]; rfl
theorem read_v10 (d : Fin 512) (f : Fin 1536) : (V m c main_v10 : S512x1536.Idx → EReal) (ix2 d f) = m ((c : Thread nD τ).loc main_arg8) (ix2 d f) := by
  rw [V_main_v10]; rfl
theorem read_v12 (d : Fin 512) (f : Fin 2048) : (V m c main_v12 : S512x2048.Idx → EReal) (ix2 d f) = m ((c : Thread nD τ).loc main_arg10) (ix2 d f) := by
  rw [V_main_v12]; rfl
theorem read_v14 (d f : Fin 512) : (V m c main_v14 : S512x512.Idx → EReal) (ix2 d f) = m ((c : Thread nD τ).loc main_arg12) (ix2 d f) := by
  rw [V_main_v14]; rfl

/-! ## The two stacked arrays -/

/-- Rows 0 … 511 of the code-0 stack: the second layer's weights at columns 512 … 1023. -/
theorem read_v20_0 (d w : Fin 512) :
    (V m c main_v20 : S1536x512.Idx → EReal) (ix2 (⟨d.val, by have := d.isLt; omega⟩ : Fin 1536) w)
      = m ((c : Thread nD τ).loc main_arg6) (ix2 d (⟨512 + w.val, by have := w.isLt; omega⟩ : Fin 1024)) := by
  rw [V_main_v20, truncf_apply]
  refine (stack3_at0 _ _ _ _ d w _ rfl).trans ?_
  exact slice2_axis1_eq 512 _ _ d w

/-- Rows 512 … 1023 of the code-0 stack: the third layer's weights at columns 512 … 1023. -/
theorem read_v20_1 (d w : Fin 512) :
    (V m c main_v20 : S1536x512.Idx → EReal) (ix2 (⟨512 + d.val, by have := d.isLt; omega⟩ : Fin 1536) w)
      = m ((c : Thread nD τ).loc main_arg8) (ix2 d (⟨512 + w.val, by have := w.isLt; omega⟩ : Fin 1536)) := by
  rw [V_main_v20, truncf_apply]
  refine (stack3_at1 _ _ _ _ d w _ rfl).trans ?_
  exact slice2_axis1_eq 512 _ _ d w

/-- Rows 1024 … 1535 of the code-0 stack: the fourth layer's weights at columns 512 … 1023. -/
theorem read_v20_2 (d w : Fin 512) :
    (V m c main_v20 : S1536x512.Idx → EReal) (ix2 (⟨1024 + d.val, by have := d.isLt; omega⟩ : Fin 1536) w)
      = m ((c : Thread nD τ).loc main_arg10) (ix2 d (⟨512 + w.val, by have := w.isLt; omega⟩ : Fin 2048)) := by
  rw [V_main_v20, truncf_apply]
  refine (stack3_at2 _ _ _ _ d w _ rfl).trans ?_
  exact slice2_axis1_eq 512 _ _ d w

/-- Rows 0 … 511 of the code-1 stack: the third layer's weights at columns 1024 … 1535. -/
theorem read_v24_0 (d w : Fin 512) :
    (V m c main_v24 : S1024x512.Idx → EReal) (ix2 (⟨d.val, by have := d.isLt; omega⟩ : Fin 1024) w)
      = m ((c : Thread nD τ).loc main_arg8) (ix2 d (⟨1024 + w.val, by have := w.isLt; omega⟩ : Fin 1536)) := by
  rw [V_main_v24, truncf_apply]
  refine (stack2_at0 _ _ _ d w _ rfl).trans ?_
  exact slice2_axis1_eq 1024 _ _ d w

/-- Rows 512 … 1023 of the code-1 stack: the fourth layer's weights at columns 1024 … 1535. -/
theorem read_v24_1 (d w : Fin 512) :
    (V m c main_v24 : S1024x512.Idx → EReal) (ix2 (⟨512 + d.val, by have := d.isLt; omega⟩ : Fin 1024) w)
      = m ((c : Thread nD τ).loc main_arg10) (ix2 d (⟨1024 + w.val, by have := w.isLt; omega⟩ : Fin 2048)) := by
  rw [V_main_v24, truncf_apply]
  refine (stack2_at1 _ _ _ d w _ rfl).trans ?_
  exact slice2_axis1_eq 1024 _ _ d w

end Cert.KernelIdeal.Entry

end
-- ==== Proof.Results.lean ====
/-
  The kernel's four results are the reference's four results, as functions of the argument arrays.

  Result k of the kernel is output array k regrouped from [16, 512, 1024] to [16, 512, 4, 16, 16]; its entry
  (bi, v, t, h, w) is the array's entry (bi, v, t·256 + h·16 + w), the token function of token (bi, t·256 + h·16 + w)
  at row v. The operand arrays read, entry by entry, as the argument arrays do: the regrouped features at that token
  are the features at (bi, ·, t, h, w); the clamped codes are the codes themselves, because the precondition keeps
  every code in 0 … 511; the columns are the bias and layer-norm vectors; the weight arrays are unchanged; the rows of
  the stacked arrays are the code column slabs of the layers' weights. So the entry is the reference's
  `Cert.Spec.out k` of the argument arrays at (bi, t, h, w), row v (`K0_at … K3_at`), which is what the reference's
  result k holds there (`K0_eq … K3_eq`). The only use of the precondition is the range of the codes; no finiteness
  of the floating-point arguments is needed.
-/
import proofs.«129167_j56925496541808_2_alg».proof.Defs
import proofs.«129167_j56925496541808_2_alg».proof.Proof.KernelFlush
import proofs.«129167_j56925496541808_2_alg».proof.Proof.EntryRead
import proofs.«129167_j56925496541808_2_alg».proof.Proof.RefForm
import proofs.«129167_j56925496541808_2_alg».proof.Proof.PreDecode
import proofs.«129167_j56925496541808_2_alg».proof.Proof.Gen.ReferenceIdeal.Read

set_option maxRecDepth 16384

noncomputable section

namespace Cert.KernelIdeal.Result

open Idealize.ShloMosaic Idealize.ShloMosaic.TcCoe Idealize.ShloMosaic.ValueIdx
open Idealize.SL Idealize.SL.Sem
open Cert.KernelIdeal Cert.KernelIdeal.Gen Cert.KernelIdeal.Hand Cert.KernelIdeal.Entry
open Cert.RefForm (tok)

variable [hPre_finite_inputs : Cert.Pre_finite_inputs.Facts]
variable (m : (ℓ : Loc nD τ sig) → Buf (Elt Ideal) ℓ)

/-- Entry (bi, v, t, h, w) of the regrouped array sits at row-major position of (bi, v, t·256 + h·16 + w). -/
theorem regroup_apply (X : S16x512x1024.Idx → EReal) (bi : Fin 16) (v : Fin 512) (t : Fin 4) (h w : Fin 16) :
    shapeCast S16x512x4x16x16 X shapeCasts_S16x512x1024_S16x512x4x16x16 (ix5 bi v t h w) = X (ix3 bi v (tok t h w)) := by
  refine shapeCast_apply X _ (ix5 bi v t h w) (ix3 bi v (tok t h w)) ?_
  rw [Shape.rowMajor_val_three, Shape.rowMajor_val_five]
  show (bi.val * 512 + v.val) * 1024 + (t.val * 256 + h.val * 16 + w.val)
    = (((bi.val * 512 + v.val) * 4 + t.val) * 16 + h.val) * 16 + w.val
  omega

/-- Result 0 of the kernel, as an array. -/
def K0 (c : Dev nD) : S16x512x4x16x16.Idx → EReal :=
  shapeCast S16x512x4x16x16 (Cert.Whole.G (Cert.Whole.tok0 (V m c main_v0 : S16x512x1024.Idx → EReal) (V m c main_v4 : S512x1.Idx → EReal) (V m c main_v5 : S512x1.Idx → EReal) (V m c main_v6 : S512x512.Idx → EReal) (V m c main_v7 : S512x1.Idx → EReal) (V m c main_v14 : S512x512.Idx → EReal) (V m c main_v15 : S512x1.Idx → EReal))) shapeCasts_S16x512x1024_S16x512x4x16x16

theorem K0_at (c : Dev nD) (bi : Fin 16) (v : Fin 512) (t : Fin 4) (h w : Fin 16) :
    K0 m c (ix5 bi v t h w)
      = Cert.Spec.out 0 (fun d f => (m ((c : Thread nD τ).loc main_arg4)) (ix2 d f)) (fun d => (m ((c : Thread nD τ).loc main_arg5)) (ix1 d))
          (fun v d => (m ((c : Thread nD τ).loc main_arg12)) (ix2 v d)) (fun v => (m ((c : Thread nD τ).loc main_arg13)) (ix1 v))
          (Cert.Spec.ln (Ideal.ofBits .f32 0x00000000#32) Cert.Whole.c512 Cert.Whole.eps (fun f => (m ((c : Thread nD τ).loc main_arg2)) (ix1 f)) (fun f => (m ((c : Thread nD τ).loc main_arg3)) (ix1 f))
            (fun f => (m ((c : Thread nD τ).loc main_arg1)) (ix5 bi f t h w)))
          (fun cc => (m ((c : Thread nD τ).loc main_arg0)) (ix5 bi cc t h w)) v := by
  unfold K0
  rw [regroup_apply, Cert.Whole.G_ix3]
  exact Cert.Whole.bridge0 (a0 := (m ((c : Thread nD τ).loc main_arg0))) (a1 := (m ((c : Thread nD τ).loc main_arg1))) (a2 := (m ((c : Thread nD τ).loc main_arg2))) (a3 := (m ((c : Thread nD τ).loc main_arg3))) (a12 := (m ((c : Thread nD τ).loc main_arg12))) (a13 := (m ((c : Thread nD τ).loc main_arg13)))
      (E0 := (V m c main_v0 : S16x512x1024.Idx → EReal)) (E2 := (V m c main_v4 : S512x1.Idx → EReal)) (E3 := (V m c main_v5 : S512x1.Idx → EReal)) (E12 := (V m c main_v14 : S512x512.Idx → EReal)) (E13 := (V m c main_v15 : S512x1.Idx → EReal))
      (bi := bi) (n := tok t h w) (t := t) (h := h) (w := w)
      (h0 := fun f => read_v0 m c bi f t h w) (h2 := read_v4 m c) (h3 := read_v5 m c)
      (h12 := read_v14 m c) (h13 := read_v15 m c)
      (m ((c : Thread nD τ).loc main_arg4)) (m ((c : Thread nD τ).loc main_arg5)) (V m c main_v6 : S512x512.Idx → EReal) (V m c main_v7 : S512x1.Idx → EReal) (read_v6 m c) (read_v7 m c) v

/-- The reference's result 0, as the generated reading states it, is the kernel's. -/
theorem K0_eq (c : Dev nD) :
    Cert.ReferenceIdeal.Read.val_main_v40 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) (m ((c : Thread nD τ).loc main_arg13)) = K0 m c := by
  funext i
  obtain ⟨bi, v, t, h, w, rfl⟩ : ∃ (bi : Fin 16) (v : Fin 512) (t : Fin 4) (h w : Fin 16), i = ix5 bi v t h w :=
    ⟨i 0, i 1, i 2, i 3, i 4, eq_ix5 i⟩
  rw [K0_at m c bi v t h w]
  exact Cert.RefForm.out0_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) (m ((c : Thread nD τ).loc main_arg13)) bi v t h w

/-- Result 1 of the kernel, as an array. -/
def K1 (c : Dev nD) : S16x512x4x16x16.Idx → EReal :=
  shapeCast S16x512x4x16x16 (Cert.Whole.G (Cert.Whole.tok1 (V m c main_v0 : S16x512x1024.Idx → EReal) (V m c main_v3 : S16x3x1024.Idx → BitVec 32) (V m c main_v4 : S512x1.Idx → EReal) (V m c main_v5 : S512x1.Idx → EReal) (V m c main_v8 : S512x1024.Idx → EReal) (V m c main_v9 : S512x1.Idx → EReal) (V m c main_v14 : S512x512.Idx → EReal) (V m c main_v15 : S512x1.Idx → EReal) (V m c main_v20 : S1536x512.Idx → EReal))) shapeCasts_S16x512x1024_S16x512x4x16x16

theorem K1_at (hpre : Cert.Pre_KernelIdeal m) (c : Dev nD) (bi : Fin 16) (v : Fin 512) (t : Fin 4) (h w : Fin 16) :
    K1 m c (ix5 bi v t h w)
      = Cert.Spec.out 1 (fun d f => (m ((c : Thread nD τ).loc main_arg6)) (ix2 d f)) (fun d => (m ((c : Thread nD τ).loc main_arg7)) (ix1 d))
          (fun v d => (m ((c : Thread nD τ).loc main_arg12)) (ix2 v d)) (fun v => (m ((c : Thread nD τ).loc main_arg13)) (ix1 v))
          (Cert.Spec.ln (Ideal.ofBits .f32 0x00000000#32) Cert.Whole.c512 Cert.Whole.eps (fun f => (m ((c : Thread nD τ).loc main_arg2)) (ix1 f)) (fun f => (m ((c : Thread nD τ).loc main_arg3)) (ix1 f))
            (fun f => (m ((c : Thread nD τ).loc main_arg1)) (ix5 bi f t h w)))
          (fun cc => (m ((c : Thread nD τ).loc main_arg0)) (ix5 bi cc t h w)) v := by
  unfold K1
  rw [regroup_apply, Cert.Whole.G_ix3]
  exact Cert.Whole.bridge1 (a0 := (m ((c : Thread nD τ).loc main_arg0))) (a1 := (m ((c : Thread nD τ).loc main_arg1))) (a2 := (m ((c : Thread nD τ).loc main_arg2))) (a3 := (m ((c : Thread nD τ).loc main_arg3))) (a12 := (m ((c : Thread nD τ).loc main_arg12))) (a13 := (m ((c : Thread nD τ).loc main_arg13)))
      (E0 := (V m c main_v0 : S16x512x1024.Idx → EReal)) (E1 := (V m c main_v3 : S16x3x1024.Idx → BitVec 32)) (E2 := (V m c main_v4 : S512x1.Idx → EReal)) (E3 := (V m c main_v5 : S512x1.Idx → EReal)) (E12 := (V m c main_v14 : S512x512.Idx → EReal)) (E13 := (V m c main_v15 : S512x1.Idx → EReal))
      (bi := bi) (n := tok t h w) (t := t) (h := h) (w := w)
      (h0 := fun f => read_v0 m c bi f t h w) (h1 := fun cc => read_v3_pre m c hpre bi cc t h w) (h2 := read_v4 m c) (h3 := read_v5 m c)
      (h12 := read_v14 m c) (h13 := read_v15 m c)
      (m ((c : Thread nD τ).loc main_arg6)) (m ((c : Thread nD τ).loc main_arg7)) (V m c main_v8 : S512x1024.Idx → EReal) (V m c main_v9 : S512x1.Idx → EReal) (V m c main_v20 : S1536x512.Idx → EReal) (read_v8 m c) (read_v9 m c) (read_v20_0 m c) v

/-- The reference's result 1, as the generated reading states it, is the kernel's. -/
theorem K1_eq (hpre : Cert.Pre_KernelIdeal m) (c : Dev nD) :
    Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg12)) (m ((c : Thread nD τ).loc main_arg13)) = K1 m c := by
  funext i
  obtain ⟨bi, v, t, h, w, rfl⟩ : ∃ (bi : Fin 16) (v : Fin 512) (t : Fin 4) (h w : Fin 16), i = ix5 bi v t h w :=
    ⟨i 0, i 1, i 2, i 3, i 4, eq_ix5 i⟩
  rw [K1_at m hpre c bi v t h w]
  exact Cert.RefForm.out1_at (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg12)) (m ((c : Thread nD τ).loc main_arg13)) bi v t h w

/-- Result 2 of the kernel, as an array. -/
def K2 (c : Dev nD) : S16x512x4x16x16.Idx → EReal :=
  shapeCast S16x512x4x16x16 (Cert.Whole.G (Cert.Whole.tok2 (V m c main_v0 : S16x512x1024.Idx → EReal) (V m c main_v3 : S16x3x1024.Idx → BitVec 32) (V m c main_v4 : S512x1.Idx → EReal) (V m c main_v5 : S512x1.Idx → EReal) (V m c main_v10 : S512x1536.Idx → EReal) (V m c main_v11 : S512x1.Idx → EReal) (V m c main_v14 : S512x512.Idx → EReal) (V m c main_v15 : S512x1.Idx → EReal) (V m c main_v20 : S1536x512.Idx → EReal) (V m c main_v24 : S1024x512.Idx → EReal))) shapeCasts_S16x512x1024_S16x512x4x16x16

theorem K2_at (hpre : Cert.Pre_KernelIdeal m) (c : Dev nD) (bi : Fin 16) (v : Fin 512) (t : Fin 4) (h w : Fin 16) :
    K2 m c (ix5 bi v t h w)
      = Cert.Spec.out 2 (fun d f => (m ((c : Thread nD τ).loc main_arg8)) (ix2 d f)) (fun d => (m ((c : Thread nD τ).loc main_arg9)) (ix1 d))
          (fun v d => (m ((c : Thread nD τ).loc main_arg12)) (ix2 v d)) (fun v => (m ((c : Thread nD τ).loc main_arg13)) (ix1 v))
          (Cert.Spec.ln (Ideal.ofBits .f32 0x00000000#32) Cert.Whole.c512 Cert.Whole.eps (fun f => (m ((c : Thread nD τ).loc main_arg2)) (ix1 f)) (fun f => (m ((c : Thread nD τ).loc main_arg3)) (ix1 f))
            (fun f => (m ((c : Thread nD τ).loc main_arg1)) (ix5 bi f t h w)))
          (fun cc => (m ((c : Thread nD τ).loc main_arg0)) (ix5 bi cc t h w)) v := by
  unfold K2
  rw [regroup_apply, Cert.Whole.G_ix3]
  exact Cert.Whole.bridge2 (a0 := (m ((c : Thread nD τ).loc main_arg0))) (a1 := (m ((c : Thread nD τ).loc main_arg1))) (a2 := (m ((c : Thread nD τ).loc main_arg2))) (a3 := (m ((c : Thread nD τ).loc main_arg3))) (a12 := (m ((c : Thread nD τ).loc main_arg12))) (a13 := (m ((c : Thread nD τ).loc main_arg13)))
      (E0 := (V m c main_v0 : S16x512x1024.Idx → EReal)) (E1 := (V m c main_v3 : S16x3x1024.Idx → BitVec 32)) (E2 := (V m c main_v4 : S512x1.Idx → EReal)) (E3 := (V m c main_v5 : S512x1.Idx → EReal)) (E12 := (V m c main_v14 : S512x512.Idx → EReal)) (E13 := (V m c main_v15 : S512x1.Idx → EReal))
      (bi := bi) (n := tok t h w) (t := t) (h := h) (w := w)
      (h0 := fun f => read_v0 m c bi f t h w) (h1 := fun cc => read_v3_pre m c hpre bi cc t h w) (h2 := read_v4 m c) (h3 := read_v5 m c)
      (h12 := read_v14 m c) (h13 := read_v15 m c)
      (m ((c : Thread nD τ).loc main_arg8)) (m ((c : Thread nD τ).loc main_arg9)) (V m c main_v10 : S512x1536.Idx → EReal) (V m c main_v11 : S512x1.Idx → EReal) (V m c main_v20 : S1536x512.Idx → EReal) (V m c main_v24 : S1024x512.Idx → EReal) (read_v10 m c) (read_v11 m c) (read_v20_1 m c) (read_v24_0 m c) v

/-- The reference's result 2, as the generated reading states it, is the kernel's. -/
theorem K2_eq (hpre : Cert.Pre_KernelIdeal m) (c : Dev nD) :
    Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) = K2 m c := by
  funext i
  obtain ⟨bi, v, t, h, w, rfl⟩ : ∃ (bi : Fin 16) (v : Fin 512) (t : Fin 4) (h w : Fin 16), i = ix5 bi v t h w :=
    ⟨i 0, i 1, i 2, i 3, i 4, eq_ix5 i⟩
  rw [K2_at m hpre c bi v t h w]
  exact Cert.RefForm.out2_at (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg12)) (m ((c : Thread nD τ).loc main_arg13)) bi v t h w

/-- Result 3 of the kernel, as an array. -/
def K3 (c : Dev nD) : S16x512x4x16x16.Idx → EReal :=
  shapeCast S16x512x4x16x16 (Cert.Whole.G (Cert.Whole.tok3 (V m c main_v0 : S16x512x1024.Idx → EReal) (V m c main_v3 : S16x3x1024.Idx → BitVec 32) (V m c main_v4 : S512x1.Idx → EReal) (V m c main_v5 : S512x1.Idx → EReal) (V m c main_v12 : S512x2048.Idx → EReal) (V m c main_v13 : S512x1.Idx → EReal) (V m c main_v14 : S512x512.Idx → EReal) (V m c main_v15 : S512x1.Idx → EReal) (V m c main_v20 : S1536x512.Idx → EReal) (V m c main_v24 : S1024x512.Idx → EReal))) shapeCasts_S16x512x1024_S16x512x4x16x16

theorem K3_at (hpre : Cert.Pre_KernelIdeal m) (c : Dev nD) (bi : Fin 16) (v : Fin 512) (t : Fin 4) (h w : Fin 16) :
    K3 m c (ix5 bi v t h w)
      = Cert.Spec.out 3 (fun d f => (m ((c : Thread nD τ).loc main_arg10)) (ix2 d f)) (fun d => (m ((c : Thread nD τ).loc main_arg11)) (ix1 d))
          (fun v d => (m ((c : Thread nD τ).loc main_arg12)) (ix2 v d)) (fun v => (m ((c : Thread nD τ).loc main_arg13)) (ix1 v))
          (Cert.Spec.ln (Ideal.ofBits .f32 0x00000000#32) Cert.Whole.c512 Cert.Whole.eps (fun f => (m ((c : Thread nD τ).loc main_arg2)) (ix1 f)) (fun f => (m ((c : Thread nD τ).loc main_arg3)) (ix1 f))
            (fun f => (m ((c : Thread nD τ).loc main_arg1)) (ix5 bi f t h w)))
          (fun cc => (m ((c : Thread nD τ).loc main_arg0)) (ix5 bi cc t h w)) v := by
  unfold K3
  rw [regroup_apply, Cert.Whole.G_ix3]
  exact Cert.Whole.bridge3 (a0 := (m ((c : Thread nD τ).loc main_arg0))) (a1 := (m ((c : Thread nD τ).loc main_arg1))) (a2 := (m ((c : Thread nD τ).loc main_arg2))) (a3 := (m ((c : Thread nD τ).loc main_arg3))) (a12 := (m ((c : Thread nD τ).loc main_arg12))) (a13 := (m ((c : Thread nD τ).loc main_arg13)))
      (E0 := (V m c main_v0 : S16x512x1024.Idx → EReal)) (E1 := (V m c main_v3 : S16x3x1024.Idx → BitVec 32)) (E2 := (V m c main_v4 : S512x1.Idx → EReal)) (E3 := (V m c main_v5 : S512x1.Idx → EReal)) (E12 := (V m c main_v14 : S512x512.Idx → EReal)) (E13 := (V m c main_v15 : S512x1.Idx → EReal))
      (bi := bi) (n := tok t h w) (t := t) (h := h) (w := w)
      (h0 := fun f => read_v0 m c bi f t h w) (h1 := fun cc => read_v3_pre m c hpre bi cc t h w) (h2 := read_v4 m c) (h3 := read_v5 m c)
      (h12 := read_v14 m c) (h13 := read_v15 m c)
      (m ((c : Thread nD τ).loc main_arg10)) (m ((c : Thread nD τ).loc main_arg11)) (V m c main_v12 : S512x2048.Idx → EReal) (V m c main_v13 : S512x1.Idx → EReal) (V m c main_v20 : S1536x512.Idx → EReal) (V m c main_v24 : S1024x512.Idx → EReal) (read_v12 m c) (read_v13 m c) (read_v20_2 m c) (read_v24_1 m c) v

/-- The reference's result 3, as the generated reading states it, is the kernel's. -/
theorem K3_eq (hpre : Cert.Pre_KernelIdeal m) (c : Dev nD) :
    Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) (m ((c : Thread nD τ).loc main_arg12)) (m ((c : Thread nD τ).loc main_arg13)) = K3 m c := by
  funext i
  obtain ⟨bi, v, t, h, w, rfl⟩ : ∃ (bi : Fin 16) (v : Fin 512) (t : Fin 4) (h w : Fin 16), i = ix5 bi v t h w :=
    ⟨i 0, i 1, i 2, i 3, i 4, eq_ix5 i⟩
  rw [K3_at m hpre c bi v t h w]
  exact Cert.RefForm.out3_at (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) (m ((c : Thread nD τ).loc main_arg12)) (m ((c : Thread nD τ).loc main_arg13)) bi v t h w

end Cert.KernelIdeal.Result

end
-- ==== Proof.lean ====
/-
  The channel predictor: a fused kernel against its reference, on the extended reals.

  Both programs take four integer code channels and 512 feature channels per token (16 batch entries × 4·16·16
  positions), layer-normalise the features over the channels, turn the first three codes into indicator columns of
  length 512, and compute four heads: head k feeds the normalised features and the indicator columns of codes
  0 … k-1 through a dense layer, a bias and a rectifier, then through a shared projection with bias.

  The reference does this token-major, with one long dot product per head over the concatenated input. The kernel
  keeps the channel-major layout of the input, works on blocks of 512 tokens of one batch entry, multiplies the
  feature part and each code part of a hidden layer separately (the code parts through two arrays in which the
  layers' code column slabs are stacked) and adds them up, and clamps the codes to 0 … 511 before comparing them
  with the row numbers. On the extended reals a change of float format is the identity, so the two differ only by
  (a) the order of the factors in each product and the grouping of each sum — commutativity and associativity, which
  hold without any finiteness — and (b) the clamp, which is the identity exactly when every code lies in 0 … 511:
  the precondition says so, and outside that range the two programs do differ (the reference's indicator column of
  an out-of-range code is zero, the kernel's is the column of the clamped code).

  The proof: each program's frame (it runs to the end, faults nowhere and leaves its arguments unchanged) — for the
  two printed copies of the kernel by the launch theorem for host lines, one region, host lines, over the body's
  triple; for the reference from its run —; then, at the extended reals, the kernel's run with its four results
  named as whole-array functions of the arguments, the reference's run with its four results read at an index, and
  the equality of the two, token by token.
-/
import proofs.«129167_j56925496541808_2_alg».proof.Defs
import proofs.«129167_j56925496541808_2_alg».proof.Proof.Gen.Kernel
import proofs.«129167_j56925496541808_2_alg».proof.Proof.Gen.KernelIdeal
import proofs.«129167_j56925496541808_2_alg».proof.Proof.Gen.ReferenceIdeal
import proofs.«129167_j56925496541808_2_alg».proof.Proof.Gen.Pre_finite_inputs
import proofs.«129167_j56925496541808_2_alg».proof.Proof.Gen.ReferenceIdeal.Run
import proofs.«129167_j56925496541808_2_alg».proof.Proof.Gen.ReferenceIdeal.Read
import proofs.«129167_j56925496541808_2_alg».proof.Proof.FrameRun
import proofs.«129167_j56925496541808_2_alg».proof.Proof.FrameRunBits
import proofs.«129167_j56925496541808_2_alg».proof.Proof.Results
import Idealize.ShloMosaic.Adequacy
import Idealize.ShloMosaic.Init

set_option maxRecDepth 16384

noncomputable section

namespace Cert.Proof

open Idealize.ShloMosaic Idealize.SL.Sem

/-- The kernel as printed runs to the end, faults nowhere, and leaves its arguments unchanged. -/
theorem frame_kernel : Cert.frame_Kernel := fun m ρ _ => Cert.Kernel.Hand.frame m ρ

/-- So does its reading on the extended reals. -/
theorem frame_kernelIdeal : Cert.frame_KernelIdeal := fun m ρ _ => Cert.KernelIdeal.Hand.frame m ρ

/-- The reference's frame is its run with the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The idealization rewrote nothing. -/
theorem preserves : Cert.preserves_Kernel_KernelIdeal := trivial

/-- From memories agreeing on the arguments, with every code in 0 … 511, both programs end with the same four
    results: the kernel's output arrays regrouped, each the reference's token formula at every entry. -/
theorem algebraic : Cert.algebraic_KernelIdeal_ReferenceIdeal := by
  intro m ρ m' ρ' hpre hagree
  refine ⟨fun c => Cert.KernelIdeal.Result.K0 m c, fun c => Cert.KernelIdeal.Result.K1 m c,
    fun c => Cert.KernelIdeal.Result.K2 m c, fun c => Cert.KernelIdeal.Result.K3 m c, ?_, ?_⟩
  · refine (θ_run Cert.KernelIdeal.defs _ _).mono (fun r h c => ?_) (Cert.KernelIdeal.Hand.run_value (F := Ideal) m ρ)
    obtain ⟨h0, h1, h2, h3, hargs⟩ := h c
    refine ⟨?_, ?_, ?_, ?_, hargs⟩
    · rw [h0, Cert.KernelIdeal.Hand.final16]; rfl
    · rw [h1, Cert.KernelIdeal.Hand.final17]; rfl
    · rw [h2, Cert.KernelIdeal.Hand.final18]; rfl
    · rw [h3, Cert.KernelIdeal.Hand.final19]; rfl
  · refine (θ_run Cert.ReferenceIdeal.defs _ _).mono (fun r h c => ?_) (Cert.ReferenceIdeal.Value.run (F := Ideal) m' ρ')
    obtain ⟨h0, h1, h2, h3, hargs⟩ := h c
    obtain ⟨e0, e1, e2, e3, e4, e5, e6, e7, e8, e9, e10, e11, e12, e13⟩ := hagree c
    refine ⟨?_, ?_, ?_, ?_, hargs⟩
    · refine (h0.trans (Cert.ReferenceIdeal.Read.val_main_v40_eq (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)))).trans ?_
      rw [e1, e2, e3, e4, e5, e12, e13]
      exact Cert.KernelIdeal.Result.K0_eq m c
    · refine (h1.trans (Cert.ReferenceIdeal.Read.val_main_v53_eq m' c)).trans ?_
      rw [e0, e1, e2, e3, e6, e7, e12, e13]
      exact Cert.KernelIdeal.Result.K1_eq m hpre c
    · refine (h2.trans (Cert.ReferenceIdeal.Read.val_main_v66_eq m' c)).trans ?_
      rw [e0, e1, e2, e3, e8, e9, e12, e13]
      exact Cert.KernelIdeal.Result.K2_eq m hpre c
    · refine (h3.trans (Cert.ReferenceIdeal.Read.val_main_v79_eq m' c)).trans ?_
      rw [e0, e1, e2, e3, e10, e11, e12, e13]
      exact Cert.KernelIdeal.Result.K3_eq m hpre c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
